-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v120) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg7 : FVec F S3x128 .f32) (main_arg8 : FVec F S3x128 .f32) (main_arg9 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S1600000 32) (main_arg3 : IVec S100000 32) (main_arg4 : FVec F S128x128 .f32) (main_arg5 : FVec F S128 .f32) (main_arg6 : FVec F S3x128x128 .f32) (main_arg7 : FVec F S3x128 .f32) (main_arg8 : FVec F S3x128 .f32) (main_arg9 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S1x128x128 : Shape := ⟨3, ![1, 128, 128]⟩
abbrev S1600000x128 : Shape := ⟨2, ![1600000, 128]⟩
abbrev S5000x1 : Shape := ⟨2, ![5000, 1]⟩
abbrev S5000 : Shape := ⟨1, ![5000]⟩
abbrev S512 : Shape := ⟨1, ![512]⟩
abbrev S512x128 : Shape := ⟨2, ![512, 128]⟩
abbrev S512x1 : Shape := ⟨2, ![512, 1]⟩

abbrev nBuf : Space → Nat
  | .hbm => 152
  | .vmem => 58
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S100000, .i32⟩
  | 4 => ⟨S128x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000x1, .f32⟩
  | 47 => ⟨S1x128, .f32⟩
  | 48 => ⟨S100000x128, .f32⟩
  | 49 => ⟨S1x128x128, .f32⟩
  | 50 => ⟨S128x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S1x128, .f32⟩
  | 75 => ⟨S128, .f32⟩
  | 76 => ⟨S1x128, .f32⟩
  | 77 => ⟨S100000x128, .f32⟩
  | 78 => ⟨S1x128x128, .f32⟩
  | 79 => ⟨S128x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S1600000x1, .f32⟩
  | 91 => ⟨S1600000x128, .f32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S1x128, .f32⟩
  | 98 => ⟨S128, .f32⟩
  | 99 => ⟨S1x128, .f32⟩
  | 100 => ⟨S1x128, .f32⟩
  | 101 => ⟨S128, .f32⟩
  | 102 => ⟨S1x128, .f32⟩
  | 103 => ⟨S1x128, .f32⟩
  | 104 => ⟨S128, .f32⟩
  | 105 => ⟨S1x128, .f32⟩
  | 106 => ⟨S100000x128, .f32⟩
  | 107 => ⟨S1x128x128, .f32⟩
  | 108 => ⟨S128x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S1600000x1, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S100000x128, .f32⟩
  | 8 => ⟨S_, .f32⟩
  | 9 => ⟨S100000, .f32⟩
  | 10 => ⟨S_, .f32⟩
  | 11 => ⟨S512, .f32⟩
  | 12 => ⟨S100000x1, .i32⟩
  | 13 => ⟨S512, .f32⟩
  | 14 => ⟨S_, .f32⟩
  | 15 => ⟨S512x128, .f32⟩
  | 16 => ⟨S100000x1, .i32⟩
  | 17 => ⟨S512x128, .f32⟩
  | 18 => ⟨S_, .f32⟩
  | 19 => ⟨S512, .f32⟩
  | 20 => ⟨S512, .f32⟩
  | 21 => ⟨S512x1, .f32⟩
  | 22 => ⟨S512x128, .f32⟩
  | 23 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_12 : Ref sig .tc := ⟨.hbm, 110, rfl⟩
abbrev main_v86 : Ref sig .tc := ⟨.hbm, 111, rfl⟩
abbrev main_v87 : Ref sig .tc := ⟨.hbm, 112, rfl⟩
abbrev main_c_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_15 : Ref sig .tc := ⟨.hbm, 136, rfl⟩
abbrev main_v109 : Ref sig .tc := ⟨.hbm, 137, rfl⟩
abbrev main_cst_16 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_17 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_18 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg6_1 : Ref sig .tc := ⟨.vmem, 55, rfl⟩
abbrev cc6_stg7_0 : Ref sig .tc := ⟨.vmem, 56, rfl⟩
abbrev cc6_stg7_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55
abbrev cc6_sem7_0 : DmaSem sig := 56
abbrev cc6_sem7_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56) S5000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v82) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v98) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v28) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v101) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v82) S5000x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v108) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S_ : Shape := ⟨0, ![]⟩
abbrev S1600000x1 : Shape := ⟨2, ![1600000, 1]⟩
abbrev S1x128 : Shape := ⟨2, ![1, 128]⟩
abbrev S1x128x128 : Shape := ⟨3, ![1, 128, 128]⟩
abbrev S1600000x128 : Shape := ⟨2, ![1600000, 128]⟩
abbrev S100000x1 : Shape := ⟨2, ![100000, 1]⟩
abbrev S512 : Shape := ⟨1, ![512]⟩
abbrev S512x128 : Shape := ⟨2, ![512, 128]⟩
abbrev S512x1 : Shape := ⟨2, ![512, 1]⟩

abbrev nBuf : Space → Nat
  | .hbm => 260
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S100000, .i32⟩
  | 4 => ⟨S128x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000x128, .f32⟩
  | 47 => ⟨S1x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S100000x128, .f32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S_, .f32⟩
  | 100 => ⟨S100000x1, .f32⟩
  | 101 => ⟨S100000x1, .f32⟩
  | 102 => ⟨S100000x1, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S1600000x1, .f32⟩
  | 127 => ⟨S1600000x128, .f32⟩
  | _ => ⟨S100000x128, .f32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S100000x1, .f32⟩
  | 6 => ⟨S100000x128, .f32⟩
  | 7 => ⟨S100000x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S100000x128, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x128, .f32⟩
  | 34 => ⟨S100000x128, .f32⟩
  | 35 => ⟨S_, .f32⟩
  | 36 => ⟨S100000x1, .f32⟩
  | 37 => ⟨S100000x1, .f32⟩
  | 38 => ⟨S100000x1, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S100000x128, .f32⟩
  | 90 => ⟨S100000x128, .f32⟩
  | 91 => ⟨S100000x128, .f32⟩
  | 92 => ⟨S_, .f32⟩
  | 93 => ⟨S100000, .f32⟩
  | 94 => ⟨S100000x1, .f32⟩
  | 95 => ⟨S_, .f32⟩
  | 96 => ⟨S100000x1, .f32⟩
  | 97 => ⟨S100000x1, .f32⟩
  | 98 => ⟨S100000x128, .f32⟩
  | 99 => ⟨S100000x128, .f32⟩
  | 100 => ⟨S_, .f32⟩
  | 101 => ⟨S100000x1, .f32⟩
  | 102 => ⟨S100000x1, .f32⟩
  | 103 => ⟨S100000x1, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .f32⟩
  | 117 => ⟨S100000, .f32⟩
  | 118 => ⟨S_, .f32⟩
  | 119 => ⟨S512, .f32⟩
  | 120 => ⟨S100000x1, .i32⟩
  | 121 => ⟨S512, .f32⟩
  | 122 => ⟨S_, .f32⟩
  | 123 => ⟨S512x128, .f32⟩
  | 124 => ⟨S100000x1, .i32⟩
  | 125 => ⟨S512x128, .f32⟩
  | 126 => ⟨S_, .f32⟩
  | 127 => ⟨S512, .f32⟩
  | _ => ⟨S100000x128, .f32⟩

abbrev hbmTy0_2 (i : Nat) : BufTy := match i % 128 with
  | 0 => ⟨S512, .f32⟩
  | 1 => ⟨S512x1, .f32⟩
  | 2 => ⟨S512x128, .f32⟩
  | 3 => ⟨S512x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call0_cst : Ref sig .tc := ⟨.hbm, 111, rfl⟩
abbrev main_call0_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_14 : Ref sig .tc := ⟨.hbm, 117, rfl⟩
abbrev main_v89 : Ref sig .tc := ⟨.hbm, 118, rfl⟩
abbrev main_v90 : Ref sig .tc := ⟨.hbm, 119, rfl⟩
abbrev main_c_15 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_17 : Ref sig .tc := ⟨.hbm, 146, rfl⟩
abbrev main_v115 : Ref sig .tc := ⟨.hbm, 147, rfl⟩
abbrev main_v116 : Ref sig .tc := ⟨.hbm, 148, rfl⟩
abbrev main_cst_18 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_19 : Ref sig .tc := ⟨.hbm, 155, rfl⟩
abbrev main_v122 : Ref sig .tc := ⟨.hbm, 156, rfl⟩
abbrev main_v123 : Ref sig .tc := ⟨.hbm, 157, rfl⟩
abbrev main_cst_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_call1_cst : Ref sig .tc := ⟨.hbm, 175, rfl⟩
abbrev main_call1_v0 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c_22 : Ref sig .tc := ⟨.hbm, 182, rfl⟩
abbrev main_v144 : Ref sig .tc := ⟨.hbm, 183, rfl⟩
abbrev main_v145 : Ref sig .tc := ⟨.hbm, 184, rfl⟩
abbrev main_c_23 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_24 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_25 : Ref sig .tc := ⟨.hbm, 211, rfl⟩
abbrev main_v170 : Ref sig .tc := ⟨.hbm, 212, rfl⟩
abbrev main_v171 : Ref sig .tc := ⟨.hbm, 213, rfl⟩
abbrev main_cst_26 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_27 : Ref sig .tc := ⟨.hbm, 220, rfl⟩
abbrev main_v177 : Ref sig .tc := ⟨.hbm, 221, rfl⟩
abbrev main_v178 : Ref sig .tc := ⟨.hbm, 222, rfl⟩
abbrev main_cst_28 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_29 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_call2_cst : Ref sig .tc := ⟨.hbm, 240, rfl⟩
abbrev main_call2_v0 : Ref sig .tc := ⟨.hbm, 241, rfl⟩
abbrev main_v194 : Ref sig .tc := ⟨.hbm, 242, rfl⟩
abbrev main_v195 : Ref sig .tc := ⟨.hbm, 243, rfl⟩
abbrev main_cst_30 : Ref sig .tc := ⟨.hbm, 244, rfl⟩
abbrev main_v196 : Ref sig .tc := ⟨.hbm, 245, rfl⟩
abbrev main_cst_31 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_32 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_cst_33 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S_S100000x1 : S_.BroadcastsInDim S100000x1 (![] : Fin 0 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.KernelRun.lean ====
/-
  The idealized kernel's run with its results named.  The program is seven tiled regions among stretches of host
  operations; the contents of every buffer at each boundary are a fold from the launch memory (host stretches applied
  in order, each region's arrays replaced by what its tiles wrote back).  Every weakly fair execution terminates with
  each buffer at the last boundary's contents: here that is read at the two result buffers and at the ten arguments.
-/
import proofs.«102601_j59450937311581_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with the two result buffers at the last boundary's
    contents and the argument arrays as launched. -/
theorem run_final : θ_run defs (onTc (τ := τ) (main (F := F))) ⟨m, fun _ => 0, ρ⟩ (fun r => ∀ c : Dev nD,
      r.2.mem ((c.tc : Thread nD τ).loc main_v108) = W15 m ρ c (Proc.devRef .tc main_v108)
      ∧ r.2.mem ((c.tc : Thread nD τ).loc main_v120) = W15 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v108 (by decide)),
       h c _ (mem_uc main_v120 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunValue

end
-- ==== Proof.Spec.lean ====
/-
  The mathematics both programs compute, stated once, index by index, on the extended reals.

  A graph of 100000 nodes with 128 features per node.  A dense layer multiplies every node's feature row by a
  128 x 128 weight matrix: entry (r, c) of the result is the sum over k of x (r, k) * w (k, c) (`proj`), and the
  input projection adds a bias row (`projBias`).  A combine step forms, for node r, the row
  agg (r, k) + xw (r, k) * d (r) + b (k) (`pre`), normalises that row by its own mean and variance
  (mean = (sum of the row) / 128, variance = mean of the squared deviations), scales by the inverse square root of
  variance + eps, applies the per-feature gain and shift, and clamps below at zero (`normRelu`); layers after the
  first add the layer's input back (`combineRes`).  Nothing here depends on how the rows are tiled.
-/
import Idealize.ShloMosaic.PureOps.Ideal
import Idealize.ShloMosaic.Lib.ValueIdx

noncomputable section

namespace Cert.Spec

open Idealize.ShloMosaic Idealize.ShloMosaic.ValueIdx

abbrev SNxD : Shape := ⟨2, ![100000, 128]⟩
abbrev SDxD : Shape := ⟨2, ![128, 128]⟩
abbrev S1xD : Shape := ⟨2, ![1, 128]⟩
abbrev SNx1 : Shape := ⟨2, ![100000, 1]⟩

/-- A dense layer: row r of x against column c of w. -/
def proj (x : FVec Ideal SNxD .f32) (w : FVec Ideal SDxD .f32) : FVec Ideal SNxD .f32 :=
  fun i => ∑ k : Fin 128, x (ix2 (i 0) k) * w (ix2 k (i 1))

/-- A dense layer followed by a bias row added to every node. -/
def projBias (x : FVec Ideal SNxD .f32) (w : FVec Ideal SDxD .f32) (b : FVec Ideal S1xD .f32) : FVec Ideal SNxD .f32 :=
  fun i => proj x w i + b (ix2 (0 : Fin 1) (i 1))

/-- The mean of a row of 128 entries: its sum divided by 128. -/
def rowMean (f : Fin 128 → EReal) : EReal :=
  Ideal.div (∑ k : Fin 128, f k) (Ideal.ofBits .f32 0x43000000#32)

/-- Layer normalisation of one row with gain g and shift be, clamped below at zero, at feature k. -/
def normRelu (f : Fin 128 → EReal) (g be : FVec Ideal S1xD .f32) (k : Fin 128) : EReal :=
  max ((f k - rowMean f)
        * Ideal.rsqrt (rowMean (fun j => (f j - rowMean f) * (f j - rowMean f)) + Ideal.ofBits .f32 0x3727C5AC#32)
        * g (ix2 (0 : Fin 1) k) + be (ix2 (0 : Fin 1) k))
      (Ideal.ofBits .f32 0x00000000#32)

/-- Node r's row before normalisation: aggregated messages, the self term scaled by the node's inverse degree, the bias. -/
def pre (agg xw : FVec Ideal SNxD .f32) (d : FVec Ideal SNx1 .f32) (b : FVec Ideal S1xD .f32) (r : Fin 100000) (k : Fin 128) : EReal :=
  agg (ix2 r k) + xw (ix2 r k) * d (ix2 r (0 : Fin 1)) + b (ix2 (0 : Fin 1) k)

/-- The combine step of the first layer. -/
def combine (agg xw : FVec Ideal SNxD .f32) (d : FVec Ideal SNx1 .f32) (b g be : FVec Ideal S1xD .f32) : FVec Ideal SNxD .f32 :=
  fun i => normRelu (pre agg xw d b (i 0)) g be (i 1)

/-- The combine step of a later layer: the layer's input is added back. -/
def combineRes (agg xw : FVec Ideal SNxD .f32) (d : FVec Ideal SNx1 .f32) (b g be : FVec Ideal S1xD .f32)
    (res : FVec Ideal SNxD .f32) : FVec Ideal SNxD .f32 :=
  fun i => combine agg xw d b g be i + res i

end Cert.Spec

end
-- ==== Proof.RefCombine.lean ====
/-
  A combine step of the reference as a whole-array function.  It is a chain of host operations: the row before
  normalisation (aggregated messages + self term scaled by the node's inverse degree + bias, the small operands
  broadcast along the missing axis), its mean as the row sum divided by 128, the deviations, the variance as the mean
  of their squares, the inverse square root of variance + eps broadcast back along the row, the gain, the shift, and
  the clamp at zero.  Read at an index (r, k) every broadcast reads its operand at the coordinate it keeps, the row
  sum is the sum over the 128 features of row r (its initial value is zero), and the chain is `Spec.combine` there.
-/
import proofs.«102601_j59450937311581_1_alg».proof.Proof.Gen.ReferenceIdeal
import proofs.«102601_j59450937311581_1_alg».proof.Proof.Spec
import Idealize.ShloMosaic.PureOps.Ideal.Laws
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.ValueIdx

/-! ## Broadcasts and the row sum read at an index -/

/-- A column [100000,1] broadcast along the row reads the column at the row's index. -/
theorem bcastCol_apply (d : FVec Ideal S100000x1 .f32) (i : S100000x128.Idx) :
    broadcastInDim S100000x128 ![0, 1] bcast_S100000x1_S100000x128_0_1 d i = d (ix2 (i 0) (0 : Fin 1)) :=
  broadcastInDim_apply _ bcast_S100000x1_S100000x128_0_1 d i _ (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row [1,128] broadcast down the nodes reads the row at the feature's index. -/
theorem bcastRow_apply (b : FVec Ideal S1x128 .f32) (i : S100000x128.Idx) :
    broadcastInDim S100000x128 ![0, 1] bcast_S1x128_S100000x128_0_1 b i = b (ix2 (0 : Fin 1) (i 1)) :=
  broadcastInDim_apply _ bcast_S1x128_S100000x128_0_1 b i _ (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A vector [100000] given a trailing unit axis reads the vector at the node's index. -/
theorem keep_apply (v : FVec Ideal S100000 .f32) (j : S100000x1.Idx) :
    broadcastInDim S100000x1 ![0] bcast_S100000_S100000x1_0 v j = v (ix1 (j 0)) :=
  broadcastInDim_apply _ bcast_S100000_S100000x1_0 v j _ (fun a => match a with
    | ⟨0, _⟩ => by show (j 0).val = if (100000 : Nat) = 1 then 0 else (j 0).val; rw [if_neg (by decide)])

/-- A scalar splat over the column shape is that scalar. -/
theorem splatCol_apply (w : BitVec 32) (j : S100000x1.Idx) :
    broadcastInDim S100000x1 ![] bcast_S_S100000x1 (constant (F := Ideal) S_ .f32 w) j = Ideal.ofBits .f32 w :=
  (broadcastInDim_apply ![] bcast_S_S100000x1 (constant (F := Ideal) S_ .f32 w) j (fun a => a.elim0) (fun a => a.elim0)).trans rfl

/-- A scalar splat over the node-feature shape is that scalar. -/
theorem splatFull_apply (w : BitVec 32) (i : S100000x128.Idx) :
    broadcastInDim S100000x128 ![] bcast_S_S100000x128 (constant (F := Ideal) S_ .f32 w) i = Ideal.ofBits .f32 w :=
  (broadcastInDim_apply ![] bcast_S_S100000x128 (constant (F := Ideal) S_ .f32 w) i (fun a => a.elim0) (fun a => a.elim0)).trans rfl

/-- The host's sum over the feature axis from a zero initial value is the sum of the row's 128 entries. -/
theorem rowSum_apply (y : FVec Ideal S100000x128 .f32) (j : S100000.Idx) :
    Host.reduceAdd y (constant (F := Ideal) S_ .f32 0x00000000#32) reducesTo_S100000x128_S100000_d1 h_S_ j
      = ∑ k : Fin 128, y (ix2 (j 0) k) := by
  simp only [Host.reduceAdd, Ideal.hostReduceAdd_def]
  rw [Ideal.hostReduceAdd_single reducesTo_S100000x128_S100000_d1 (by decide)]
  refine (congrArg (· + _) (show constant (F := Ideal) S_ .f32 0x00000000#32 (Shape.Idx.first h_S_) = (0 : EReal) from
    Ideal.ofBits_zero_f32)).trans ((zero_add _).trans ?_)
  refine Finset.sum_congr rfl fun k _ => ?_
  exact congrArg y (funext fun a => Fin.ext (by match a with | ⟨0, _⟩ => rfl | ⟨1, _⟩ => rfl))

/-! ## A combine step -/

/-- A node's row before normalisation, as the host computes it. -/
def hostPre (agg xw : FVec Ideal S100000x128 .f32) (d : FVec Ideal S100000x1 .f32) (b : FVec Ideal S1x128 .f32) :
    FVec Ideal S100000x128 .f32 :=
  addf (addf agg (mulf xw (broadcastInDim S100000x128 ![0, 1] bcast_S100000x1_S100000x128_0_1 d)))
    (broadcastInDim S100000x128 ![0, 1] bcast_S1x128_S100000x128_0_1 b)

/-- Each row's mean, kept as a column: the row sum divided by 128. -/
def hostMean (y : FVec Ideal S100000x128 .f32) : FVec Ideal S100000x1 .f32 :=
  Host.divf
    (broadcastInDim S100000x1 ![0] bcast_S100000_S100000x1_0
      (Host.reduceAdd y (constant (F := Ideal) S_ .f32 0x00000000#32) reducesTo_S100000x128_S100000_d1 h_S_))
    (broadcastInDim S100000x1 ![] bcast_S_S100000x1 (constant (F := Ideal) S_ .f32 0x43000000#32))

/-- Each entry's deviation from its row's mean. -/
def hostDev (y : FVec Ideal S100000x128 .f32) : FVec Ideal S100000x128 .f32 :=
  subf y (broadcastInDim S100000x128 ![0, 1] bcast_S100000x1_S100000x128_0_1 (hostMean y))

/-- The reference's combine step: layer normalisation of the pre-normalisation rows, clamped below at zero. -/
def hostCombine (agg xw : FVec Ideal S100000x128 .f32) (d : FVec Ideal S100000x1 .f32) (b g be : FVec Ideal S1x128 .f32) :
    FVec Ideal S100000x128 .f32 :=
  maximumf
    (addf
      (mulf
        (mulf (hostDev (hostPre agg xw d b))
          (broadcastInDim S100000x128 ![0, 1] bcast_S100000x1_S100000x128_0_1
            (Host.rsqrt (addf (hostMean (mulf (hostDev (hostPre agg xw d b)) (hostDev (hostPre agg xw d b))))
              (broadcastInDim S100000x1 ![] bcast_S_S100000x1 (constant (F := Ideal) S_ .f32 0x3727C5AC#32))))))
        (broadcastInDim S100000x128 ![0, 1] bcast_S1x128_S100000x128_0_1 g))
      (broadcastInDim S100000x128 ![0, 1] bcast_S1x128_S100000x128_0_1 be))
    (broadcastInDim S100000x128 ![] bcast_S_S100000x128 (constant (F := Ideal) S_ .f32 0x00000000#32))

theorem hostPre_apply (agg xw : FVec Ideal S100000x128 .f32) (d : FVec Ideal S100000x1 .f32) (b : FVec Ideal S1x128 .f32)
    (r : Fin 100000) (k : Fin 128) : hostPre agg xw d b (ix2 r k) = Cert.Spec.pre agg xw d b r k := by
  unfold hostPre Cert.Spec.pre
  rw [addf_apply, addf_apply, mulf_apply, bcastCol_apply, bcastRow_apply]

theorem hostMean_apply (y : FVec Ideal S100000x128 .f32) (r : Fin 100000) :
    hostMean y (ix2 r (0 : Fin 1)) = Cert.Spec.rowMean (fun k => y (ix2 r k)) := by
  unfold hostMean Cert.Spec.rowMean
  show Ideal.div _ _ = _
  rw [keep_apply, splatCol_apply, rowSum_apply]

theorem hostDev_apply (y : FVec Ideal S100000x128 .f32) (r : Fin 100000) (k : Fin 128) :
    hostDev y (ix2 r k) = y (ix2 r k) - Cert.Spec.rowMean (fun j => y (ix2 r j)) := by
  unfold hostDev
  rw [subf_apply, bcastCol_apply]
  exact congrArg (y (ix2 r k) - ·) (hostMean_apply y r)

/-- The reference's combine chain is the specification's combine step. -/
theorem hostCombine_eq (agg xw : FVec Ideal S100000x128 .f32) (d : FVec Ideal S100000x1 .f32) (b g be : FVec Ideal S1x128 .f32) :
    hostCombine agg xw d b g be = Cert.Spec.combine agg xw d b g be := by
  funext i
  obtain ⟨r, k, rfl⟩ : ∃ (r : Fin 100000) (k : Fin 128), i = ix2 r k := ⟨i 0, i 1, eq_ix2 i⟩
  unfold hostCombine
  rw [maximumf_apply, addf_apply, mulf_apply, mulf_apply, bcastRow_apply, bcastRow_apply, bcastCol_apply, splatFull_apply,
    hostDev_apply]
  show max (_ * Ideal.rsqrt _ * _ + _) _ = _
  rw [addf_apply, splatCol_apply, hostMean_apply]
  simp only [mulf_apply, hostDev_apply, hostPre_apply]
  rfl

end Cert.ReferenceIdeal.RefValue

end
-- ==== Proof.LibHostDot.lean ====
/-
  The host's matrix product (`dot_general`) with ONE contracted axis, read at an output index at the exact
  (extended-real) instance: the sum over that axis's coordinate k of the left operand at L k times the right operand
  at R k, for any functions L, R that give the two operand indices at each contraction position with coordinate k.
  The companion of the same fact for a kernel's product into a zero accumulator.
-/
import Idealize.ShloMosaic.PureOps.Ideal
import Idealize.ShloMosaic.PureOps.Ideal.Laws
import Idealize.ShloMosaic.Lib.ValueIdx

noncomputable section

namespace Cert.LibHostDot

open Idealize.ShloMosaic Idealize.ShloMosaic.ValueIdx

/-- Σ over the contraction index re-indexed by its one coordinate. -/
theorem dotGeneral_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    Host.dotGeneral D prec lhs rhs j = ∑ k : Fin n, lhs (L k) * rhs (R k) := by
  show FloatOps.dotGeneral D prec _ lhs rhs j = _
  rw [Ideal.dotGeneral_apply, ← Equiv.sum_comp (contrEquiv1 D n hr hs).symm]
  refine Finset.sum_congr rfl fun k _ => ?_
  have hk := contrEquiv1_symm_val D n hr hs k
  rw [hl _ k hk, hrr _ k hk]

end Cert.LibHostDot

end
-- ==== Proof.RefDense.lean ====
/-
  The reference's dense layer, read index by index: the host's matrix product of a [100000,128] array of node
  features with a [128,128] weight matrix contracts the feature axis — axis 1 of the left operand against axis 0 of
  the right — so entry (r, c) of the result is the sum over k of x (r, k) * w (k, c): the specification's product.
-/
import proofs.«102601_j59450937311581_1_alg».proof.Proof.Gen.ReferenceIdeal
import proofs.«102601_j59450937311581_1_alg».proof.Proof.Spec
import proofs.«102601_j59450937311581_1_alg».proof.Proof.LibHostDot
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.ValueIdx

/-- The left operand's index at output index i and a contraction position with coordinate k: the output's row, k as
    the column. -/
theorem lhs_at (i : S100000x128.Idx) (q : dot_S100000x128_S128x128_S100000x128_1_0_0_1_n_n.contr.Idx) (k : Fin 128)
    (hk : (q ⟨0, by decide⟩ : ℕ) = k.val) :
    dot_S100000x128_S128x128_S100000x128_1_0_0_1_n_n.lhsIdx i q = ix2 (i 0) k := by
  funext a
  apply Fin.ext
  match a with
  | ⟨0, _⟩ => rfl
  | ⟨1, _⟩ =>
    exact (DotDims.lhsIdx_val_of_single _ (cl := (1 : Fin 2)) rfl i q).trans hk

/-- The right operand's index: k as the row, the output's column. -/
theorem rhs_at (i : S100000x128.Idx) (q : dot_S100000x128_S128x128_S100000x128_1_0_0_1_n_n.contr.Idx) (k : Fin 128)
    (hk : (q ⟨0, by decide⟩ : ℕ) = k.val) :
    dot_S100000x128_S128x128_S100000x128_1_0_0_1_n_n.rhsIdx i q = ix2 k (i 1) := by
  funext a
  apply Fin.ext
  match a with
  | ⟨0, _⟩ =>
    exact (DotDims.rhsIdx_val_of_single _ (cr := (0 : Fin 2)) rfl i q).trans hk
  | ⟨1, _⟩ => rfl

/-- The host's matrix product of a [100000,128] array with a [128,128] matrix is the row-by-column sum. -/
theorem hostDense_eq (x : FVec Ideal S100000x128 .f32) (w : FVec Ideal S128x128 .f32) :
    Host.dotGeneral dot_S100000x128_S128x128_S100000x128_1_0_0_1_n_n none x w = Cert.Spec.proj x w := by
  funext i
  exact Cert.LibHostDot.dotGeneral_sum1 dot_S100000x128_S128x128_S100000x128_1_0_0_1_n_n none 128 rfl rfl x w i
    (fun k => ix2 (i 0) k) (fun k => ix2 k (i 1)) (fun q k hk => lhs_at i q k hk) (fun q k hk => rhs_at i q k hk)

end Cert.ReferenceIdeal.RefValue

end
-- ==== Proof.RefStages.lean ====
/-
  The reference's computation as named stages of its argument arrays, each stage a function of earlier stages (so a
  stage that several later ones read is one term, not a copy per reader).

  From the edge list: the two endpoint vectors (`src`, `dst`), every node's degree (the number of edges ending at
  it, plus one for the self loop), the inverse square root of the degree gathered at both endpoints and multiplied
  (`enorm`, one weight per edge), and the inverse degree as a column (`dinvCol`).  The node features start at the
  input projection (`x0`).  A layer multiplies the features by its weight matrix (`dense`), gathers the products at
  each edge's source, weighs them, adds them up at each edge's destination (`agg`), and combines: aggregated messages
  + self term + bias, normalised per node, clamped at zero (`layerFirst`); the second and third layers add their
  input back (`layerNext`).  The per-graph mean pool divides each graph's feature sum by its node count (at least 1).
  Each stage is the specification's function of the stages it reads.
-/
import proofs.«102601_j59450937311581_1_alg».proof.Proof.Gen.ReferenceIdeal
import proofs.«102601_j59450937311581_1_alg».proof.Proof.Spec
import proofs.«102601_j59450937311581_1_alg».proof.Proof.RefCombine
import proofs.«102601_j59450937311581_1_alg».proof.Proof.RefDense

set_option maxRecDepth 16384

noncomputable section

namespace Cert.ReferenceIdeal.RefValue

open Cert.ReferenceIdeal Cert.ReferenceIdeal.Gen Idealize.ShloMosaic Idealize.ShloMosaic.ValueIdx

/-! ## From the edge list -/

/-- Every edge's source node. -/
def src (a1 : IVec S2x1600000 32) : IVec S1600000 32 :=
  shapeCast _ (extractStridedSlice S1x1600000 ![0, 0] a1 slices_S2x1600000_S1x1600000_0_0) shapeCasts_S1x1600000_S1600000

/-- Every edge's destination node. -/
def dst (a1 : IVec S2x1600000 32) : IVec S1600000 32 :=
  shapeCast _ (extractStridedSlice S1x1600000 ![1, 0] a1 slices_S2x1600000_S1x1600000_1_0) shapeCasts_S1x1600000_S1600000

/-- Every node's degree: one per edge ending at it, plus one. -/
def deg (a1 : IVec S2x1600000 32) : FVec Ideal S100000 .f32 :=
  addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst a1))
      (broadcastInDim S1600000 ![] bcast_S_S1600000 (constant (F := Ideal) S_ .f32 0x3F800000#32)))
    (broadcastInDim S100000 ![] bcast_S_S100000 (constant (F := Ideal) S_ .f32 0x3F800000#32))

/-- A node index vector as a gather's index column, a negative index counted from the end. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Every edge's weight: the inverse square roots of its two endpoints' degrees, multiplied. -/
def enorm (a1 : IVec S2x1600000 32) : FVec Ideal S1600000 .f32 :=
  mulf (Host.gather gather_S100000_S1600000x1_S1600000_n_0_n_n_0_1_1 (Host.rsqrt (deg a1)) (wrap (src a1)))
    (Host.gather gather_S100000_S1600000x1_S1600000_n_0_n_n_0_1_1 (Host.rsqrt (deg a1)) (wrap (dst a1)))

/-- Every node's inverse degree. -/
def dinvVec (a1 : IVec S2x1600000 32) : FVec Ideal S100000 .f32 :=
  Host.divf (broadcastInDim S100000 ![] bcast_S_S100000 (constant (F := Ideal) S_ .f32 0x3F800000#32)) (deg a1)

/-- The inverse degrees as a [100000,1] column. -/
def dinvCol (a1 : IVec S2x1600000 32) : FVec Ideal S100000x1 .f32 :=
  broadcastInDim S100000x1 ![0] bcast_S100000_S100000x1_0 (dinvVec a1)

/-! ## Parameters -/

/-- A length-128 vector as a [1,128] row. -/
def rowOf (v : FVec Ideal S128 .f32) : FVec Ideal S1x128 .f32 :=
  broadcastInDim S1x128 ![1] bcast_S128_S1x128_1 v

/-- Layer 1's weight matrix: slice 0 of the stacked weights. -/
def w1 (a6 : FVec Ideal S3x128x128 .f32) : FVec Ideal S128x128 .f32 :=
  shapeCast _ (extractStridedSlice S1x128x128 ![0, 0, 0] a6 slices_S3x128x128_S1x128x128_0_0_0) shapeCasts_S1x128x128_S128x128

/-- Layer 2's weight matrix: slice 1 of the stacked weights. -/
def w2 (a6 : FVec Ideal S3x128x128 .f32) : FVec Ideal S128x128 .f32 :=
  shapeCast _ (extractStridedSlice S1x128x128 ![1, 0, 0] a6 slices_S3x128x128_S1x128x128_1_0_0) shapeCasts_S1x128x128_S128x128

/-- Layer 3's weight matrix: slice 2 of the stacked weights. -/
def w3 (a6 : FVec Ideal S3x128x128 .f32) : FVec Ideal S128x128 .f32 :=
  shapeCast _ (extractStridedSlice S1x128x128 ![2, 0, 0] a6 slices_S3x128x128_S1x128x128_2_0_0) shapeCasts_S1x128x128_S128x128

/-- Row 0 of a stacked [3,128] parameter, as a [1,128] row. -/
def par1 (a : FVec Ideal S3x128 .f32) : FVec Ideal S1x128 .f32 :=
  rowOf (shapeCast _ (extractStridedSlice S1x128 ![0, 0] a slices_S3x128_S1x128_0_0) shapeCasts_S1x128_S128)

/-- Row 1 of a stacked [3,128] parameter, as a [1,128] row. -/
def par2 (a : FVec Ideal S3x128 .f32) : FVec Ideal S1x128 .f32 :=
  rowOf (shapeCast _ (extractStridedSlice S1x128 ![1, 0] a slices_S3x128_S1x128_1_0) shapeCasts_S1x128_S128)

/-- Row 2 of a stacked [3,128] parameter, as a [1,128] row. -/
def par3 (a : FVec Ideal S3x128 .f32) : FVec Ideal S1x128 .f32 :=
  rowOf (shapeCast _ (extractStridedSlice S1x128 ![2, 0] a slices_S3x128_S1x128_2_0) shapeCasts_S1x128_S128)

/-! ## Layers -/

/-- The input projection: the node features times the input weights, plus the bias row. -/
def x0 (a0 : FVec Ideal S100000x128 .f32) (a4 : FVec Ideal S128x128 .f32) (a5 : FVec Ideal S128 .f32) : FVec Ideal S100000x128 .f32 :=
  addf (Host.dotGeneral dot_S100000x128_S128x128_S100000x128_1_0_0_1_n_n none a0 a4)
    (broadcastInDim S100000x128 ![0, 1] bcast_S1x128_S100000x128_0_1 (rowOf a5))

/-- A layer's dense product. -/
def dense (x : FVec Ideal S100000x128 .f32) (w : FVec Ideal S128x128 .f32) : FVec Ideal S100000x128 .f32 :=
  Host.dotGeneral dot_S100000x128_S128x128_S100000x128_1_0_0_1_n_n none x w

/-- Message passing: the products gathered at each edge's source, weighed, summed at each edge's destination. -/
def agg (a1 : IVec S2x1600000 32) (xw : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst a1))
    (mulf (Host.gather gather_S100000x128_S1600000x1_S1600000x128_1_0_n_n_0_1_1128 xw (wrap (src a1)))
      (broadcastInDim S1600000x128 ![0, 1] bcast_S1600000x1_S1600000x128_0_1
        (broadcastInDim S1600000x1 ![0] bcast_S1600000_S1600000x1_0 (enorm a1))))

/-- A layer without a residual: dense product, message passing, combine. -/
def layerFirst (a1 : IVec S2x1600000 32) (x : FVec Ideal S100000x128 .f32) (w : FVec Ideal S128x128 .f32)
    (b g be : FVec Ideal S1x128 .f32) : FVec Ideal S100000x128 .f32 :=
  hostCombine (agg a1 (dense x w)) (dense x w) (dinvCol a1) b g be

/-- A layer with its input added back. -/
def layerNext (a1 : IVec S2x1600000 32) (x : FVec Ideal S100000x128 .f32) (w : FVec Ideal S128x128 .f32)
    (b g be : FVec Ideal S1x128 .f32) : FVec Ideal S100000x128 .f32 :=
  addf (layerFirst a1 x w b g be) x

/-- The node features after layer 1. -/
def feat1 (a0 : FVec Ideal S100000x128 .f32) (a1 : IVec S2x1600000 32) (a4 : FVec Ideal S128x128 .f32) (a5 : FVec Ideal S128 .f32) (a6 : FVec Ideal S3x128x128 .f32) (a7 a8 a9 : FVec Ideal S3x128 .f32) : FVec Ideal S100000x128 .f32 :=
  layerFirst a1 (x0 a0 a4 a5) (w1 a6) (par1 a7) (par1 a8) (par1 a9)

/-- The node features after layer 2. -/
def feat2 (a0 : FVec Ideal S100000x128 .f32) (a1 : IVec S2x1600000 32) (a4 : FVec Ideal S128x128 .f32) (a5 : FVec Ideal S128 .f32) (a6 : FVec Ideal S3x128x128 .f32) (a7 a8 a9 : FVec Ideal S3x128 .f32) : FVec Ideal S100000x128 .f32 :=
  layerNext a1 (feat1 a0 a1 a4 a5 a6 a7 a8 a9) (w2 a6) (par2 a7) (par2 a8) (par2 a9)

/-- The node features after layer 3: the first result. -/
def feat3 (a0 : FVec Ideal S100000x128 .f32) (a1 : IVec S2x1600000 32) (a4 : FVec Ideal S128x128 .f32) (a5 : FVec Ideal S128 .f32) (a6 : FVec Ideal S3x128x128 .f32) (a7 a8 a9 : FVec Ideal S3x128 .f32) : FVec Ideal S100000x128 .f32 :=
  layerNext a1 (feat2 a0 a1 a4 a5 a6 a7 a8 a9) (w3 a6) (par3 a7) (par3 a8) (par3 a9)

/-- The per-graph mean of the node features: each graph's feature sum over its node count (at least one). -/
def pool (a3 : IVec S100000 32) (x : FVec Ideal S100000x128 .f32) : FVec Ideal S512x128 .f32 :=
  Host.divf
    (Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 a3) x)
    (broadcastInDim S512x128 ![0, 1] bcast_S512x1_S512x128_0_1
      (broadcastInDim S512x1 ![0] bcast_S512_S512x1_0
        (maximumf
          (Host.scatterAdd scatter_S512_S100000x1_S100000_n_0_0_1
            (broadcastInDim S512 ![] bcast_S_S512 (constant (F := Ideal) S_ .f32 0x00000000#32))
            (broadcastInDim S100000x1 ![0] bcast_S100000_S100000x1_0 a3)
            (broadcastInDim S100000 ![] bcast_S_S100000 (constant (F := Ideal) S_ .f32 0x3F800000#32)))
          (broadcastInDim S512 ![] bcast_S_S512 (constant (F := Ideal) S_ .f32 0x3F800000#32)))))

/-! ## Each stage is the specification's function of the stages it reads -/

/-- The input projection. -/
theorem x0_eq (a0 : FVec Ideal S100000x128 .f32) (a4 : FVec Ideal S128x128 .f32) (a5 : FVec Ideal S128 .f32) :
    x0 a0 a4 a5 = Cert.Spec.projBias a0 a4 (rowOf a5) := by
  funext i
  unfold x0 Cert.Spec.projBias
  rw [addf_apply, hostDense_eq, bcastRow_apply]

/-- A dense product. -/
theorem dense_eq (x : FVec Ideal S100000x128 .f32) (w : FVec Ideal S128x128 .f32) : dense x w = Cert.Spec.proj x w :=
  hostDense_eq x w

/-- A layer without a residual is the specification's combine step of its aggregated messages and dense product. -/
theorem layerFirst_eq (a1 : IVec S2x1600000 32) (x : FVec Ideal S100000x128 .f32) (w : FVec Ideal S128x128 .f32)
    (b g be : FVec Ideal S1x128 .f32) :
    layerFirst a1 x w b g be = Cert.Spec.combine (agg a1 (dense x w)) (dense x w) (dinvCol a1) b g be :=
  hostCombine_eq _ _ _ _ _ _

/-- A layer with a residual is the specification's combine step plus the layer's input. -/
theorem layerNext_eq (a1 : IVec S2x1600000 32) (x : FVec Ideal S100000x128 .f32) (w : FVec Ideal S128x128 .f32)
    (b g be : FVec Ideal S1x128 .f32) :
    layerNext a1 x w b g be = Cert.Spec.combineRes (agg a1 (dense x w)) (dense x w) (dinvCol a1) b g be x := by
  funext i
  unfold layerNext Cert.Spec.combineRes
  rw [addf_apply, layerFirst_eq]

end Cert.ReferenceIdeal.RefValue

end
-- ==== Proof.LibReshapeBcast.lean ====
/-
  Two reshapes that only add a unit axis are broadcasts along that axis.

  A length-n vector reshaped to a 1 × n row, and the same vector broadcast to 1 × n along a new leading axis, both
  hold the vector's entry c at (0, c).  A length-n vector reshaped to an n × 1 column, and the vector broadcast to
  n × 1 along a new trailing axis, both hold entry r at (r, 0).  (Row-major positions: (0, c) is c, (r, 0) is r.)
-/
import Idealize.ShloMosaic.Lib.Pipeline.Value
import Idealize.ShloMosaic.Lib.ValueIdx

noncomputable section

namespace Cert.LibReshapeBcast

open Idealize.ShloMosaic Idealize.ShloMosaic.ValueIdx

variable {α : Type}

/-- `[n] → [1, n]` by a reshape is `[n] → [1, n]` by a broadcast that keeps the vector's axis second. -/
theorem shapeCast_row_eq_broadcastInDim {n : ℕ} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨u, c, rfl⟩ : ∃ (u : Fin 1) (c : Fin n), j = ix2 u c := ⟨j 0, j 1, eq_ix2 j⟩
  have e1 : shapeCast ⟨2, ![1, n]⟩ v h (ix2 u c) = v (ix1 c) :=
    shapeCast_apply v h _ _ (by
      have hu : u.val = 0 := by omega
      rw [Shape.rowMajor_val_two, Shape.rowMajor_val_one]
      show c.val = u.val * n + c.val
      rw [hu, Nat.zero_mul, Nat.zero_add])
  have e2 : broadcastInDim ⟨2, ![1, n]⟩ ![1] h' v (ix2 u c) = v (ix1 c) :=
    broadcastInDim_apply ![1] h' v (ix2 u c) (ix1 c) (fun a => match a with
      | ⟨0, _⟩ => by
        show c.val = if n = 1 then 0 else c.val
        split
        · have := c.isLt; omega
        · rfl)
  rw [e1, e2]

/-- `[n] → [n, 1]` by a reshape is `[n] → [n, 1]` by a broadcast that keeps the vector's axis first. -/
theorem shapeCast_col_eq_broadcastInDim {n : ℕ} (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext j
  obtain ⟨r, u, rfl⟩ : ∃ (r : Fin n) (u : Fin 1), j = ix2 r u := ⟨j 0, j 1, eq_ix2 j⟩
  have e1 : shapeCast ⟨2, ![n, 1]⟩ v h (ix2 r u) = v (ix1 r) :=
    shapeCast_apply v h _ _ (by
      have hu : u.val = 0 := by omega
      rw [Shape.rowMajor_val_two, Shape.rowMajor_val_one]
      show r.val = r.val * 1 + u.val
      rw [hu, Nat.mul_one, Nat.add_zero])
  have e2 : broadcastInDim ⟨2, ![n, 1]⟩ ![0] h' v (ix2 r u) = v (ix1 r) :=
    broadcastInDim_apply ![0] h' v (ix2 r u) (ix1 r) (fun a => match a with
      | ⟨0, _⟩ => by
        show r.val = if n = 1 then 0 else r.val
        split
        · have := r.isLt; omega
        · rfl)
  rw [e1, e2]

end Cert.LibReshapeBcast

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.RegionDense.lean ====
/-
  The dense layers of the network, region by region: what each dense region leaves in its output array is the
  specification's whole-array product of the region's input arrays.

  A dense region walks the 100000 node rows in twenty blocks of 5000. At each block it multiplies the block
  [5000,128] by the whole weight matrix [128,128], accumulating from zero (the input projection then adds the bias
  row to every node row), and writes the block of results back. Entry (p, q) of a block's product is the sum over k
  of x (p, k) * w (k, q); the block at point t holds rows 5000 t … 5000 t + 4999 of the array, so that entry is the
  whole-array product at row 5000 t + p; and row r of the array lies in the block of point r / 5000, so the twenty
  write-backs fill the array.
-/
import proofs.«102601_j59450937311581_1_alg».proof.Proof.Gen.KernelIdeal.Frame
import proofs.«102601_j59450937311581_1_alg».proof.Proof.Spec
import proofs.«102601_j59450937311581_1_alg».proof.Proof.LibMatmul
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The dense product at an index

The contraction is over the feature axis: axis 1 of the left operand, axis 0 of the right. At output
index j and contraction position k the left operand is read at (j 0, k) and the right at (k, j 1). -/

/-- The left operand's index: the output's row, the contraction coordinate as the column. -/
theorem lhs_at (j : S5000x128.Idx) (q : dot_S5000x128_S128x128_S5000x128_1_0_0_1_n_n.contr.Idx) (k : Fin 128)
    (hk : (q ⟨0, by decide⟩ : ℕ) = k.val) :
    dot_S5000x128_S128x128_S5000x128_1_0_0_1_n_n.lhsIdx j q = ix2 (j 0) k := by
  funext a
  apply Fin.ext
  match a with
  | ⟨0, _⟩ => rfl
  | ⟨1, _⟩ =>
    exact (DotDims.lhsIdx_val_of_single _ (cl := (1 : Fin 2)) rfl j q).trans hk

/-- The right operand's index: the contraction coordinate as the row, the output's column. -/
theorem rhs_at (j : S5000x128.Idx) (q : dot_S5000x128_S128x128_S5000x128_1_0_0_1_n_n.contr.Idx) (k : Fin 128)
    (hk : (q ⟨0, by decide⟩ : ℕ) = k.val) :
    dot_S5000x128_S128x128_S5000x128_1_0_0_1_n_n.rhsIdx j q = ix2 k (j 1) := by
  funext a
  apply Fin.ext
  match a with
  | ⟨0, _⟩ =>
    exact (DotDims.rhsIdx_val_of_single _ (cr := (0 : Fin 2)) rfl j q).trans hk
  | ⟨1, _⟩ => rfl

/-- A block of 5000 rows against the weight matrix, accumulated from zero: entry (p, q) is the sum over k of
    x (p, k) * w (k, q). The change of format before the product is the identity on the extended reals. -/
theorem matmul_block_apply (x : Vec Ideal S5000x128 .f32) (w : Vec Ideal S128x128 .f32) (p : Fin 5000) (q : Fin 128) :
    matmul dot_S5000x128_S128x128_S5000x128_1_0_0_1_n_n none
        (truncf .bf16 x bitsLt_bf16_f32 : FVec Ideal S5000x128 .bf16) (truncf .bf16 w bitsLt_bf16_f32 : FVec Ideal S128x128 .bf16)
        (constant S5000x128 .f32 0x00000000#32) (ix2 p q)
      = ∑ k : Fin 128, x (ix2 p k) * w (ix2 k q) :=
  Cert.LibMatmul.matmul_zero_sum1 dot_S5000x128_S128x128_S5000x128_1_0_0_1_n_n none 128 rfl rfl _ _ (ix2 p q)
    (fun k => ix2 p k) (fun k => ix2 k q) (fun qq k hk => lhs_at (ix2 p q) qq k hk) (fun qq k hk => rhs_at (ix2 p q) qq k hk)

/-! ## From a block's product to the whole array's -/

/-- If block x holds the rows of X that the output index i names (row i 0 of X at block row j 0) and w agrees with W
    on column j 1 against column i 1, the block's product at j is the whole array's product at i. -/
theorem proj_core (X : FVec Ideal Cert.Spec.SNxD .f32) (W : FVec Ideal Cert.Spec.SDxD .f32)
    (x : Vec Ideal S5000x128 .f32) (w : Vec Ideal S128x128 .f32) (j : S5000x128.Idx) (i : Cert.Spec.SNxD.Idx)
    (hx : ∀ k : Fin 128, x (ix2 (j 0) k) = X (ix2 (i 0) k))
    (hw : ∀ k : Fin 128, w (ix2 k (j 1)) = W (ix2 k (i 1))) :
    matmul dot_S5000x128_S128x128_S5000x128_1_0_0_1_n_n none
        (truncf .bf16 x bitsLt_bf16_f32 : FVec Ideal S5000x128 .bf16) (truncf .bf16 w bitsLt_bf16_f32 : FVec Ideal S128x128 .bf16)
        (constant S5000x128 .f32 0x00000000#32) j
      = Cert.Spec.proj X W i := by
  rw [eq_ix2 j]
  refine (matmul_block_apply x w (j 0) (j 1)).trans ?_
  exact Finset.sum_congr rfl fun k _ => by rw [hx k, hw k]

/-- The three dense regions without bias store the same term: the product of the block and the weights (the shape
    casts between equal shapes are the identity). -/
theorem proj_block_eq1 (X : FVec Ideal Cert.Spec.SNxD .f32) (W : FVec Ideal Cert.Spec.SDxD .f32)
    (x : Vec Ideal S5000x128 .f32) (w : Vec Ideal S128x128 .f32) (j : S5000x128.Idx) (i : Cert.Spec.SNxD.Idx)
    (hx : ∀ k : Fin 128, x (ix2 (j 0) k) = X (ix2 (i 0) k))
    (hw : ∀ k : Fin 128, w (ix2 k (j 1)) = W (ix2 k (i 1))) :
    k1_pay1 x w j = Cert.Spec.proj X W i := by
  unfold k1_pay1
  simp only [shapeCast_self]
  exact proj_core X W x w j i hx hw

theorem proj_block_eq3 (X : FVec Ideal Cert.Spec.SNxD .f32) (W : FVec Ideal Cert.Spec.SDxD .f32)
    (x : Vec Ideal S5000x128 .f32) (w : Vec Ideal S128x128 .f32) (j : S5000x128.Idx) (i : Cert.Spec.SNxD.Idx)
    (hx : ∀ k : Fin 128, x (ix2 (j 0) k) = X (ix2 (i 0) k))
    (hw : ∀ k : Fin 128, w (ix2 k (j 1)) = W (ix2 k (i 1))) :
    k3_pay1 x w j = Cert.Spec.proj X W i := by
  unfold k3_pay1
  simp only [shapeCast_self]
  exact proj_core X W x w j i hx hw

theorem proj_block_eq5 (X : FVec Ideal Cert.Spec.SNxD .f32) (W : FVec Ideal Cert.Spec.SDxD .f32)
    (x : Vec Ideal S5000x128 .f32) (w : Vec Ideal S128x128 .f32) (j : S5000x128.Idx) (i : Cert.Spec.SNxD.Idx)
    (hx : ∀ k : Fin 128, x (ix2 (j 0) k) = X (ix2 (i 0) k))
    (hw : ∀ k : Fin 128, w (ix2 k (j 1)) = W (ix2 k (i 1))) :
    k5_pay1 x w j = Cert.Spec.proj X W i := by
  unfold k5_pay1
  simp only [shapeCast_self]
  exact proj_core X W x w j i hx hw

/-- The input projection adds the bias row, broadcast over the block's 5000 rows: entry (p, q) takes b (0, q). -/
theorem projBias_block_eq0 (X : FVec Ideal Cert.Spec.SNxD .f32) (W : FVec Ideal Cert.Spec.SDxD .f32)
    (B : FVec Ideal Cert.Spec.S1xD .f32)
    (x : Vec Ideal S5000x128 .f32) (w : Vec Ideal S128x128 .f32) (b : Vec Ideal S1x128 .f32)
    (j : S5000x128.Idx) (i : Cert.Spec.SNxD.Idx)
    (hx : ∀ k : Fin 128, x (ix2 (j 0) k) = X (ix2 (i 0) k))
    (hw : ∀ k : Fin 128, w (ix2 k (j 1)) = W (ix2 k (i 1)))
    (hb : b (ix2 (0 : Fin 1) (j 1)) = B (ix2 (0 : Fin 1) (i 1))) :
    k0_pay1 x w b j = Cert.Spec.projBias X W B i := by
  unfold k0_pay1
  simp only [shapeCast_self]
  show _ + _ = Cert.Spec.proj X W i + B (ix2 (0 : Fin 1) (i 1))
  refine congrArg₂ (· + ·) (proj_core X W x w j i hx hw) ?_
  rw [eq_ix2 j]
  exact (broadcastTo_1b_ab_apply b _ (j 0) (j 1)).trans hb

theorem hz : (![0, 0] : Fin 2 → Nat) = fun _ => 0 := funext fun a => by fin_cases a <;> rfl

/-! ## Region 1: the dense product of main_v30 and main_v32, left in main_v33 -/

section Region1

variable (V : (c : Dev nD) → (b : Ref sig .tc) → Buf (Elt Ideal) ((c : Thread nD τ).loc b)) (c : Dev nD)

/-- The index maps over the grid: the row blocks of the input and of the output move with the point, the weight
    matrix is one block at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product. -/
theorem flushed1_eq (t : Fin cfg1.N) :
    (dat1 (F := Ideal) V c).flushed 2 t
      = ((cfg1.win 2).blk t).view.read (Elt Ideal) (Cert.Spec.proj (V c main_v30) (V c main_v32)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e00, e01, e10, e11, e20, e21⟩ := idx_facts1 t
  funext j
  have hr : ((cfg1.win 2).blk t).view.read (Elt Ideal) (Cert.Spec.proj (V c main_v30) (V c main_v32)) j
      = Cert.Spec.proj (V c main_v30) (V c main_v32) (((cfg1.win 2).blk t).view.emb j) := rfl
  rw [hr]
  change k1_pay1 _ _ _ = _
  refine proj_block_eq1 _ _ _ _ _ _ (fun k => ?_) (fun k => ?_)
  · show V c main_v30 (((cfg1.win 0).blk t).view.emb (ix2 (j 0) k))
      = V c main_v30 (ix2 ((((cfg1.win 2).blk t).view.emb j) 0) k)
    refine congrArg (V c main_v30) (funext fun a => Fin.ext ?_)
    match a with
    | ⟨0, _⟩ =>
      show win1_0.index t (0 : Fin 2) * 5000 + 1 * (j 0).val = win1_2.index t (0 : Fin 2) * 5000 + 1 * (j 0).val
      rw [e00, e20]
    | ⟨1, _⟩ =>
      show win1_0.index t (1 : Fin 2) * 128 + 1 * k.val = k.val
      rw [e01]; omega
  · show V c main_v32 (((cfg1.win 1).blk t).view.emb (ix2 k (j 1)))
      = V c main_v32 (ix2 k ((((cfg1.win 2).blk t).view.emb j) 1))
    refine congrArg (V c main_v32) (funext fun a => Fin.ext ?_)
    match a with
    | ⟨0, _⟩ =>
      show win1_1.index t (0 : Fin 2) * 128 + 1 * k.val = k.val
      rw [e10]; omega
    | ⟨1, _⟩ =>
      show win1_1.index t (1 : Fin 2) * 128 + 1 * (j 1).val = win1_2.index t (1 : Fin 2) * 128 + 1 * (j 1).val
      rw [e11, e21]

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v33).slice (win1_2.rect t)).set ↔ _
  rw [View.set_slice_whole, Rect.mem_set_unit]
  exact Iff.rfl

/-- Row r of the array lies in the block of point r / 5000: the twenty blocks of 5000 rows cover the 100000 rows. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := rfl
  have ht : (i 0).val / 5000 < cfg1.N := by rw [hN]; omega
  refine ⟨⟨(i 0).val / 5000, ht⟩, flush1_2 _, ?_⟩
  rw [mem_blk1]
  obtain ⟨-, -, -, -, e20, e21⟩ := idx_facts1 ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e21]
    omega

/-- Region 1 leaves in its output array the dense product of its two input arrays. -/
theorem dense1 : (dat1 (F := Ideal) V c).arrAt 2 cfg1.N = Cert.Spec.proj (V c main_v30) (V c main_v32) :=
  (dat1 (F := Ideal) V c).arrAt_eq_of_cover 2 (Cert.Spec.proj (V c main_v30) (V c main_v32))
    (fun t _ => flushed1_eq V c t) cover1

end Region1

/-! ## Region 3: the dense product of main_v56 and main_v58, left in main_v59 -/

section Region3

variable (V : (c : Dev nD) → (b : Ref sig .tc) → Buf (Elt Ideal) ((c : Thread nD τ).loc b)) (c : Dev nD)

/-- The index maps over the grid: the row blocks of the input and of the output move with the point, the weight
    matrix is one block at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array product. -/
theorem flushed3_eq (t : Fin cfg3.N) :
    (dat3 (F := Ideal) V c).flushed 2 t
      = ((cfg3.win 2).blk t).view.read (Elt Ideal) (Cert.Spec.proj (V c main_v56) (V c main_v58)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e00, e01, e10, e11, e20, e21⟩ := idx_facts3 t
  funext j
  have hr : ((cfg3.win 2).blk t).view.read (Elt Ideal) (Cert.Spec.proj (V c main_v56) (V c main_v58)) j
      = Cert.Spec.proj (V c main_v56) (V c main_v58) (((cfg3.win 2).blk t).view.emb j) := rfl
  rw [hr]
  change k3_pay1 _ _ _ = _
  refine proj_block_eq3 _ _ _ _ _ _ (fun k => ?_) (fun k => ?_)
  · show V c main_v56 (((cfg3.win 0).blk t).view.emb (ix2 (j 0) k))
      = V c main_v56 (ix2 ((((cfg3.win 2).blk t).view.emb j) 0) k)
    refine congrArg (V c main_v56) (funext fun a => Fin.ext ?_)
    match a with
    | ⟨0, _⟩ =>
      show win3_0.index t (0 : Fin 2) * 5000 + 1 * (j 0).val = win3_2.index t (0 : Fin 2) * 5000 + 1 * (j 0).val
      rw [e00, e20]
    | ⟨1, _⟩ =>
      show win3_0.index t (1 : Fin 2) * 128 + 1 * k.val = k.val
      rw [e01]; omega
  · show V c main_v58 (((cfg3.win 1).blk t).view.emb (ix2 k (j 1)))
      = V c main_v58 (ix2 k ((((cfg3.win 2).blk t).view.emb j) 1))
    refine congrArg (V c main_v58) (funext fun a => Fin.ext ?_)
    match a with
    | ⟨0, _⟩ =>
      show win3_1.index t (0 : Fin 2) * 128 + 1 * k.val = k.val
      rw [e10]; omega
    | ⟨1, _⟩ =>
      show win3_1.index t (1 : Fin 2) * 128 + 1 * (j 1).val = win3_2.index t (1 : Fin 2) * 128 + 1 * (j 1).val
      rw [e11, e21]

/-- An index of the array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v59).slice (win3_2.rect t)).set ↔ _
  rw [View.set_slice_whole, Rect.mem_set_unit]
  exact Iff.rfl

/-- Row r of the array lies in the block of point r / 5000: the twenty blocks of 5000 rows cover the 100000 rows. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := rfl
  have ht : (i 0).val / 5000 < cfg3.N := by rw [hN]; omega
  refine ⟨⟨(i 0).val / 5000, ht⟩, flush3_2 _, ?_⟩
  rw [mem_blk3]
  obtain ⟨-, -, -, -, e20, e21⟩ := idx_facts3 ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e21]
    omega

/-- Region 3 leaves in its output array the dense product of its two input arrays. -/
theorem dense3 : (dat3 (F := Ideal) V c).arrAt 2 cfg3.N = Cert.Spec.proj (V c main_v56) (V c main_v58) :=
  (dat3 (F := Ideal) V c).arrAt_eq_of_cover 2 (Cert.Spec.proj (V c main_v56) (V c main_v58))
    (fun t _ => flushed3_eq V c t) cover3

end Region3

/-! ## Region 5: the dense product of main_v82 and main_v84, left in main_v85 -/

section Region5

variable (V : (c : Dev nD) → (b : Ref sig .tc) → Buf (Elt Ideal) ((c : Thread nD τ).loc b)) (c : Dev nD)

/-- The index maps over the grid: the row blocks of the input and of the output move with the point, the weight
    matrix is one block at every point. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array product. -/
theorem flushed5_eq (t : Fin cfg5.N) :
    (dat5 (F := Ideal) V c).flushed 2 t
      = ((cfg5.win 2).blk t).view.read (Elt Ideal) (Cert.Spec.proj (V c main_v82) (V c main_v84)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  obtain ⟨e00, e01, e10, e11, e20, e21⟩ := idx_facts5 t
  funext j
  have hr : ((cfg5.win 2).blk t).view.read (Elt Ideal) (Cert.Spec.proj (V c main_v82) (V c main_v84)) j
      = Cert.Spec.proj (V c main_v82) (V c main_v84) (((cfg5.win 2).blk t).view.emb j) := rfl
  rw [hr]
  change k5_pay1 _ _ _ = _
  refine proj_block_eq5 _ _ _ _ _ _ (fun k => ?_) (fun k => ?_)
  · show V c main_v82 (((cfg5.win 0).blk t).view.emb (ix2 (j 0) k))
      = V c main_v82 (ix2 ((((cfg5.win 2).blk t).view.emb j) 0) k)
    refine congrArg (V c main_v82) (funext fun a => Fin.ext ?_)
    match a with
    | ⟨0, _⟩ =>
      show win5_0.index t (0 : Fin 2) * 5000 + 1 * (j 0).val = win5_2.index t (0 : Fin 2) * 5000 + 1 * (j 0).val
      rw [e00, e20]
    | ⟨1, _⟩ =>
      show win5_0.index t (1 : Fin 2) * 128 + 1 * k.val = k.val
      rw [e01]; omega
  · show V c main_v84 (((cfg5.win 1).blk t).view.emb (ix2 k (j 1)))
      = V c main_v84 (ix2 k ((((cfg5.win 2).blk t).view.emb j) 1))
    refine congrArg (V c main_v84) (funext fun a => Fin.ext ?_)
    match a with
    | ⟨0, _⟩ =>
      show win5_1.index t (0 : Fin 2) * 128 + 1 * k.val = k.val
      rw [e10]; omega
    | ⟨1, _⟩ =>
      show win5_1.index t (1 : Fin 2) * 128 + 1 * (j 1).val = win5_2.index t (1 : Fin 2) * 128 + 1 * (j 1).val
      rw [e11, e21]

/-- An index of the array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v85).slice (win5_2.rect t)).set ↔ _
  rw [View.set_slice_whole, Rect.mem_set_unit]
  exact Iff.rfl

/-- Row r of the array lies in the block of point r / 5000: the twenty blocks of 5000 rows cover the 100000 rows. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := rfl
  have ht : (i 0).val / 5000 < cfg5.N := by rw [hN]; omega
  refine ⟨⟨(i 0).val / 5000, ht⟩, flush5_2 _, ?_⟩
  rw [mem_blk5]
  obtain ⟨-, -, -, -, e20, e21⟩ := idx_facts5 ⟨(i 0).val / 5000, ht⟩
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    rw [e21]
    omega

/-- Region 5 leaves in its output array the dense product of its two input arrays. -/
theorem dense5 : (dat5 (F := Ideal) V c).arrAt 2 cfg5.N = Cert.Spec.proj (V c main_v82) (V c main_v84) :=
  (dat5 (F := Ideal) V c).arrAt_eq_of_cover 2 (Cert.Spec.proj (V c main_v82) (V c main_v84))
    (fun t _ => flushed5_eq V c t) cover5

end Region5

/-! ## Region 0: the dense product of main_arg0 and main_arg4 plus the bias row main_v29, left in main_v30 -/

section Region0

variable (V : (c : Dev nD) → (b : Ref sig .tc) → Buf (Elt Ideal) ((c : Thread nD τ).loc b)) (c : Dev nD)

/-- The index maps over the grid: the row blocks of the input and of the output move with the point, the weight
    matrix and the bias row are one block each at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array product plus bias. -/
theorem flushed0_eq (t : Fin cfg0.N) :
    (dat0 (F := Ideal) V c).flushed 3 t
      = ((cfg0.win 3).blk t).view.read (Elt Ideal)
          (Cert.Spec.projBias (V c main_arg0) (V c main_arg4) (V c main_v29)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz,
    View.ld_unit_zero (S := S1x128) hz]
  obtain ⟨e00, e01, e10, e11, e20, e21, e30, e31⟩ := idx_facts0 t
  funext j
  have hr : ((cfg0.win 3).blk t).view.read (Elt Ideal)
        (Cert.Spec.projBias (V c main_arg0) (V c main_arg4) (V c main_v29)) j
      = Cert.Spec.projBias (V c main_arg0) (V c main_arg4) (V c main_v29) (((cfg0.win 3).blk t).view.emb j) := rfl
  rw [hr]
  change k0_pay1 _ _ _ _ = _
  refine projBias_block_eq0 _ _ _ _ _ _ _ _ (fun k => ?_) (fun k => ?_) ?_
  · show V c main_arg0 (((cfg0.win 0).blk t).view.emb (ix2 (j 0) k))
      = V c main_arg0 (ix2 ((((cfg0.win 3).blk t).view.emb j) 0) k)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      rw [e00, e30]
    | ⟨1, _⟩ =>
      show win0_0.index t (1 : Fin 2) * 128 + 1 * k.val = k.val
      rw [e01]; omega
  · show V c main_arg4 (((cfg0.win 1).blk t).view.emb (ix2 k (j 1)))
      = V c main_arg4 (ix2 k ((((cfg0.win 3).blk t).view.emb j) 1))
    refine congrArg (V c main_arg4) (funext fun a => Fin.ext ?_)
    match a with
    | ⟨0, _⟩ =>
      show win0_1.index t (0 : Fin 2) * 128 + 1 * k.val = k.val
      rw [e10]; omega
    | ⟨1, _⟩ =>
      show win0_1.index t (1 : Fin 2) * 128 + 1 * (j 1).val = win0_3.index t (1 : Fin 2) * 128 + 1 * (j 1).val
      rw [e11, e31]
  · show V c main_v29 (((cfg0.win 2).blk t).view.emb (ix2 (0 : Fin 1) (j 1)))
      = V c main_v29 (ix2 (0 : Fin 1) ((((cfg0.win 3).blk t).view.emb j) 1))
    refine congrArg (V c main_v29) (funext fun a => Fin.ext ?_)
    match a with
    | ⟨0, _⟩ =>
      show win0_2.index t (0 : Fin 2) * 1 + 1 * 0 = 0
      rw [e20]
    | ⟨1, _⟩ =>
      show win0_2.index t (1 : Fin 2) * 128 + 1 * (j 1).val = win0_3.index t (1 : Fin 2) * 128 + 1 * (j 1).val
      rw [e21, e31]

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v30).slice (win0_3.rect t)).set ↔ _
  rw [View.set_slice_whole, Rect.mem_set_unit]
  exact Iff.rfl

/-- Row r of the array lies in the block of point r / 5000: the twenty blocks of 5000 rows cover the 100000 rows. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := rfl
  have ht : (i 0).val / 5000 < cfg0.N := by rw [hN]; omega
  refine ⟨⟨(i 0).val / 5000, ht⟩, flush0_3 _, ?_⟩
  rw [mem_blk0]
  obtain ⟨-, -, -, -, -, -, e30, e31⟩ := idx_facts0 ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]
    omega

/-- Region 0 leaves in its output array the dense product of its input arrays plus the bias row. -/
theorem dense0 : (dat0 (F := Ideal) V c).arrAt 3 cfg0.N
    = Cert.Spec.projBias (V c main_arg0) (V c main_arg4) (V c main_v29) :=
  (dat0 (F := Ideal) V c).arrAt_eq_of_cover 3 (Cert.Spec.projBias (V c main_arg0) (V c main_arg4) (V c main_v29))
    (fun t _ => flushed0_eq V c t) cover0

end Region0

end Cert.KernelIdeal.RegionValue

end
-- ==== Proof.WalkA.lean ====
/-
  The contents of the kernel's buffers at the first boundaries of its run, each as a named stage of the reference's
  computation on the argument arrays.  A buffer a host stretch writes holds that operation's value of the buffers it reads; a buffer no
  operation of the stretch writes, and no tile of a region writes back, holds what it held at the previous boundary;
  a region's output array holds the specification's dense layer or combine step of the region's input arrays, which is
  the reference's stage by the reference's own reading.  A reshape that only adds a unit axis is the reference's
  broadcast along that axis.  Here: from the launch memory to the exit of the second region (the input projection and
  the first layer's dense product).
-/
import proofs.«102601_j59450937311581_1_alg».proof.Proof.Gen.KernelIdeal.Frame
import proofs.«102601_j59450937311581_1_alg».proof.Proof.RefStages
import proofs.«102601_j59450937311581_1_alg».proof.Proof.LibReshapeBcast
import proofs.«102601_j59450937311581_1_alg».proof.Proof.RegionDense
import Idealize.ShloMosaic.Lib.StableHlo.Run
import Idealize.ShloMosaic.PureOps.Ideal

set_option maxRecDepth 16384
set_option quotPrecheck false

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "A0" => (m ((c : Thread nD τ).loc main_arg0))
local notation "A1" => (m ((c : Thread nD τ).loc main_arg1))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))
local notation "A7" => (m ((c : Thread nD τ).loc main_arg7))
local notation "A8" => (m ((c : Thread nD τ).loc main_arg8))
local notation "A9" => (m ((c : Thread nD τ).loc main_arg9))

/-! ## Boundary 0 -/

theorem at_0_arg0 : W0 m ρ c (Proc.devRef .tc main_arg0) = A0 := rfl

theorem at_0_arg1 : W0 m ρ c (Proc.devRef .tc main_arg1) = A1 := rfl

theorem at_0_arg3 : W0 m ρ c (Proc.devRef .tc main_arg3) = A3 := rfl

theorem at_0_arg4 : W0 m ρ c (Proc.devRef .tc main_arg4) = A4 := rfl

theorem at_0_arg5 : W0 m ρ c (Proc.devRef .tc main_arg5) = A5 := rfl

theorem at_0_arg6 : W0 m ρ c (Proc.devRef .tc main_arg6) = A6 := rfl

theorem at_0_arg7 : W0 m ρ c (Proc.devRef .tc main_arg7) = A7 := rfl

theorem at_0_arg8 : W0 m ρ c (Proc.devRef .tc main_arg8) = A8 := rfl

theorem at_0_arg9 : W0 m ρ c (Proc.devRef .tc main_arg9) = A9 := rfl

/-! ## Boundary 1 -/

theorem at_1_arg0 : W1 m ρ c (Proc.devRef .tc main_arg0) = A0 :=
  (show StableHlo.after hostOps0 (W0 m ρ c) (Proc.devRef .tc main_arg0) = W0 m ρ c (Proc.devRef .tc main_arg0) from by
    dsimp only [hostOps0]; after_results).trans (at_0_arg0 m ρ c)

theorem at_1_arg3 : W1 m ρ c (Proc.devRef .tc main_arg3) = A3 :=
  (show StableHlo.after hostOps0 (W0 m ρ c) (Proc.devRef .tc main_arg3) = W0 m ρ c (Proc.devRef .tc main_arg3) from by
    dsimp only [hostOps0]; after_results).trans (at_0_arg3 m ρ c)

theorem at_1_arg4 : W1 m ρ c (Proc.devRef .tc main_arg4) = A4 :=
  (show StableHlo.after hostOps0 (W0 m ρ c) (Proc.devRef .tc main_arg4) = W0 m ρ c (Proc.devRef .tc main_arg4) from by
    dsimp only [hostOps0]; after_results).trans (at_0_arg4 m ρ c)

theorem at_1_arg6 : W1 m ρ c (Proc.devRef .tc main_arg6) = A6 :=
  (show StableHlo.after hostOps0 (W0 m ρ c) (Proc.devRef .tc main_arg6) = W0 m ρ c (Proc.devRef .tc main_arg6) from by
    dsimp only [hostOps0]; after_results).trans (at_0_arg6 m ρ c)

theorem at_1_arg7 : W1 m ρ c (Proc.devRef .tc main_arg7) = A7 :=
  (show StableHlo.after hostOps0 (W0 m ρ c) (Proc.devRef .tc main_arg7) = W0 m ρ c (Proc.devRef .tc main_arg7) from by
    dsimp only [hostOps0]; after_results).trans (at_0_arg7 m ρ c)

theorem at_1_arg8 : W1 m ρ c (Proc.devRef .tc main_arg8) = A8 :=
  (show StableHlo.after hostOps0 (W0 m ρ c) (Proc.devRef .tc main_arg8) = W0 m ρ c (Proc.devRef .tc main_arg8) from by
    dsimp only [hostOps0]; after_results).trans (at_0_arg8 m ρ c)

theorem at_1_arg9 : W1 m ρ c (Proc.devRef .tc main_arg9) = A9 :=
  (show StableHlo.after hostOps0 (W0 m ρ c) (Proc.devRef .tc main_arg9) = W0 m ρ c (Proc.devRef .tc main_arg9) from by
    dsimp only [hostOps0]; after_results).trans (at_0_arg9 m ρ c)

set_option maxHeartbeats 4000000 in
theorem at_1_v1 : W1 m ρ c (Proc.devRef .tc main_v1) = Cert.ReferenceIdeal.RefValue.src A1 := by
  show StableHlo.after hostOps0 (W0 m ρ c) (Proc.devRef .tc main_v1) = _
  dsimp only [hostOps0]
  after_results_simp
  rfl

set_option maxHeartbeats 4000000 in
theorem at_1_v3 : W1 m ρ c (Proc.devRef .tc main_v3) = Cert.ReferenceIdeal.RefValue.dst A1 := by
  show StableHlo.after hostOps0 (W0 m ρ c) (Proc.devRef .tc main_v3) = _
  dsimp only [hostOps0]
  after_results_simp
  rfl

set_option maxHeartbeats 4000000 in
theorem at_1_v27 : W1 m ρ c (Proc.devRef .tc main_v27) = Cert.ReferenceIdeal.RefValue.enorm A1 := by
  show StableHlo.after hostOps0 (W0 m ρ c) (Proc.devRef .tc main_v27) = _
  dsimp only [hostOps0]
  after_results_simp
  rfl

set_option maxHeartbeats 4000000 in
theorem at_1_v28 : W1 m ρ c (Proc.devRef .tc main_v28) = Cert.ReferenceIdeal.RefValue.dinvCol A1 := by
  show StableHlo.after hostOps0 (W0 m ρ c) (Proc.devRef .tc main_v28) = _
  dsimp only [hostOps0]
  after_results_simp
  exact Cert.LibReshapeBcast.shapeCast_col_eq_broadcastInDim _ _ Cert.ReferenceIdeal.Gen.bcast_S100000_S100000x1_0

set_option maxHeartbeats 4000000 in
theorem at_1_v29 : W1 m ρ c (Proc.devRef .tc main_v29) = Cert.ReferenceIdeal.RefValue.rowOf A5 := by
  show StableHlo.after hostOps0 (W0 m ρ c) (Proc.devRef .tc main_v29) = _
  dsimp only [hostOps0]
  after_results_simp
  exact Cert.LibReshapeBcast.shapeCast_row_eq_broadcastInDim _ _ Cert.ReferenceIdeal.Gen.bcast_S128_S1x128_1

/-! ## Boundary 2 -/

theorem at_2_arg3 : W2 m ρ c (Proc.devRef .tc main_arg3) = A3 :=
  (W2_of_ne m ρ c main_arg3 (by decide)).trans (at_1_arg3 m ρ c)

theorem at_2_arg6 : W2 m ρ c (Proc.devRef .tc main_arg6) = A6 :=
  (W2_of_ne m ρ c main_arg6 (by decide)).trans (at_1_arg6 m ρ c)

theorem at_2_arg7 : W2 m ρ c (Proc.devRef .tc main_arg7) = A7 :=
  (W2_of_ne m ρ c main_arg7 (by decide)).trans (at_1_arg7 m ρ c)

theorem at_2_arg8 : W2 m ρ c (Proc.devRef .tc main_arg8) = A8 :=
  (W2_of_ne m ρ c main_arg8 (by decide)).trans (at_1_arg8 m ρ c)

theorem at_2_arg9 : W2 m ρ c (Proc.devRef .tc main_arg9) = A9 :=
  (W2_of_ne m ρ c main_arg9 (by decide)).trans (at_1_arg9 m ρ c)

theorem at_2_v1 : W2 m ρ c (Proc.devRef .tc main_v1) = Cert.ReferenceIdeal.RefValue.src A1 :=
  (W2_of_ne m ρ c main_v1 (by decide)).trans (at_1_v1 m ρ c)

theorem at_2_v3 : W2 m ρ c (Proc.devRef .tc main_v3) = Cert.ReferenceIdeal.RefValue.dst A1 :=
  (W2_of_ne m ρ c main_v3 (by decide)).trans (at_1_v3 m ρ c)

theorem at_2_v27 : W2 m ρ c (Proc.devRef .tc main_v27) = Cert.ReferenceIdeal.RefValue.enorm A1 :=
  (W2_of_ne m ρ c main_v27 (by decide)).trans (at_1_v27 m ρ c)

theorem at_2_v28 : W2 m ρ c (Proc.devRef .tc main_v28) = Cert.ReferenceIdeal.RefValue.dinvCol A1 :=
  (W2_of_ne m ρ c main_v28 (by decide)).trans (at_1_v28 m ρ c)

theorem at_2_v30 : W2 m ρ c (Proc.devRef .tc main_v30) = Cert.ReferenceIdeal.RefValue.x0 A0 A4 A5 := by
  refine (W2_arr m ρ c 3).trans ((Cert.KernelIdeal.RegionValue.dense0 (V1 m ρ) c).trans ?_)
  rw [show V1 m ρ c main_arg0 = _ from at_1_arg0 m ρ c,
    show V1 m ρ c main_arg4 = _ from at_1_arg4 m ρ c,
    show V1 m ρ c main_v29 = _ from at_1_v29 m ρ c]
  exact (Cert.ReferenceIdeal.RefValue.x0_eq _ _ _).symm

/-! ## Boundary 3 -/

theorem at_3_arg3 : W3 m ρ c (Proc.devRef .tc main_arg3) = A3 :=
  (show StableHlo.after hostOps1 (W2 m ρ c) (Proc.devRef .tc main_arg3) = W2 m ρ c (Proc.devRef .tc main_arg3) from by
    dsimp only [hostOps1]; after_results).trans (at_2_arg3 m ρ c)

theorem at_3_arg6 : W3 m ρ c (Proc.devRef .tc main_arg6) = A6 :=
  (show StableHlo.after hostOps1 (W2 m ρ c) (Proc.devRef .tc main_arg6) = W2 m ρ c (Proc.devRef .tc main_arg6) from by
    dsimp only [hostOps1]; after_results).trans (at_2_arg6 m ρ c)

theorem at_3_arg7 : W3 m ρ c (Proc.devRef .tc main_arg7) = A7 :=
  (show StableHlo.after hostOps1 (W2 m ρ c) (Proc.devRef .tc main_arg7) = W2 m ρ c (Proc.devRef .tc main_arg7) from by
    dsimp only [hostOps1]; after_results).trans (at_2_arg7 m ρ c)

theorem at_3_arg8 : W3 m ρ c (Proc.devRef .tc main_arg8) = A8 :=
  (show StableHlo.after hostOps1 (W2 m ρ c) (Proc.devRef .tc main_arg8) = W2 m ρ c (Proc.devRef .tc main_arg8) from by
    dsimp only [hostOps1]; after_results).trans (at_2_arg8 m ρ c)

theorem at_3_arg9 : W3 m ρ c (Proc.devRef .tc main_arg9) = A9 :=
  (show StableHlo.after hostOps1 (W2 m ρ c) (Proc.devRef .tc main_arg9) = W2 m ρ c (Proc.devRef .tc main_arg9) from by
    dsimp only [hostOps1]; after_results).trans (at_2_arg9 m ρ c)

theorem at_3_v1 : W3 m ρ c (Proc.devRef .tc main_v1) = Cert.ReferenceIdeal.RefValue.src A1 :=
  (show StableHlo.after hostOps1 (W2 m ρ c) (Proc.devRef .tc main_v1) = W2 m ρ c (Proc.devRef .tc main_v1) from by
    dsimp only [hostOps1]; after_results).trans (at_2_v1 m ρ c)

theorem at_3_v3 : W3 m ρ c (Proc.devRef .tc main_v3) = Cert.ReferenceIdeal.RefValue.dst A1 :=
  (show StableHlo.after hostOps1 (W2 m ρ c) (Proc.devRef .tc main_v3) = W2 m ρ c (Proc.devRef .tc main_v3) from by
    dsimp only [hostOps1]; after_results).trans (at_2_v3 m ρ c)

theorem at_3_v27 : W3 m ρ c (Proc.devRef .tc main_v27) = Cert.ReferenceIdeal.RefValue.enorm A1 :=
  (show StableHlo.after hostOps1 (W2 m ρ c) (Proc.devRef .tc main_v27) = W2 m ρ c (Proc.devRef .tc main_v27) from by
    dsimp only [hostOps1]; after_results).trans (at_2_v27 m ρ c)

theorem at_3_v28 : W3 m ρ c (Proc.devRef .tc main_v28) = Cert.ReferenceIdeal.RefValue.dinvCol A1 :=
  (show StableHlo.after hostOps1 (W2 m ρ c) (Proc.devRef .tc main_v28) = W2 m ρ c (Proc.devRef .tc main_v28) from by
    dsimp only [hostOps1]; after_results).trans (at_2_v28 m ρ c)

theorem at_3_v30 : W3 m ρ c (Proc.devRef .tc main_v30) = Cert.ReferenceIdeal.RefValue.x0 A0 A4 A5 :=
  (show StableHlo.after hostOps1 (W2 m ρ c) (Proc.devRef .tc main_v30) = W2 m ρ c (Proc.devRef .tc main_v30) from by
    dsimp only [hostOps1]; after_results).trans (at_2_v30 m ρ c)

set_option maxHeartbeats 4000000 in
theorem at_3_v32 : W3 m ρ c (Proc.devRef .tc main_v32) = Cert.ReferenceIdeal.RefValue.w1 A6 := by
  show StableHlo.after hostOps1 (W2 m ρ c) (Proc.devRef .tc main_v32) = _
  dsimp only [hostOps1]
  after_results_simp
  rw [at_2_arg6 m ρ c]
  rfl

/-! ## Boundary 4 -/

theorem at_4_arg3 : W4 m ρ c (Proc.devRef .tc main_arg3) = A3 :=
  (W4_of_ne m ρ c main_arg3 (by decide)).trans (at_3_arg3 m ρ c)

theorem at_4_arg6 : W4 m ρ c (Proc.devRef .tc main_arg6) = A6 :=
  (W4_of_ne m ρ c main_arg6 (by decide)).trans (at_3_arg6 m ρ c)

theorem at_4_arg7 : W4 m ρ c (Proc.devRef .tc main_arg7) = A7 :=
  (W4_of_ne m ρ c main_arg7 (by decide)).trans (at_3_arg7 m ρ c)

theorem at_4_arg8 : W4 m ρ c (Proc.devRef .tc main_arg8) = A8 :=
  (W4_of_ne m ρ c main_arg8 (by decide)).trans (at_3_arg8 m ρ c)

theorem at_4_arg9 : W4 m ρ c (Proc.devRef .tc main_arg9) = A9 :=
  (W4_of_ne m ρ c main_arg9 (by decide)).trans (at_3_arg9 m ρ c)

theorem at_4_v1 : W4 m ρ c (Proc.devRef .tc main_v1) = Cert.ReferenceIdeal.RefValue.src A1 :=
  (W4_of_ne m ρ c main_v1 (by decide)).trans (at_3_v1 m ρ c)

theorem at_4_v3 : W4 m ρ c (Proc.devRef .tc main_v3) = Cert.ReferenceIdeal.RefValue.dst A1 :=
  (W4_of_ne m ρ c main_v3 (by decide)).trans (at_3_v3 m ρ c)

theorem at_4_v27 : W4 m ρ c (Proc.devRef .tc main_v27) = Cert.ReferenceIdeal.RefValue.enorm A1 :=
  (W4_of_ne m ρ c main_v27 (by decide)).trans (at_3_v27 m ρ c)

theorem at_4_v28 : W4 m ρ c (Proc.devRef .tc main_v28) = Cert.ReferenceIdeal.RefValue.dinvCol A1 :=
  (W4_of_ne m ρ c main_v28 (by decide)).trans (at_3_v28 m ρ c)

theorem at_4_v33 : W4 m ρ c (Proc.devRef .tc main_v33) = Cert.ReferenceIdeal.RefValue.dense (Cert.ReferenceIdeal.RefValue.x0 A0 A4 A5) (Cert.ReferenceIdeal.RefValue.w1 A6) := by
  refine (W4_arr m ρ c 2).trans ((Cert.KernelIdeal.RegionValue.dense1 (V3 m ρ) c).trans ?_)
  rw [show V3 m ρ c main_v30 = _ from at_3_v30 m ρ c,
    show V3 m ρ c main_v32 = _ from at_3_v32 m ρ c]
  exact (Cert.ReferenceIdeal.RefValue.dense_eq _ _).symm

end Cert.KernelIdeal.Walk

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.RegionCombine.lean ====
/-
  The three combine regions, each read as one function of its input arrays.

  A combine region walks a [100000, 128] array of node features in twenty blocks of 5000 rows.  At each block it forms
  the rows before normalisation (the aggregated messages, plus the self term scaled by the node's inverse degree, plus
  the bias row), takes each row's mean and the mean of its squared deviations as lane sums divided by 128, scales the
  centred row by the inverse square root of the variance plus a small constant, applies the gain and the shift, and clamps
  below at zero; the later layers add the layer's input block.  First the block computation is read at a row and a
  feature; then each block written back is shown to be the rows 5000 t ... 5000 t + 4999 of the whole-array function,
  and the twenty blocks cover the array.
-/
import proofs.«102601_j59450937311581_1_alg».proof.Proof.Gen.KernelIdeal.Frame
import proofs.«102601_j59450937311581_1_alg».proof.Proof.Spec
import proofs.«102601_j59450937311581_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## The block computation, index by index -/

/-- A block of rows before normalisation, as the body forms it: the first operand, plus the second scaled by the
    column broadcast along each row, plus the row broadcast down the block. -/
def preBlk (x0 x1 : Vec Ideal S5000x128 .f32) (x2 : Vec Ideal S5000x1 .f32) (x3 : Vec Ideal S1x128 .f32) : FVec Ideal S5000x128 .f32 :=
  addf (addf (shapeCast S5000x128 x0 shapeCasts_S5000x128_S5000x128)
          (mulf (shapeCast S5000x128 x1 shapeCasts_S5000x128_S5000x128)
            (broadcastTo S5000x128 (shapeCast S5000x1 x2 shapeCasts_S5000x1_S5000x1) broadcasts_S5000x1_S5000x128)))
    (broadcastTo S5000x128 (shapeCast S1x128 x3 shapeCasts_S1x128_S1x128) broadcasts_S1x128_S5000x128)

theorem preBlk_apply (x0 x1 : Vec Ideal S5000x128 .f32) (x2 : Vec Ideal S5000x1 .f32) (x3 : Vec Ideal S1x128 .f32)
    (p : Fin 5000) (k : Fin 128) :
    preBlk x0 x1 x2 x3 (ix2 p k) = x0 (ix2 p k) + x1 (ix2 p k) * x2 (ix2 p (0 : Fin 1)) + x3 (ix2 (0 : Fin 1) k) := by
  unfold preBlk
  rw [shapeCast_self, shapeCast_self, shapeCast_self, shapeCast_self]
  show x0 (ix2 p k) + x1 (ix2 p k) * broadcastTo S5000x128 x2 broadcasts_S5000x1_S5000x128 (ix2 p k)
      + broadcastTo S5000x128 x3 broadcasts_S1x128_S5000x128 (ix2 p k) = _
  rw [Cert.LibKeepdims.broadcastTo_a1_ab_apply, ValueIdx.broadcastTo_1b_ab_apply]

/-- The mean of each row of a block, kept as a column: the lane sum, recast as a column, divided by 128. -/
def rowMeanBlk (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

theorem rowMeanBlk_apply (v : FVec Ideal S5000x128 .f32) (p : Fin 5000) (u : Fin 1) :
    rowMeanBlk v (ix2 p u) = Cert.Spec.rowMean fun k => v (ix2 p k) := by
  unfold rowMeanBlk Cert.Spec.rowMean
  show Ideal.div (shapeCast S5000x1 (multiReduction .add [1] S5000 v 0x00000000#32 reduces_S5000x128_S5000 (.inl rfl) rfl) shapeCasts_S5000_S5000x1 (ix2 p u)) _ = _
  rw [Cert.LibKeepdims.shapeCast_a_a1_apply]
  refine congrArg (fun z => Ideal.div z _) ?_
  refine (Ideal.multiReduction_add_single v 0x00000000#32 reduces_S5000x128_S5000 (.inl rfl) rfl (ix1 p)).trans ?_
  refine Finset.sum_congr rfl fun k _ => congrArg v ?_
  funext a
  match a with
  | ⟨0, _⟩ => rfl
  | ⟨1, _⟩ => rfl

/-- The normalised, scaled, shifted and clamped block, as the body forms it from the row block before normalisation. -/
def normBlk (v12 : FVec Ideal S5000x128 .f32) (x4 x5 : Vec Ideal S1x128 .f32) : FVec Ideal S5000x128 .f32 :=
  let v16 := rowMeanBlk v12
  let v18 := subf v12 (broadcastTo S5000x128 v16 broadcasts_S5000x1_S5000x128)
  let v23 := rowMeanBlk (mulf v18 v18)
  let v28 := rsqrt (addf v23 (broadcast S5000x1 (Scalar.ofBits .f32 0x3727C5AC#32)))
  maximumf
    (addf (mulf (mulf v18 (broadcastTo S5000x128 v28 broadcasts_S5000x1_S5000x128))
            (broadcastTo S5000x128 (shapeCast S1x128 x4 shapeCasts_S1x128_S1x128) broadcasts_S1x128_S5000x128))
      (broadcastTo S5000x128 (shapeCast S1x128 x5 shapeCasts_S1x128_S1x128) broadcasts_S1x128_S5000x128))
    (broadcast S5000x128 (Scalar.ofBits .f32 0x00000000#32))

theorem rsqrt_apply {s : Shape} {φ : FTy} (a : FVec Ideal s φ) (i : s.Idx) : rsqrt a i = Ideal.rsqrt (a i) := rfl

theorem normBlk_apply (v12 : FVec Ideal S5000x128 .f32) (x4 x5 : Vec Ideal S1x128 .f32) (p : Fin 5000) (q : Fin 128) :
    normBlk v12 x4 x5 (ix2 p q) = Cert.Spec.normRelu (fun k => v12 (ix2 p k)) x4 x5 q := by
  unfold normBlk Cert.Spec.normRelu
  dsimp only
  rw [shapeCast_self, shapeCast_self]
  simp only [maximumf_apply, addf_apply, mulf_apply, subf_apply, rsqrt_apply, broadcast_apply,
    Cert.LibKeepdims.broadcastTo_a1_ab_apply, ValueIdx.broadcastTo_1b_ab_apply, rowMeanBlk_apply]
  rfl

/-- The first layer's payload is the normalised block of the rows before normalisation. -/
theorem k2_pay1_eq (x0 x1 : Vec Ideal S5000x128 .f32) (x2 : Vec Ideal S5000x1 .f32) (x3 x4 x5 : Vec Ideal S1x128 .f32) :
    k2_pay1 x0 x1 x2 x3 x4 x5 = normBlk (preBlk x0 x1 x2 x3) x4 x5 := rfl

theorem k4_pay2_eq (x0 x1 : Vec Ideal S5000x128 .f32) (x2 : Vec Ideal S5000x1 .f32) (x3 x4 x5 : Vec Ideal S1x128 .f32) :
    k4_pay2 x0 x1 x2 x3 x4 x5 = normBlk (preBlk x0 x1 x2 x3) x4 x5 := rfl

theorem k6_pay2_eq (x0 x1 : Vec Ideal S5000x128 .f32) (x2 : Vec Ideal S5000x1 .f32) (x3 x4 x5 : Vec Ideal S1x128 .f32) :
    k6_pay2 x0 x1 x2 x3 x4 x5 = normBlk (preBlk x0 x1 x2 x3) x4 x5 := rfl

/-- The payload at row p, feature q of a block. -/
theorem combBlk_apply (x0 x1 : Vec Ideal S5000x128 .f32) (x2 : Vec Ideal S5000x1 .f32) (x3 x4 x5 : Vec Ideal S1x128 .f32)
    (p : Fin 5000) (q : Fin 128) :
    normBlk (preBlk x0 x1 x2 x3) x4 x5 (ix2 p q)
      = Cert.Spec.normRelu (fun k => x0 (ix2 p k) + x1 (ix2 p k) * x2 (ix2 p (0 : Fin 1)) + x3 (ix2 (0 : Fin 1) k)) x4 x5 q := by
  rw [normBlk_apply]
  simp only [preBlk_apply]

/-- A later layer's payload adds the residual block. -/
theorem k4_pay1_apply (v40 : FVec Ideal S5000x128 .f32) (v41 : Vec Ideal S5000x128 .f32) (j : S5000x128.Idx) :
    k4_pay1 v40 v41 j = v40 j + v41 j := by
  unfold k4_pay1
  rw [shapeCast_self]
  rfl

theorem k6_pay1_apply (v40 : FVec Ideal S5000x128 .f32) (v41 : Vec Ideal S5000x128 .f32) (j : S5000x128.Idx) :
    k6_pay1 v40 v41 j = v40 j + v41 j := by
  unfold k6_pay1
  rw [shapeCast_self]
  rfl

/-! ## From blocks to the array -/

theorem hz : (![0, 0] : Fin 2 → Nat) = fun _ => 0 := funext fun a => by fin_cases a <;> rfl

/-- Two blocks of rows agree when they agree at every row and feature. -/
theorem funext_blk {A B : S5000x128.Idx → EReal} (h : ∀ (p : Fin 5000) (q : Fin 128), A (ix2 p q) = B (ix2 p q)) : A = B :=
  funext fun j => by rw [eq_ix2 j]; exact h _ _

/-- The normalised row depends on the gain and the shift only through their entries at the feature read. -/
theorem normRelu_congr {f f' : Fin 128 → EReal} {g g' be be' : FVec Ideal Cert.Spec.S1xD .f32} {k : Fin 128}
    (hf : ∀ j, f j = f' j) (hg : g (ix2 (0 : Fin 1) k) = g' (ix2 (0 : Fin 1) k))
    (hbe : be (ix2 (0 : Fin 1) k) = be' (ix2 (0 : Fin 1) k)) :
    Cert.Spec.normRelu f g be k = Cert.Spec.normRelu f' g' be' k := by
  obtain rfl : f = f' := funext hf
  unfold Cert.Spec.normRelu
  rw [hg, hbe]

theorem add_congr {a a' b b' : EReal} (h1 : a = a') (h2 : b = b') : a + b = a' + b' := by rw [h1, h2]

/-- The row before normalisation, read off the whole arrays at any indices that are those of row r. -/
theorem pre_congr (A0 A1 : FVec Ideal Cert.Spec.SNxD .f32) (A2 : FVec Ideal Cert.Spec.SNx1 .f32) (A3 : FVec Ideal Cert.Spec.S1xD .f32)
    (i0 i1 : Cert.Spec.SNxD.Idx) (i2 : Cert.Spec.SNx1.Idx) (i3 : Cert.Spec.S1xD.Idx) (r : Fin 100000) (k : Fin 128)
    (h0 : i0 = ix2 r k) (h1 : i1 = ix2 r k) (h2 : i2 = ix2 r (0 : Fin 1)) (h3 : i3 = ix2 (0 : Fin 1) k) :
    A0 i0 + A1 i1 * A2 i2 + A3 i3 = Cert.Spec.pre A0 A1 A2 A3 r k := by
  subst h0 h1 h2 h3; rfl

/-- Row p of the block of grid point n is row 5000 n + p of the array. -/
def rowAt (n : Nat) (p : Fin 5000) (h : n < 20) : Fin 100000 := ⟨n * 5000 + p.val, by have := p.isLt; omega⟩

/-! ## The first layer's combine region -/

section
variable (V : (c : Dev nD) → (b : Ref sig .tc) → Buf (Elt Ideal) ((c : Thread nD τ).loc b)) (c : Dev nD)

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem lt2 (t : Fin cfg2.N) : t.val < 20 := Nat.lt_of_lt_of_eq t.isLt N_2

theorem emb2_0 (t : Fin cfg2.N) (p : Fin 5000) (k : Fin 128) :
    ((cfg2.win 0).blk t).view.emb (ix2 p k) = ix2 (rowAt t.val p (lt2 t)) k := by
  obtain ⟨e0, e1, -⟩ := idx2 t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem emb2_1 (t : Fin cfg2.N) (p : Fin 5000) (k : Fin 128) :
    ((cfg2.win 1).blk t).view.emb (ix2 p k) = ix2 (rowAt t.val p (lt2 t)) k := by
  obtain ⟨-, -, e0, e1, -⟩ := idx2 t
  funext a; apply Fin.ext
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

theorem emb2_2 (t : Fin cfg2.N) (p : Fin 5000) (u : Fin 1) :
    ((cfg2.win 2).blk t).view.emb (ix2 p u) = ix2 (rowAt t.val p (lt2 t)) (0 : Fin 1) := by
  obtain ⟨-, -, -, -, e0, e1, -⟩ := idx2 t
  funext a; apply Fin.ext
  match a with
  | ⟨0, _⟩ => show win2_2.index t (0 : Fin 2) * 5000 + 1 * p.val = t.val * 5000 + p.val; rw [e0]; omega
  | ⟨1, _⟩ => show win2_2.index t (1 : Fin 2) * 1 + 1 * u.val = 0; rw [e1]; omega

theorem emb2_3 (t : Fin cfg2.N) (u : Fin 1) (k : Fin 128) :
    ((cfg2.win 3).blk t).view.emb (ix2 u k) = ix2 (0 : Fin 1) k := by
  obtain ⟨-, -, -, -, -, -, e0, e1, -⟩ := idx2 t
  funext a; apply Fin.ext
  match a with
  | ⟨0, _⟩ => show win2_3.index t (0 : Fin 2) * 1 + 1 * u.val = 0; rw [e0]; omega
  | ⟨1, _⟩ => show win2_3.index t (1 : Fin 2) * 128 + 1 * k.val = k.val; rw [e1]; omega

theorem emb2_4 (t : Fin cfg2.N) (u : Fin 1) (k : Fin 128) :
    ((cfg2.win 4).blk t).view.emb (ix2 u k) = ix2 (0 : Fin 1) k := by
  obtain ⟨-, -, -, -, -, -, -, -, e0, e1, -⟩ := idx2 t
  funext a; apply Fin.ext
  match a with
  | ⟨0, _⟩ => show win2_4.index t (0 : Fin 2) * 1 + 1 * u.val = 0; rw [e0]; omega
  | ⟨1, _⟩ => show win2_4.index t (1 : Fin 2) * 128 + 1 * k.val = k.val; rw [e1]; omega

theorem emb2_5 (t : Fin cfg2.N) (u : Fin 1) (k : Fin 128) :
    ((cfg2.win 5).blk t).view.emb (ix2 u k) = ix2 (0 : Fin 1) k := by
  obtain ⟨-, -, -, -, -, -, -, -, -, -, e0, e1, -⟩ := idx2 t
  funext a; apply Fin.ext
  match a with
  | ⟨0, _⟩ => show win2_5.index t (0 : Fin 2) * 1 + 1 * u.val = 0; rw [e0]; omega
  | ⟨1, _⟩ => show win2_5.index t (1 : Fin 2) * 128 + 1 * k.val = k.val; rw [e1]; omega

theorem emb2_6 (t : Fin cfg2.N) (p : Fin 5000) (k : Fin 128) :
    ((cfg2.win 6).blk t).view.emb (ix2 p k) = ix2 (rowAt t.val p (lt2 t)) k := by
  obtain ⟨-, -, -, -, -, -, -, -, -, -, -, -, e0, e1⟩ := idx2 t
  funext a; apply Fin.ext
  match a with
  | ⟨0, _⟩ => show win2_6.index t (0 : Fin 2) * 5000 + 1 * p.val = t.val * 5000 + p.val; rw [e0]; omega
  | ⟨1, _⟩ => show win2_6.index t (1 : Fin 2) * 128 + 1 * k.val = k.val; rw [e1]; omega

/-- What grid point t writes back is its block of rows of the combine step of the whole arrays. -/
theorem flushed2_eq (t : Fin cfg2.N) :
    (dat2 (F := Ideal) V c).flushed 6 t = ((cfg2.win 6).blk t).view.read (Elt Ideal)
      (Cert.Spec.combine (V c main_v46) (V c main_v33) (V c main_v28) (V c main_v49) (V c main_v52) (V c main_v55)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S1x128) hz]
  rw [k2_pay1_eq]
  refine funext_blk fun p q => ?_
  refine (combBlk_apply (iblk2 V c 0 t) (iblk2 V c 1 t) (iblk2 V c 2 t) (iblk2 V c 3 t) (iblk2 V c 4 t) (iblk2 V c 5 t) p q).trans ?_
  show _ = Cert.Spec.combine (V c main_v46) (V c main_v33) (V c main_v28) (V c main_v49) (V c main_v52) (V c main_v55)
    (((cfg2.win 6).blk t).view.emb (ix2 p q))
  rw [emb2_6 t p q]
  show _ = Cert.Spec.normRelu (Cert.Spec.pre (V c main_v46) (V c main_v33) (V c main_v28) (V c main_v49) (rowAt t.val p (lt2 t)))
    (V c main_v52) (V c main_v55) q
  refine normRelu_congr (fun k => ?_) ?_ ?_
  · exact pre_congr (V c main_v46) (V c main_v33) (V c main_v28) (V c main_v49)
      (((cfg2.win 0).blk t).view.emb (ix2 p k)) (((cfg2.win 1).blk t).view.emb (ix2 p k))
      (((cfg2.win 2).blk t).view.emb (ix2 p (0 : Fin 1))) (((cfg2.win 3).blk t).view.emb (ix2 (0 : Fin 1) k))
      (rowAt t.val p (lt2 t)) k (emb2_0 t p k) (emb2_1 t p k) (emb2_2 t p 0) (emb2_3 t 0 k)
  · exact congrArg (V c main_v52) (emb2_4 t 0 q)
  · exact congrArg (V c main_v55) (emb2_5 t 0 q)

/-- An index of the array is in point t's block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v56).slice (win2_6.rect t)).set ↔ _
  rw [View.set_slice_whole, Rect.mem_set_unit]
  exact Iff.rfl

/-- Row r is in the block of grid point r / 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < cfg2.N := Nat.lt_of_lt_of_eq (by omega : (i 0).val / 5000 < 20) N_2.symm
  refine ⟨⟨(i 0).val / 5000, ht⟩, flush2_6 _, ?_⟩
  rw [mem_blk2]
  obtain ⟨-, -, -, -, -, -, -, -, -, -, -, -, e0, e1⟩ := idx2 ⟨(i 0).val / 5000, ht⟩
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [e1]; omega

/-- The first layer's combine region leaves the combine step of its input arrays in its output array. -/
theorem combine2 : (dat2 (F := Ideal) V c).arrAt 6 cfg2.N
    = Cert.Spec.combine (V c main_v46) (V c main_v33) (V c main_v28) (V c main_v49) (V c main_v52) (V c main_v55) :=
  (dat2 (F := Ideal) V c).arrAt_eq_of_cover 6
    (Cert.Spec.combine (V c main_v46) (V c main_v33) (V c main_v28) (V c main_v49) (V c main_v52) (V c main_v55))
    (fun t _ => flushed2_eq V c t) cover2
end

/-! ## The second layer's combine region -/

section
variable (V : (c : Dev nD) → (b : Ref sig .tc) → Buf (Elt Ideal) ((c : Thread nD τ).loc b)) (c : Dev nD)

theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem lt4 (t : Fin cfg4.N) : t.val < 20 := Nat.lt_of_lt_of_eq t.isLt N_4

theorem emb4_0 (t : Fin cfg4.N) (p : Fin 5000) (k : Fin 128) :
    ((cfg4.win 0).blk t).view.emb (ix2 p k) = ix2 (rowAt t.val p (lt4 t)) k := by
  obtain ⟨e0, e1, -⟩ := idx4 t
  funext a; apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

theorem emb4_1 (t : Fin cfg4.N) (p : Fin 5000) (k : Fin 128) :
    ((cfg4.win 1).blk t).view.emb (ix2 p k) = ix2 (rowAt t.val p (lt4 t)) k := by
  obtain ⟨-, -, e0, e1, -⟩ := idx4 t
  funext a; apply Fin.ext
  match a with
  | ⟨0, _⟩ => show win4_1.index t (0 : Fin 2) * 5000 + 1 * p.val = t.val * 5000 + p.val; rw [e0]; omega
  | ⟨1, _⟩ => show win4_1.index t (1 : Fin 2) * 128 + 1 * k.val = k.val; rw [e1]; omega

theorem emb4_2 (t : Fin cfg4.N) (p : Fin 5000) (u : Fin 1) :
    ((cfg4.win 2).blk t).view.emb (ix2 p u) = ix2 (rowAt t.val p (lt4 t)) (0 : Fin 1) := by
  obtain ⟨-, -, -, -, e0, e1, -⟩ := idx4 t
  funext a; apply Fin.ext
  match a with
  | ⟨0, _⟩ => show win4_2.index t (0 : Fin 2) * 5000 + 1 * p.val = t.val * 5000 + p.val; rw [e0]; omega
  | ⟨1, _⟩ => show win4_2.index t (1 : Fin 2) * 1 + 1 * u.val = 0; rw [e1]; omega

theorem emb4_3 (t : Fin cfg4.N) (u : Fin 1) (k : Fin 128) :
    ((cfg4.win 3).blk t).view.emb (ix2 u k) = ix2 (0 : Fin 1) k := by
  obtain ⟨-, -, -, -, -, -, e0, e1, -⟩ := idx4 t
  funext a; apply Fin.ext
  match a with
  | ⟨0, _⟩ => show win4_3.index t (0 : Fin 2) * 1 + 1 * u.val = 0; rw [e0]; omega
  | ⟨1, _⟩ => show win4_3.index t (1 : Fin 2) * 128 + 1 * k.val = k.val; rw [e1]; omega

theorem emb4_4 (t : Fin cfg4.N) (u : Fin 1) (k : Fin 128) :
    ((cfg4.win 4).blk t).view.emb (ix2 u k) = ix2 (0 : Fin 1) k := by
  obtain ⟨-, -, -, -, -, -, -, -, e0, e1, -⟩ := idx4 t
  funext a; apply Fin.ext
  match a with
  | ⟨0, _⟩ => show win4_4.index t (0 : Fin 2) * 1 + 1 * u.val = 0; rw [e0]; omega
  | ⟨1, _⟩ => show win4_4.index t (1 : Fin 2) * 128 + 1 * k.val = k.val; rw [e1]; omega

theorem emb4_5 (t : Fin cfg4.N) (u : Fin 1) (k : Fin 128) :
    ((cfg4.win 5).blk t).view.emb (ix2 u k) = ix2 (0 : Fin 1) k := by
  obtain ⟨-, -, -, -, -, -, -, -, -, -, e0, e1, -⟩ := idx4 t
  funext a; apply Fin.ext
  match a with
  | ⟨0, _⟩ => show win4_5.index t (0 : Fin 2) * 1 + 1 * u.val = 0; rw [e0]; omega
  | ⟨1, _⟩ => show win4_5.index t (1 : Fin 2) * 128 + 1 * k.val = k.val; rw [e1]; omega

theorem emb4_6 (t : Fin cfg4.N) (p : Fin 5000) (k : Fin 128) :
    ((cfg4.win 6).blk t).view.emb (ix2 p k) = ix2 (rowAt t.val p (lt4 t)) k := by
  obtain ⟨-, -, -, -, -, -, -, -, -, -, -, -, e0, e1, -⟩ := idx4 t
  funext a; apply Fin.ext
  match a with
  | ⟨0, _⟩ => show win4_6.index t (0 : Fin 2) * 5000 + 1 * p.val = t.val * 5000 + p.val; rw [e0]; omega
  | ⟨1, _⟩ => show win4_6.index t (1 : Fin 2) * 128 + 1 * k.val = k.val; rw [e1]; omega

theorem emb4_7 (t : Fin cfg4.N) (p : Fin 5000) (k : Fin 128) :
    ((cfg4.win 7).blk t).view.emb (ix2 p k) = ix2 (rowAt t.val p (lt4 t)) k := by
  obtain ⟨-, -, -, -, -, -, -, -, -, -, -, -, -, -, e0, e1⟩ := idx4 t
  funext a; apply Fin.ext
  match a with
  | ⟨0, _⟩ => show win4_7.index t (0 : Fin 2) * 5000 + 1 * p.val = t.val * 5000 + p.val; rw [e0]; omega
  | ⟨1, _⟩ => show win4_7.index t (1 : Fin 2) * 128 + 1 * k.val = k.val; rw [e1]; omega

/-- What grid point t writes back is its block of rows of the combine step with the layer's input added back. -/
theorem flushed4_eq (t : Fin cfg4.N) :
    (dat4 (F := Ideal) V c).flushed 7 t = ((cfg4.win 7).blk t).view.read (Elt Ideal)
      (Cert.Spec.combineRes (V c main_v72) (V c main_v59) (V c main_v28) (V c main_v75) (V c main_v78) (V c main_v81) (V c main_v56)) := by
  show (cfg4.win 7).cut (grid4.coords t) ((dat4 V c).after 7 t) = _
  rw [after4_7]
  unfold out4_7
  rw [View.canon_unit_zero hz]
  simp only [View.ld_unit_zero (S := S5000x128) hz, View.ld_unit_zero (S := S5000x1) hz, View.ld_unit_zero (S := S1x128) hz]
  refine funext_blk fun p q => ?_
  refine (k4_pay1_apply (k4_pay2 (iblk4 V c 0 t) (iblk4 V c 1 t) (iblk4 V c 2 t) (iblk4 V c 3 t) (iblk4 V c 4 t) (iblk4 V c 5 t))
    (iblk4 V c 6 t) (ix2 p q)).trans ?_
  show _ = Cert.Spec.combineRes (V c main_v72) (V c main_v59) (V c main_v28) (V c main_v75) (V c main_v78) (V c main_v81) (V c main_v56)
    (((cfg4.win 7).blk t).view.emb (ix2 p q))
  rw [emb4_7 t p q]
  show _ = Cert.Spec.normRelu (Cert.Spec.pre (V c main_v72) (V c main_v59) (V c main_v28) (V c main_v75) (rowAt t.val p (lt4 t)))
    (V c main_v78) (V c main_v81) q + (V c main_v56 : Cert.Spec.SNxD.Idx → EReal) (ix2 (rowAt t.val p (lt4 t)) q)
  refine add_congr ?_ ?_
  · refine (congrFun (k4_pay2_eq (iblk4 V c 0 t) (iblk4 V c 1 t) (iblk4 V c 2 t) (iblk4 V c 3 t) (iblk4 V c 4 t) (iblk4 V c 5 t)) (ix2 p q)).trans ?_
    refine (combBlk_apply (iblk4 V c 0 t) (iblk4 V c 1 t) (iblk4 V c 2 t) (iblk4 V c 3 t) (iblk4 V c 4 t) (iblk4 V c 5 t) p q).trans ?_
    refine normRelu_congr (fun k => ?_) ?_ ?_
    · exact pre_congr (V c main_v72) (V c main_v59) (V c main_v28) (V c main_v75)
        (((cfg4.win 0).blk t).view.emb (ix2 p k)) (((cfg4.win 1).blk t).view.emb (ix2 p k))
        (((cfg4.win 2).blk t).view.emb (ix2 p (0 : Fin 1))) (((cfg4.win 3).blk t).view.emb (ix2 (0 : Fin 1) k))
        (rowAt t.val p (lt4 t)) k (emb4_0 t p k) (emb4_1 t p k) (emb4_2 t p 0) (emb4_3 t 0 k)
    · exact congrArg (V c main_v78) (emb4_4 t 0 q)
    · exact congrArg (V c main_v81) (emb4_5 t 0 q)
  · exact congrArg (V c main_v56) (emb4_6 t p q)

/-- An index of the array is in point t's block iff each coordinate is in the block's range on its axis. -/
theorem mem_blk4 (t : Fin cfg4.N) (i : S100000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v82).slice (win4_7.rect t)).set ↔ _
  rw [View.set_slice_whole, Rect.mem_set_unit]
  exact Iff.rfl

/-- Row r is in the block of grid point r / 5000. -/
theorem cover4 (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have ht : (i 0).val / 5000 < cfg4.N := Nat.lt_of_lt_of_eq (by omega : (i 0).val / 5000 < 20) N_4.symm
  refine ⟨⟨(i 0).val / 5000, ht⟩, flush4_7 _, ?_⟩
  rw [mem_blk4]
  obtain ⟨-, -, -, -, -, -, -, -, -, -, -, -, -, -, e0, e1⟩ := idx4 ⟨(i 0).val / 5000, ht⟩
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, ht⟩ (1 : Fin 2) * 128 ≤ (i 1).val
      ∧ (i 1).val < win4_7.index ⟨(i 0).val / 5000, ht⟩ (1 : Fin 2) * 128 + 128
    rw [e1]; omega

/-- The second layer's combine region leaves the combine step of its input arrays, with the layer's input added back,
    in its output array. -/
theorem combine4 : (dat4 (F := Ideal) V c).arrAt 7 cfg4.N
    = Cert.Spec.combineRes (V c main_v72) (V c main_v59) (V c main_v28) (V c main_v75) (V c main_v78) (V c main_v81) (V c main_v56) :=
  (dat4 (F := Ideal) V c).arrAt_eq_of_cover 7
    (Cert.Spec.combineRes (V c main_v72) (V c main_v59) (V c main_v28) (V c main_v75) (V c main_v78) (V c main_v81) (V c main_v56))
    (fun t _ => flushed4_eq V c t) cover4
end

/-! ## The third layer's combine region -/

section
variable (V : (c : Dev nD) → (b : Ref sig .tc) → Buf (Elt Ideal) ((c : Thread nD τ).loc b)) (c : Dev nD)

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

theorem lt6 (t : Fin cfg6.N) : t.val < 20 := Nat.lt_of_lt_of_eq t.isLt N_6

theorem emb6_0 (t : Fin cfg6.N) (p : Fin 5000) (k : Fin 128) :
    ((cfg6.win 0).blk t).view.emb (ix2 p k) = ix2 (rowAt t.val p (lt6 t)) k := by
  obtain ⟨e0, e1, -⟩ := idx6 t
  funext a; apply Fin.ext
  match a with
  | ⟨0, _⟩ => show win6_0.index t (0 : Fin 2) * 5000 + 1 * p.val = t.val * 5000 + p.val; rw [e0]; omega
  | ⟨1, _⟩ => show win6_0.index t (1 : Fin 2) * 128 + 1 * k.val = k.val; rw [e1]; omega

theorem emb6_1 (t : Fin cfg6.N) (p : Fin 5000) (k : Fin 128) :
    ((cfg6.win 1).blk t).view.emb (ix2 p k) = ix2 (rowAt t.val p (lt6 t)) k := by
  obtain ⟨-, -, e0, e1, -⟩ := idx6 t
  funext a; apply Fin.ext
  match a with
  | ⟨0, _⟩ => show win6_1.index t (0 : Fin 2) * 5000 + 1 * p.val = t.val * 5000 + p.val; rw [e0]; omega
  | ⟨1, _⟩ => show win6_1.index t (1 : Fin 2) * 128 + 1 * k.val = k.val; rw [e1]; omega

theorem emb6_2 (t : Fin cfg6.N) (p : Fin 5000) (u : Fin 1) :
    ((cfg6.win 2).blk t).view.emb (ix2 p u) = ix2 (rowAt t.val p (lt6 t)) (0 : Fin 1) := by
  obtain ⟨-, -, -, -, e0, e1, -⟩ := idx6 t
  funext a; apply Fin.ext
  match a with
  | ⟨0, _⟩ => show win6_2.index t (0 : Fin 2) * 5000 + 1 * p.val = t.val * 5000 + p.val; rw [e0]; omega
  | ⟨1, _⟩ => show win6_2.index t (1 : Fin 2) * 1 + 1 * u.val = 0; rw [e1]; omega

theorem emb6_3 (t : Fin cfg6.N) (u : Fin 1) (k : Fin 128) :
    ((cfg6.win 3).blk t).view.emb (ix2 u k) = ix2 (0 : Fin 1) k := by
  obtain ⟨-, -, -, -, -, -, e0, e1, -⟩ := idx6 t
  funext a; apply Fin.ext
  match a with
  | ⟨0, _⟩ => show win6_3.index t (0 : Fin 2) * 1 + 1 * u.val = 0; rw [e0]; omega
  | ⟨1, _⟩ => show win6_3.index t (1 : Fin 2) * 128 + 1 * k.val = k.val; rw [e1]; omega

theorem emb6_4 (t : Fin cfg6.N) (u : Fin 1) (k : Fin 128) :
    ((cfg6.win 4).blk t).view.emb (ix2 u k) = ix2 (0 : Fin 1) k := by
  obtain ⟨-, -, -, -, -, -, -, -, e0, e1, -⟩ := idx6 t
  funext a; apply Fin.ext
  match a with
  | ⟨0, _⟩ => show win6_4.index t (0 : Fin 2) * 1 + 1 * u.val = 0; rw [e0]; omega
  | ⟨1, _⟩ => show win6_4.index t (1 : Fin 2) * 128 + 1 * k.val = k.val; rw [e1]; omega

theorem emb6_5 (t : Fin cfg6.N) (u : Fin 1) (k : Fin 128) :
    ((cfg6.win 5).blk t).view.emb (ix2 u k) = ix2 (0 : Fin 1) k := by
  obtain ⟨-, -, -, -, -, -, -, -, -, -, e0, e1, -⟩ := idx6 t
  funext a; apply Fin.ext
  match a with
  | ⟨0, _⟩ => show win6_5.index t (0 : Fin 2) * 1 + 1 * u.val = 0; rw [e0]; omega
  | ⟨1, _⟩ => show win6_5.index t (1 : Fin 2) * 128 + 1 * k.val = k.val; rw [e1]; omega

theorem emb6_6 (t : Fin cfg6.N) (p : Fin 5000) (k : Fin 128) :
    ((cfg6.win 6).blk t).view.emb (ix2 p k) = ix2 (rowAt t.val p (lt6 t)) k := by
  obtain ⟨-, -, -, -, -, -, -, -, -, -, -, -, e0, e1, -⟩ := idx6 t
  funext a; apply Fin.ext
  match a with
  | ⟨0, _⟩ => show win6_6.index t (0 : Fin 2) * 5000 + 1 * p.val = t.val * 5000 + p.val; rw [e0]; omega
  | ⟨1, _⟩ => show win6_6.index t (1 : Fin 2) * 128 + 1 * k.val = k.val; rw [e1]; omega

theorem emb6_7 (t : Fin cfg6.N) (p : Fin 5000) (k : Fin 128) :
    ((cfg6.win 7).blk t).view.emb (ix2 p k) = ix2 (rowAt t.val p (lt6 t)) k := by
  obtain ⟨-, -, -, -, -, -, -, -, -, -, -, -, -, -, e0, e1⟩ := idx6 t
  funext a; apply Fin.ext
  match a with
  | ⟨0, _⟩ => show win6_7.index t (0 : Fin 2) * 5000 + 1 * p.val = t.val * 5000 + p.val; rw [e0]; omega
  | ⟨1, _⟩ => show win6_7.index t (1 : Fin 2) * 128 + 1 * k.val = k.val; rw [e1]; omega

/-- What grid point t writes back is its block of rows of the combine step with the layer's input added back. -/
theorem flushed6_eq (t : Fin cfg6.N) :
    (dat6 (F := Ideal) V c).flushed 7 t = ((cfg6.win 7).blk t).view.read (Elt Ideal)
      (Cert.Spec.combineRes (V c main_v98) (V c main_v85) (V c main_v28) (V c main_v101) (V c main_v104) (V c main_v107) (V c main_v82)) := by
  show (cfg6.win 7).cut (grid6.coords t) ((dat6 V c).after 7 t) = _
  rw [after6_7]
  unfold out6_7
  rw [View.canon_unit_zero hz]
  simp only [View.ld_unit_zero (S := S5000x128) hz, View.ld_unit_zero (S := S5000x1) hz, View.ld_unit_zero (S := S1x128) hz]
  refine funext_blk fun p q => ?_
  refine (k6_pay1_apply (k6_pay2 (iblk6 V c 0 t) (iblk6 V c 1 t) (iblk6 V c 2 t) (iblk6 V c 3 t) (iblk6 V c 4 t) (iblk6 V c 5 t))
    (iblk6 V c 6 t) (ix2 p q)).trans ?_
  show _ = Cert.Spec.combineRes (V c main_v98) (V c main_v85) (V c main_v28) (V c main_v101) (V c main_v104) (V c main_v107) (V c main_v82)
    (((cfg6.win 7).blk t).view.emb (ix2 p q))
  rw [emb6_7 t p q]
  show _ = Cert.Spec.normRelu (Cert.Spec.pre (V c main_v98) (V c main_v85) (V c main_v28) (V c main_v101) (rowAt t.val p (lt6 t)))
    (V c main_v104) (V c main_v107) q + (V c main_v82 : Cert.Spec.SNxD.Idx → EReal) (ix2 (rowAt t.val p (lt6 t)) q)
  refine add_congr ?_ ?_
  · refine (congrFun (k6_pay2_eq (iblk6 V c 0 t) (iblk6 V c 1 t) (iblk6 V c 2 t) (iblk6 V c 3 t) (iblk6 V c 4 t) (iblk6 V c 5 t)) (ix2 p q)).trans ?_
    refine (combBlk_apply (iblk6 V c 0 t) (iblk6 V c 1 t) (iblk6 V c 2 t) (iblk6 V c 3 t) (iblk6 V c 4 t) (iblk6 V c 5 t) p q).trans ?_
    refine normRelu_congr (fun k => ?_) ?_ ?_
    · exact pre_congr (V c main_v98) (V c main_v85) (V c main_v28) (V c main_v101)
        (((cfg6.win 0).blk t).view.emb (ix2 p k)) (((cfg6.win 1).blk t).view.emb (ix2 p k))
        (((cfg6.win 2).blk t).view.emb (ix2 p (0 : Fin 1))) (((cfg6.win 3).blk t).view.emb (ix2 (0 : Fin 1) k))
        (rowAt t.val p (lt6 t)) k (emb6_0 t p k) (emb6_1 t p k) (emb6_2 t p 0) (emb6_3 t 0 k)
    · exact congrArg (V c main_v104) (emb6_4 t 0 q)
    · exact congrArg (V c main_v107) (emb6_5 t 0 q)
  · exact congrArg (V c main_v82) (emb6_6 t p q)

/-- An index of the array is in point t's block iff each coordinate is in the block's range on its axis. -/
theorem mem_blk6 (t : Fin cfg6.N) (i : S100000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v108).slice (win6_7.rect t)).set ↔ _
  rw [View.set_slice_whole, Rect.mem_set_unit]
  exact Iff.rfl

/-- Row r is in the block of grid point r / 5000. -/
theorem cover6 (i : S100000x128.Idx) :
    ∃ t : Fin cfg6.N, (cfg6.win 7).flush t = true ∧ i ∈ ((cfg6.win 7).blk t).view.set := by
  have hi0 : (i 0).val < 100000 := (i 0).isLt
  have hi1 : (i 1).val < 128 := (i 1).isLt
  have ht : (i 0).val / 5000 < cfg6.N := Nat.lt_of_lt_of_eq (by omega : (i 0).val / 5000 < 20) N_6.symm
  refine ⟨⟨(i 0).val / 5000, ht⟩, flush6_7 _, ?_⟩
  rw [mem_blk6]
  obtain ⟨-, -, -, -, -, -, -, -, -, -, -, -, -, -, e0, e1⟩ := idx6 ⟨(i 0).val / 5000, ht⟩
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_7.index ⟨(i 0).val / 5000, ht⟩ (1 : Fin 2) * 128 ≤ (i 1).val
      ∧ (i 1).val < win6_7.index ⟨(i 0).val / 5000, ht⟩ (1 : Fin 2) * 128 + 128
    rw [e1]; omega

/-- The third layer's combine region leaves the combine step of its input arrays, with the layer's input added back,
    in its output array. -/
theorem combine6 : (dat6 (F := Ideal) V c).arrAt 7 cfg6.N
    = Cert.Spec.combineRes (V c main_v98) (V c main_v85) (V c main_v28) (V c main_v101) (V c main_v104) (V c main_v107) (V c main_v82) :=
  (dat6 (F := Ideal) V c).arrAt_eq_of_cover 7
    (Cert.Spec.combineRes (V c main_v98) (V c main_v85) (V c main_v28) (V c main_v101) (V c main_v104) (V c main_v107) (V c main_v82))
    (fun t _ => flushed6_eq V c t) cover6
end

end Cert.KernelIdeal.RegionValue

end
-- ==== Proof.WalkB.lean ====
/-
  The same walk, continued: the first layer's gather / scatter-add and its combine step, then the second layer's dense
  product.
-/
import proofs.«102601_j59450937311581_1_alg».proof.Proof.WalkA
import proofs.«102601_j59450937311581_1_alg».proof.Proof.RegionDense
import proofs.«102601_j59450937311581_1_alg».proof.Proof.RegionCombine
import Idealize.ShloMosaic.Lib.StableHlo.Run
import Idealize.ShloMosaic.PureOps.Ideal

set_option maxRecDepth 16384
set_option quotPrecheck false

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "A0" => (m ((c : Thread nD τ).loc main_arg0))
local notation "A1" => (m ((c : Thread nD τ).loc main_arg1))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))
local notation "A7" => (m ((c : Thread nD τ).loc main_arg7))
local notation "A8" => (m ((c : Thread nD τ).loc main_arg8))
local notation "A9" => (m ((c : Thread nD τ).loc main_arg9))

/-! ## Boundary 5 -/

theorem at_5_arg3 : W5 m ρ c (Proc.devRef .tc main_arg3) = A3 :=
  (show StableHlo.after hostOps2 (W4 m ρ c) (Proc.devRef .tc main_arg3) = W4 m ρ c (Proc.devRef .tc main_arg3) from by
    dsimp only [hostOps2]; after_results).trans (at_4_arg3 m ρ c)

theorem at_5_arg6 : W5 m ρ c (Proc.devRef .tc main_arg6) = A6 :=
  (show StableHlo.after hostOps2 (W4 m ρ c) (Proc.devRef .tc main_arg6) = W4 m ρ c (Proc.devRef .tc main_arg6) from by
    dsimp only [hostOps2]; after_results).trans (at_4_arg6 m ρ c)

theorem at_5_arg7 : W5 m ρ c (Proc.devRef .tc main_arg7) = A7 :=
  (show StableHlo.after hostOps2 (W4 m ρ c) (Proc.devRef .tc main_arg7) = W4 m ρ c (Proc.devRef .tc main_arg7) from by
    dsimp only [hostOps2]; after_results).trans (at_4_arg7 m ρ c)

theorem at_5_arg8 : W5 m ρ c (Proc.devRef .tc main_arg8) = A8 :=
  (show StableHlo.after hostOps2 (W4 m ρ c) (Proc.devRef .tc main_arg8) = W4 m ρ c (Proc.devRef .tc main_arg8) from by
    dsimp only [hostOps2]; after_results).trans (at_4_arg8 m ρ c)

theorem at_5_arg9 : W5 m ρ c (Proc.devRef .tc main_arg9) = A9 :=
  (show StableHlo.after hostOps2 (W4 m ρ c) (Proc.devRef .tc main_arg9) = W4 m ρ c (Proc.devRef .tc main_arg9) from by
    dsimp only [hostOps2]; after_results).trans (at_4_arg9 m ρ c)

theorem at_5_v1 : W5 m ρ c (Proc.devRef .tc main_v1) = Cert.ReferenceIdeal.RefValue.src A1 :=
  (show StableHlo.after hostOps2 (W4 m ρ c) (Proc.devRef .tc main_v1) = W4 m ρ c (Proc.devRef .tc main_v1) from by
    dsimp only [hostOps2]; after_results).trans (at_4_v1 m ρ c)

theorem at_5_v3 : W5 m ρ c (Proc.devRef .tc main_v3) = Cert.ReferenceIdeal.RefValue.dst A1 :=
  (show StableHlo.after hostOps2 (W4 m ρ c) (Proc.devRef .tc main_v3) = W4 m ρ c (Proc.devRef .tc main_v3) from by
    dsimp only [hostOps2]; after_results).trans (at_4_v3 m ρ c)

theorem at_5_v27 : W5 m ρ c (Proc.devRef .tc main_v27) = Cert.ReferenceIdeal.RefValue.enorm A1 :=
  (show StableHlo.after hostOps2 (W4 m ρ c) (Proc.devRef .tc main_v27) = W4 m ρ c (Proc.devRef .tc main_v27) from by
    dsimp only [hostOps2]; after_results).trans (at_4_v27 m ρ c)

theorem at_5_v28 : W5 m ρ c (Proc.devRef .tc main_v28) = Cert.ReferenceIdeal.RefValue.dinvCol A1 :=
  (show StableHlo.after hostOps2 (W4 m ρ c) (Proc.devRef .tc main_v28) = W4 m ρ c (Proc.devRef .tc main_v28) from by
    dsimp only [hostOps2]; after_results).trans (at_4_v28 m ρ c)

theorem at_5_v33 : W5 m ρ c (Proc.devRef .tc main_v33) = Cert.ReferenceIdeal.RefValue.dense (Cert.ReferenceIdeal.RefValue.x0 A0 A4 A5) (Cert.ReferenceIdeal.RefValue.w1 A6) :=
  (show StableHlo.after hostOps2 (W4 m ρ c) (Proc.devRef .tc main_v33) = W4 m ρ c (Proc.devRef .tc main_v33) from by
    dsimp only [hostOps2]; after_results).trans (at_4_v33 m ρ c)

set_option maxHeartbeats 4000000 in
theorem at_5_v46 : W5 m ρ c (Proc.devRef .tc main_v46) = Cert.ReferenceIdeal.RefValue.agg A1 (Cert.ReferenceIdeal.RefValue.dense (Cert.ReferenceIdeal.RefValue.x0 A0 A4 A5) (Cert.ReferenceIdeal.RefValue.w1 A6)) := by
  show StableHlo.after hostOps2 (W4 m ρ c) (Proc.devRef .tc main_v46) = _
  dsimp only [hostOps2]
  after_results_simp
  rw [at_4_v3 m ρ c, at_4_v33 m ρ c, at_4_v1 m ρ c, at_4_v27 m ρ c]
  rfl

set_option maxHeartbeats 4000000 in
theorem at_5_v49 : W5 m ρ c (Proc.devRef .tc main_v49) = Cert.ReferenceIdeal.RefValue.par1 A7 := by
  show StableHlo.after hostOps2 (W4 m ρ c) (Proc.devRef .tc main_v49) = _
  dsimp only [hostOps2]
  after_results_simp
  rw [at_4_arg7 m ρ c]
  exact Cert.LibReshapeBcast.shapeCast_row_eq_broadcastInDim _ _ Cert.ReferenceIdeal.Gen.bcast_S128_S1x128_1

set_option maxHeartbeats 4000000 in
theorem at_5_v52 : W5 m ρ c (Proc.devRef .tc main_v52) = Cert.ReferenceIdeal.RefValue.par1 A8 := by
  show StableHlo.after hostOps2 (W4 m ρ c) (Proc.devRef .tc main_v52) = _
  dsimp only [hostOps2]
  after_results_simp
  rw [at_4_arg8 m ρ c]
  exact Cert.LibReshapeBcast.shapeCast_row_eq_broadcastInDim _ _ Cert.ReferenceIdeal.Gen.bcast_S128_S1x128_1

set_option maxHeartbeats 4000000 in
theorem at_5_v55 : W5 m ρ c (Proc.devRef .tc main_v55) = Cert.ReferenceIdeal.RefValue.par1 A9 := by
  show StableHlo.after hostOps2 (W4 m ρ c) (Proc.devRef .tc main_v55) = _
  dsimp only [hostOps2]
  after_results_simp
  rw [at_4_arg9 m ρ c]
  exact Cert.LibReshapeBcast.shapeCast_row_eq_broadcastInDim _ _ Cert.ReferenceIdeal.Gen.bcast_S128_S1x128_1

/-! ## Boundary 6 -/

theorem at_6_arg3 : W6 m ρ c (Proc.devRef .tc main_arg3) = A3 :=
  (W6_of_ne m ρ c main_arg3 (by decide)).trans (at_5_arg3 m ρ c)

theorem at_6_arg6 : W6 m ρ c (Proc.devRef .tc main_arg6) = A6 :=
  (W6_of_ne m ρ c main_arg6 (by decide)).trans (at_5_arg6 m ρ c)

theorem at_6_arg7 : W6 m ρ c (Proc.devRef .tc main_arg7) = A7 :=
  (W6_of_ne m ρ c main_arg7 (by decide)).trans (at_5_arg7 m ρ c)

theorem at_6_arg8 : W6 m ρ c (Proc.devRef .tc main_arg8) = A8 :=
  (W6_of_ne m ρ c main_arg8 (by decide)).trans (at_5_arg8 m ρ c)

theorem at_6_arg9 : W6 m ρ c (Proc.devRef .tc main_arg9) = A9 :=
  (W6_of_ne m ρ c main_arg9 (by decide)).trans (at_5_arg9 m ρ c)

theorem at_6_v1 : W6 m ρ c (Proc.devRef .tc main_v1) = Cert.ReferenceIdeal.RefValue.src A1 :=
  (W6_of_ne m ρ c main_v1 (by decide)).trans (at_5_v1 m ρ c)

theorem at_6_v3 : W6 m ρ c (Proc.devRef .tc main_v3) = Cert.ReferenceIdeal.RefValue.dst A1 :=
  (W6_of_ne m ρ c main_v3 (by decide)).trans (at_5_v3 m ρ c)

theorem at_6_v27 : W6 m ρ c (Proc.devRef .tc main_v27) = Cert.ReferenceIdeal.RefValue.enorm A1 :=
  (W6_of_ne m ρ c main_v27 (by decide)).trans (at_5_v27 m ρ c)

theorem at_6_v28 : W6 m ρ c (Proc.devRef .tc main_v28) = Cert.ReferenceIdeal.RefValue.dinvCol A1 :=
  (W6_arr m ρ c 2).trans (((dat2 (V5 m ρ) c).arrAt_in 2 rfl _).trans ((A_eq2 (V5 m ρ) c 2).trans (at_5_v28 m ρ c)))

theorem at_6_v56 : W6 m ρ c (Proc.devRef .tc main_v56) = Cert.ReferenceIdeal.RefValue.feat1 A0 A1 A4 A5 A6 A7 A8 A9 := by
  refine (W6_arr m ρ c 6).trans ((Cert.KernelIdeal.RegionValue.combine2 (V5 m ρ) c).trans ?_)
  rw [show V5 m ρ c main_v46 = _ from at_5_v46 m ρ c,
    show V5 m ρ c main_v33 = _ from at_5_v33 m ρ c,
    show V5 m ρ c main_v28 = _ from at_5_v28 m ρ c,
    show V5 m ρ c main_v49 = _ from at_5_v49 m ρ c,
    show V5 m ρ c main_v52 = _ from at_5_v52 m ρ c,
    show V5 m ρ c main_v55 = _ from at_5_v55 m ρ c]
  exact (Cert.ReferenceIdeal.RefValue.layerFirst_eq _ _ _ _ _ _).symm

/-! ## Boundary 7 -/

theorem at_7_arg3 : W7 m ρ c (Proc.devRef .tc main_arg3) = A3 :=
  (show StableHlo.after hostOps3 (W6 m ρ c) (Proc.devRef .tc main_arg3) = W6 m ρ c (Proc.devRef .tc main_arg3) from by
    dsimp only [hostOps3]; after_results).trans (at_6_arg3 m ρ c)

theorem at_7_arg6 : W7 m ρ c (Proc.devRef .tc main_arg6) = A6 :=
  (show StableHlo.after hostOps3 (W6 m ρ c) (Proc.devRef .tc main_arg6) = W6 m ρ c (Proc.devRef .tc main_arg6) from by
    dsimp only [hostOps3]; after_results).trans (at_6_arg6 m ρ c)

theorem at_7_arg7 : W7 m ρ c (Proc.devRef .tc main_arg7) = A7 :=
  (show StableHlo.after hostOps3 (W6 m ρ c) (Proc.devRef .tc main_arg7) = W6 m ρ c (Proc.devRef .tc main_arg7) from by
    dsimp only [hostOps3]; after_results).trans (at_6_arg7 m ρ c)

theorem at_7_arg8 : W7 m ρ c (Proc.devRef .tc main_arg8) = A8 :=
  (show StableHlo.after hostOps3 (W6 m ρ c) (Proc.devRef .tc main_arg8) = W6 m ρ c (Proc.devRef .tc main_arg8) from by
    dsimp only [hostOps3]; after_results).trans (at_6_arg8 m ρ c)

theorem at_7_arg9 : W7 m ρ c (Proc.devRef .tc main_arg9) = A9 :=
  (show StableHlo.after hostOps3 (W6 m ρ c) (Proc.devRef .tc main_arg9) = W6 m ρ c (Proc.devRef .tc main_arg9) from by
    dsimp only [hostOps3]; after_results).trans (at_6_arg9 m ρ c)

theorem at_7_v1 : W7 m ρ c (Proc.devRef .tc main_v1) = Cert.ReferenceIdeal.RefValue.src A1 :=
  (show StableHlo.after hostOps3 (W6 m ρ c) (Proc.devRef .tc main_v1) = W6 m ρ c (Proc.devRef .tc main_v1) from by
    dsimp only [hostOps3]; after_results).trans (at_6_v1 m ρ c)

theorem at_7_v3 : W7 m ρ c (Proc.devRef .tc main_v3) = Cert.ReferenceIdeal.RefValue.dst A1 :=
  (show StableHlo.after hostOps3 (W6 m ρ c) (Proc.devRef .tc main_v3) = W6 m ρ c (Proc.devRef .tc main_v3) from by
    dsimp only [hostOps3]; after_results).trans (at_6_v3 m ρ c)

theorem at_7_v27 : W7 m ρ c (Proc.devRef .tc main_v27) = Cert.ReferenceIdeal.RefValue.enorm A1 :=
  (show StableHlo.after hostOps3 (W6 m ρ c) (Proc.devRef .tc main_v27) = W6 m ρ c (Proc.devRef .tc main_v27) from by
    dsimp only [hostOps3]; after_results).trans (at_6_v27 m ρ c)

theorem at_7_v28 : W7 m ρ c (Proc.devRef .tc main_v28) = Cert.ReferenceIdeal.RefValue.dinvCol A1 :=
  (show StableHlo.after hostOps3 (W6 m ρ c) (Proc.devRef .tc main_v28) = W6 m ρ c (Proc.devRef .tc main_v28) from by
    dsimp only [hostOps3]; after_results).trans (at_6_v28 m ρ c)

theorem at_7_v56 : W7 m ρ c (Proc.devRef .tc main_v56) = Cert.ReferenceIdeal.RefValue.feat1 A0 A1 A4 A5 A6 A7 A8 A9 :=
  (show StableHlo.after hostOps3 (W6 m ρ c) (Proc.devRef .tc main_v56) = W6 m ρ c (Proc.devRef .tc main_v56) from by
    dsimp only [hostOps3]; after_results).trans (at_6_v56 m ρ c)

set_option maxHeartbeats 4000000 in
theorem at_7_v58 : W7 m ρ c (Proc.devRef .tc main_v58) = Cert.ReferenceIdeal.RefValue.w2 A6 := by
  show StableHlo.after hostOps3 (W6 m ρ c) (Proc.devRef .tc main_v58) = _
  dsimp only [hostOps3]
  after_results_simp
  rw [at_6_arg6 m ρ c]
  rfl

/-! ## Boundary 8 -/

theorem at_8_arg3 : W8 m ρ c (Proc.devRef .tc main_arg3) = A3 :=
  (W8_of_ne m ρ c main_arg3 (by decide)).trans (at_7_arg3 m ρ c)

theorem at_8_arg6 : W8 m ρ c (Proc.devRef .tc main_arg6) = A6 :=
  (W8_of_ne m ρ c main_arg6 (by decide)).trans (at_7_arg6 m ρ c)

theorem at_8_arg7 : W8 m ρ c (Proc.devRef .tc main_arg7) = A7 :=
  (W8_of_ne m ρ c main_arg7 (by decide)).trans (at_7_arg7 m ρ c)

theorem at_8_arg8 : W8 m ρ c (Proc.devRef .tc main_arg8) = A8 :=
  (W8_of_ne m ρ c main_arg8 (by decide)).trans (at_7_arg8 m ρ c)

theorem at_8_arg9 : W8 m ρ c (Proc.devRef .tc main_arg9) = A9 :=
  (W8_of_ne m ρ c main_arg9 (by decide)).trans (at_7_arg9 m ρ c)

theorem at_8_v1 : W8 m ρ c (Proc.devRef .tc main_v1) = Cert.ReferenceIdeal.RefValue.src A1 :=
  (W8_of_ne m ρ c main_v1 (by decide)).trans (at_7_v1 m ρ c)

theorem at_8_v3 : W8 m ρ c (Proc.devRef .tc main_v3) = Cert.ReferenceIdeal.RefValue.dst A1 :=
  (W8_of_ne m ρ c main_v3 (by decide)).trans (at_7_v3 m ρ c)

theorem at_8_v27 : W8 m ρ c (Proc.devRef .tc main_v27) = Cert.ReferenceIdeal.RefValue.enorm A1 :=
  (W8_of_ne m ρ c main_v27 (by decide)).trans (at_7_v27 m ρ c)

theorem at_8_v28 : W8 m ρ c (Proc.devRef .tc main_v28) = Cert.ReferenceIdeal.RefValue.dinvCol A1 :=
  (W8_of_ne m ρ c main_v28 (by decide)).trans (at_7_v28 m ρ c)

theorem at_8_v56 : W8 m ρ c (Proc.devRef .tc main_v56) = Cert.ReferenceIdeal.RefValue.feat1 A0 A1 A4 A5 A6 A7 A8 A9 :=
  (W8_arr m ρ c 0).trans (((dat3 (V7 m ρ) c).arrAt_in 0 rfl _).trans ((A_eq3 (V7 m ρ) c 0).trans (at_7_v56 m ρ c)))

theorem at_8_v59 : W8 m ρ c (Proc.devRef .tc main_v59) = Cert.ReferenceIdeal.RefValue.dense (Cert.ReferenceIdeal.RefValue.feat1 A0 A1 A4 A5 A6 A7 A8 A9) (Cert.ReferenceIdeal.RefValue.w2 A6) := by
  refine (W8_arr m ρ c 2).trans ((Cert.KernelIdeal.RegionValue.dense3 (V7 m ρ) c).trans ?_)
  rw [show V7 m ρ c main_v56 = _ from at_7_v56 m ρ c,
    show V7 m ρ c main_v58 = _ from at_7_v58 m ρ c]
  exact (Cert.ReferenceIdeal.RefValue.dense_eq _ _).symm

end Cert.KernelIdeal.Walk

end
-- ==== Proof.WalkC.lean ====
/-
  The same walk, continued: the second layer's gather / scatter-add and combine step (with the layer's input added
  back), then the third layer's dense product.
-/
import proofs.«102601_j59450937311581_1_alg».proof.Proof.WalkB
import Idealize.ShloMosaic.Lib.StableHlo.Run
import Idealize.ShloMosaic.PureOps.Ideal

set_option maxRecDepth 16384
set_option quotPrecheck false

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "A0" => (m ((c : Thread nD τ).loc main_arg0))
local notation "A1" => (m ((c : Thread nD τ).loc main_arg1))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))
local notation "A7" => (m ((c : Thread nD τ).loc main_arg7))
local notation "A8" => (m ((c : Thread nD τ).loc main_arg8))
local notation "A9" => (m ((c : Thread nD τ).loc main_arg9))

/-! ## Boundary 9 -/

theorem at_9_arg3 : W9 m ρ c (Proc.devRef .tc main_arg3) = A3 :=
  (show StableHlo.after hostOps4 (W8 m ρ c) (Proc.devRef .tc main_arg3) = W8 m ρ c (Proc.devRef .tc main_arg3) from by
    dsimp only [hostOps4]; after_results).trans (at_8_arg3 m ρ c)

theorem at_9_arg6 : W9 m ρ c (Proc.devRef .tc main_arg6) = A6 :=
  (show StableHlo.after hostOps4 (W8 m ρ c) (Proc.devRef .tc main_arg6) = W8 m ρ c (Proc.devRef .tc main_arg6) from by
    dsimp only [hostOps4]; after_results).trans (at_8_arg6 m ρ c)

theorem at_9_arg7 : W9 m ρ c (Proc.devRef .tc main_arg7) = A7 :=
  (show StableHlo.after hostOps4 (W8 m ρ c) (Proc.devRef .tc main_arg7) = W8 m ρ c (Proc.devRef .tc main_arg7) from by
    dsimp only [hostOps4]; after_results).trans (at_8_arg7 m ρ c)

theorem at_9_arg8 : W9 m ρ c (Proc.devRef .tc main_arg8) = A8 :=
  (show StableHlo.after hostOps4 (W8 m ρ c) (Proc.devRef .tc main_arg8) = W8 m ρ c (Proc.devRef .tc main_arg8) from by
    dsimp only [hostOps4]; after_results).trans (at_8_arg8 m ρ c)

theorem at_9_arg9 : W9 m ρ c (Proc.devRef .tc main_arg9) = A9 :=
  (show StableHlo.after hostOps4 (W8 m ρ c) (Proc.devRef .tc main_arg9) = W8 m ρ c (Proc.devRef .tc main_arg9) from by
    dsimp only [hostOps4]; after_results).trans (at_8_arg9 m ρ c)

theorem at_9_v1 : W9 m ρ c (Proc.devRef .tc main_v1) = Cert.ReferenceIdeal.RefValue.src A1 :=
  (show StableHlo.after hostOps4 (W8 m ρ c) (Proc.devRef .tc main_v1) = W8 m ρ c (Proc.devRef .tc main_v1) from by
    dsimp only [hostOps4]; after_results).trans (at_8_v1 m ρ c)

theorem at_9_v3 : W9 m ρ c (Proc.devRef .tc main_v3) = Cert.ReferenceIdeal.RefValue.dst A1 :=
  (show StableHlo.after hostOps4 (W8 m ρ c) (Proc.devRef .tc main_v3) = W8 m ρ c (Proc.devRef .tc main_v3) from by
    dsimp only [hostOps4]; after_results).trans (at_8_v3 m ρ c)

theorem at_9_v27 : W9 m ρ c (Proc.devRef .tc main_v27) = Cert.ReferenceIdeal.RefValue.enorm A1 :=
  (show StableHlo.after hostOps4 (W8 m ρ c) (Proc.devRef .tc main_v27) = W8 m ρ c (Proc.devRef .tc main_v27) from by
    dsimp only [hostOps4]; after_results).trans (at_8_v27 m ρ c)

theorem at_9_v28 : W9 m ρ c (Proc.devRef .tc main_v28) = Cert.ReferenceIdeal.RefValue.dinvCol A1 :=
  (show StableHlo.after hostOps4 (W8 m ρ c) (Proc.devRef .tc main_v28) = W8 m ρ c (Proc.devRef .tc main_v28) from by
    dsimp only [hostOps4]; after_results).trans (at_8_v28 m ρ c)

theorem at_9_v56 : W9 m ρ c (Proc.devRef .tc main_v56) = Cert.ReferenceIdeal.RefValue.feat1 A0 A1 A4 A5 A6 A7 A8 A9 :=
  (show StableHlo.after hostOps4 (W8 m ρ c) (Proc.devRef .tc main_v56) = W8 m ρ c (Proc.devRef .tc main_v56) from by
    dsimp only [hostOps4]; after_results).trans (at_8_v56 m ρ c)

theorem at_9_v59 : W9 m ρ c (Proc.devRef .tc main_v59) = Cert.ReferenceIdeal.RefValue.dense (Cert.ReferenceIdeal.RefValue.feat1 A0 A1 A4 A5 A6 A7 A8 A9) (Cert.ReferenceIdeal.RefValue.w2 A6) :=
  (show StableHlo.after hostOps4 (W8 m ρ c) (Proc.devRef .tc main_v59) = W8 m ρ c (Proc.devRef .tc main_v59) from by
    dsimp only [hostOps4]; after_results).trans (at_8_v59 m ρ c)

set_option maxHeartbeats 4000000 in
theorem at_9_v72 : W9 m ρ c (Proc.devRef .tc main_v72) = Cert.ReferenceIdeal.RefValue.agg A1 (Cert.ReferenceIdeal.RefValue.dense (Cert.ReferenceIdeal.RefValue.feat1 A0 A1 A4 A5 A6 A7 A8 A9) (Cert.ReferenceIdeal.RefValue.w2 A6)) := by
  show StableHlo.after hostOps4 (W8 m ρ c) (Proc.devRef .tc main_v72) = _
  dsimp only [hostOps4]
  after_results_simp
  rw [at_8_v3 m ρ c, at_8_v59 m ρ c, at_8_v1 m ρ c, at_8_v27 m ρ c]
  rfl

set_option maxHeartbeats 4000000 in
theorem at_9_v75 : W9 m ρ c (Proc.devRef .tc main_v75) = Cert.ReferenceIdeal.RefValue.par2 A7 := by
  show StableHlo.after hostOps4 (W8 m ρ c) (Proc.devRef .tc main_v75) = _
  dsimp only [hostOps4]
  after_results_simp
  rw [at_8_arg7 m ρ c]
  exact Cert.LibReshapeBcast.shapeCast_row_eq_broadcastInDim _ _ Cert.ReferenceIdeal.Gen.bcast_S128_S1x128_1

set_option maxHeartbeats 4000000 in
theorem at_9_v78 : W9 m ρ c (Proc.devRef .tc main_v78) = Cert.ReferenceIdeal.RefValue.par2 A8 := by
  show StableHlo.after hostOps4 (W8 m ρ c) (Proc.devRef .tc main_v78) = _
  dsimp only [hostOps4]
  after_results_simp
  rw [at_8_arg8 m ρ c]
  exact Cert.LibReshapeBcast.shapeCast_row_eq_broadcastInDim _ _ Cert.ReferenceIdeal.Gen.bcast_S128_S1x128_1

set_option maxHeartbeats 4000000 in
theorem at_9_v81 : W9 m ρ c (Proc.devRef .tc main_v81) = Cert.ReferenceIdeal.RefValue.par2 A9 := by
  show StableHlo.after hostOps4 (W8 m ρ c) (Proc.devRef .tc main_v81) = _
  dsimp only [hostOps4]
  after_results_simp
  rw [at_8_arg9 m ρ c]
  exact Cert.LibReshapeBcast.shapeCast_row_eq_broadcastInDim _ _ Cert.ReferenceIdeal.Gen.bcast_S128_S1x128_1

/-! ## Boundary 10 -/

theorem at_10_arg3 : W10 m ρ c (Proc.devRef .tc main_arg3) = A3 :=
  (W10_of_ne m ρ c main_arg3 (by decide)).trans (at_9_arg3 m ρ c)

theorem at_10_arg6 : W10 m ρ c (Proc.devRef .tc main_arg6) = A6 :=
  (W10_of_ne m ρ c main_arg6 (by decide)).trans (at_9_arg6 m ρ c)

theorem at_10_arg7 : W10 m ρ c (Proc.devRef .tc main_arg7) = A7 :=
  (W10_of_ne m ρ c main_arg7 (by decide)).trans (at_9_arg7 m ρ c)

theorem at_10_arg8 : W10 m ρ c (Proc.devRef .tc main_arg8) = A8 :=
  (W10_of_ne m ρ c main_arg8 (by decide)).trans (at_9_arg8 m ρ c)

theorem at_10_arg9 : W10 m ρ c (Proc.devRef .tc main_arg9) = A9 :=
  (W10_of_ne m ρ c main_arg9 (by decide)).trans (at_9_arg9 m ρ c)

theorem at_10_v1 : W10 m ρ c (Proc.devRef .tc main_v1) = Cert.ReferenceIdeal.RefValue.src A1 :=
  (W10_of_ne m ρ c main_v1 (by decide)).trans (at_9_v1 m ρ c)

theorem at_10_v3 : W10 m ρ c (Proc.devRef .tc main_v3) = Cert.ReferenceIdeal.RefValue.dst A1 :=
  (W10_of_ne m ρ c main_v3 (by decide)).trans (at_9_v3 m ρ c)

theorem at_10_v27 : W10 m ρ c (Proc.devRef .tc main_v27) = Cert.ReferenceIdeal.RefValue.enorm A1 :=
  (W10_of_ne m ρ c main_v27 (by decide)).trans (at_9_v27 m ρ c)

theorem at_10_v28 : W10 m ρ c (Proc.devRef .tc main_v28) = Cert.ReferenceIdeal.RefValue.dinvCol A1 :=
  (W10_arr m ρ c 2).trans (((dat4 (V9 m ρ) c).arrAt_in 2 rfl _).trans ((A_eq4 (V9 m ρ) c 2).trans (at_9_v28 m ρ c)))

theorem at_10_v82 : W10 m ρ c (Proc.devRef .tc main_v82) = Cert.ReferenceIdeal.RefValue.feat2 A0 A1 A4 A5 A6 A7 A8 A9 := by
  refine (W10_arr m ρ c 7).trans ((Cert.KernelIdeal.RegionValue.combine4 (V9 m ρ) c).trans ?_)
  rw [show V9 m ρ c main_v72 = _ from at_9_v72 m ρ c,
    show V9 m ρ c main_v59 = _ from at_9_v59 m ρ c,
    show V9 m ρ c main_v28 = _ from at_9_v28 m ρ c,
    show V9 m ρ c main_v75 = _ from at_9_v75 m ρ c,
    show V9 m ρ c main_v78 = _ from at_9_v78 m ρ c,
    show V9 m ρ c main_v81 = _ from at_9_v81 m ρ c,
    show V9 m ρ c main_v56 = _ from at_9_v56 m ρ c]
  exact (Cert.ReferenceIdeal.RefValue.layerNext_eq _ _ _ _ _ _).symm

/-! ## Boundary 11 -/

theorem at_11_arg3 : W11 m ρ c (Proc.devRef .tc main_arg3) = A3 :=
  (show StableHlo.after hostOps5 (W10 m ρ c) (Proc.devRef .tc main_arg3) = W10 m ρ c (Proc.devRef .tc main_arg3) from by
    dsimp only [hostOps5]; after_results).trans (at_10_arg3 m ρ c)

theorem at_11_arg7 : W11 m ρ c (Proc.devRef .tc main_arg7) = A7 :=
  (show StableHlo.after hostOps5 (W10 m ρ c) (Proc.devRef .tc main_arg7) = W10 m ρ c (Proc.devRef .tc main_arg7) from by
    dsimp only [hostOps5]; after_results).trans (at_10_arg7 m ρ c)

theorem at_11_arg8 : W11 m ρ c (Proc.devRef .tc main_arg8) = A8 :=
  (show StableHlo.after hostOps5 (W10 m ρ c) (Proc.devRef .tc main_arg8) = W10 m ρ c (Proc.devRef .tc main_arg8) from by
    dsimp only [hostOps5]; after_results).trans (at_10_arg8 m ρ c)

theorem at_11_arg9 : W11 m ρ c (Proc.devRef .tc main_arg9) = A9 :=
  (show StableHlo.after hostOps5 (W10 m ρ c) (Proc.devRef .tc main_arg9) = W10 m ρ c (Proc.devRef .tc main_arg9) from by
    dsimp only [hostOps5]; after_results).trans (at_10_arg9 m ρ c)

theorem at_11_v1 : W11 m ρ c (Proc.devRef .tc main_v1) = Cert.ReferenceIdeal.RefValue.src A1 :=
  (show StableHlo.after hostOps5 (W10 m ρ c) (Proc.devRef .tc main_v1) = W10 m ρ c (Proc.devRef .tc main_v1) from by
    dsimp only [hostOps5]; after_results).trans (at_10_v1 m ρ c)

theorem at_11_v3 : W11 m ρ c (Proc.devRef .tc main_v3) = Cert.ReferenceIdeal.RefValue.dst A1 :=
  (show StableHlo.after hostOps5 (W10 m ρ c) (Proc.devRef .tc main_v3) = W10 m ρ c (Proc.devRef .tc main_v3) from by
    dsimp only [hostOps5]; after_results).trans (at_10_v3 m ρ c)

theorem at_11_v27 : W11 m ρ c (Proc.devRef .tc main_v27) = Cert.ReferenceIdeal.RefValue.enorm A1 :=
  (show StableHlo.after hostOps5 (W10 m ρ c) (Proc.devRef .tc main_v27) = W10 m ρ c (Proc.devRef .tc main_v27) from by
    dsimp only [hostOps5]; after_results).trans (at_10_v27 m ρ c)

theorem at_11_v28 : W11 m ρ c (Proc.devRef .tc main_v28) = Cert.ReferenceIdeal.RefValue.dinvCol A1 :=
  (show StableHlo.after hostOps5 (W10 m ρ c) (Proc.devRef .tc main_v28) = W10 m ρ c (Proc.devRef .tc main_v28) from by
    dsimp only [hostOps5]; after_results).trans (at_10_v28 m ρ c)

theorem at_11_v82 : W11 m ρ c (Proc.devRef .tc main_v82) = Cert.ReferenceIdeal.RefValue.feat2 A0 A1 A4 A5 A6 A7 A8 A9 :=
  (show StableHlo.after hostOps5 (W10 m ρ c) (Proc.devRef .tc main_v82) = W10 m ρ c (Proc.devRef .tc main_v82) from by
    dsimp only [hostOps5]; after_results).trans (at_10_v82 m ρ c)

set_option maxHeartbeats 4000000 in
theorem at_11_v84 : W11 m ρ c (Proc.devRef .tc main_v84) = Cert.ReferenceIdeal.RefValue.w3 A6 := by
  show StableHlo.after hostOps5 (W10 m ρ c) (Proc.devRef .tc main_v84) = _
  dsimp only [hostOps5]
  after_results_simp
  rw [at_10_arg6 m ρ c]
  rfl

/-! ## Boundary 12 -/

theorem at_12_arg3 : W12 m ρ c (Proc.devRef .tc main_arg3) = A3 :=
  (W12_of_ne m ρ c main_arg3 (by decide)).trans (at_11_arg3 m ρ c)

theorem at_12_arg7 : W12 m ρ c (Proc.devRef .tc main_arg7) = A7 :=
  (W12_of_ne m ρ c main_arg7 (by decide)).trans (at_11_arg7 m ρ c)

theorem at_12_arg8 : W12 m ρ c (Proc.devRef .tc main_arg8) = A8 :=
  (W12_of_ne m ρ c main_arg8 (by decide)).trans (at_11_arg8 m ρ c)

theorem at_12_arg9 : W12 m ρ c (Proc.devRef .tc main_arg9) = A9 :=
  (W12_of_ne m ρ c main_arg9 (by decide)).trans (at_11_arg9 m ρ c)

theorem at_12_v1 : W12 m ρ c (Proc.devRef .tc main_v1) = Cert.ReferenceIdeal.RefValue.src A1 :=
  (W12_of_ne m ρ c main_v1 (by decide)).trans (at_11_v1 m ρ c)

theorem at_12_v3 : W12 m ρ c (Proc.devRef .tc main_v3) = Cert.ReferenceIdeal.RefValue.dst A1 :=
  (W12_of_ne m ρ c main_v3 (by decide)).trans (at_11_v3 m ρ c)

theorem at_12_v27 : W12 m ρ c (Proc.devRef .tc main_v27) = Cert.ReferenceIdeal.RefValue.enorm A1 :=
  (W12_of_ne m ρ c main_v27 (by decide)).trans (at_11_v27 m ρ c)

theorem at_12_v28 : W12 m ρ c (Proc.devRef .tc main_v28) = Cert.ReferenceIdeal.RefValue.dinvCol A1 :=
  (W12_of_ne m ρ c main_v28 (by decide)).trans (at_11_v28 m ρ c)

theorem at_12_v82 : W12 m ρ c (Proc.devRef .tc main_v82) = Cert.ReferenceIdeal.RefValue.feat2 A0 A1 A4 A5 A6 A7 A8 A9 :=
  (W12_arr m ρ c 0).trans (((dat5 (V11 m ρ) c).arrAt_in 0 rfl _).trans ((A_eq5 (V11 m ρ) c 0).trans (at_11_v82 m ρ c)))

theorem at_12_v85 : W12 m ρ c (Proc.devRef .tc main_v85) = Cert.ReferenceIdeal.RefValue.dense (Cert.ReferenceIdeal.RefValue.feat2 A0 A1 A4 A5 A6 A7 A8 A9) (Cert.ReferenceIdeal.RefValue.w3 A6) := by
  refine (W12_arr m ρ c 2).trans ((Cert.KernelIdeal.RegionValue.dense5 (V11 m ρ) c).trans ?_)
  rw [show V11 m ρ c main_v82 = _ from at_11_v82 m ρ c,
    show V11 m ρ c main_v84 = _ from at_11_v84 m ρ c]
  exact (Cert.ReferenceIdeal.RefValue.dense_eq _ _).symm

end Cert.KernelIdeal.Walk

end
-- ==== Proof.WalkD.lean ====
/-
  The same walk, finished: the third layer's gather / scatter-add and combine step, and the per-graph mean pool of the
  final node features.  The last two lemmas are the program's two results.
-/
import proofs.«102601_j59450937311581_1_alg».proof.Proof.WalkC
import Idealize.ShloMosaic.Lib.StableHlo.Run
import Idealize.ShloMosaic.PureOps.Ideal

set_option maxRecDepth 16384
set_option quotPrecheck false

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "A0" => (m ((c : Thread nD τ).loc main_arg0))
local notation "A1" => (m ((c : Thread nD τ).loc main_arg1))
local notation "A3" => (m ((c : Thread nD τ).loc main_arg3))
local notation "A4" => (m ((c : Thread nD τ).loc main_arg4))
local notation "A5" => (m ((c : Thread nD τ).loc main_arg5))
local notation "A6" => (m ((c : Thread nD τ).loc main_arg6))
local notation "A7" => (m ((c : Thread nD τ).loc main_arg7))
local notation "A8" => (m ((c : Thread nD τ).loc main_arg8))
local notation "A9" => (m ((c : Thread nD τ).loc main_arg9))

/-! ## Boundary 13 -/

theorem at_13_arg3 : W13 m ρ c (Proc.devRef .tc main_arg3) = A3 :=
  (show StableHlo.after hostOps6 (W12 m ρ c) (Proc.devRef .tc main_arg3) = W12 m ρ c (Proc.devRef .tc main_arg3) from by
    dsimp only [hostOps6]; after_results).trans (at_12_arg3 m ρ c)

theorem at_13_v28 : W13 m ρ c (Proc.devRef .tc main_v28) = Cert.ReferenceIdeal.RefValue.dinvCol A1 :=
  (show StableHlo.after hostOps6 (W12 m ρ c) (Proc.devRef .tc main_v28) = W12 m ρ c (Proc.devRef .tc main_v28) from by
    dsimp only [hostOps6]; after_results).trans (at_12_v28 m ρ c)

theorem at_13_v82 : W13 m ρ c (Proc.devRef .tc main_v82) = Cert.ReferenceIdeal.RefValue.feat2 A0 A1 A4 A5 A6 A7 A8 A9 :=
  (show StableHlo.after hostOps6 (W12 m ρ c) (Proc.devRef .tc main_v82) = W12 m ρ c (Proc.devRef .tc main_v82) from by
    dsimp only [hostOps6]; after_results).trans (at_12_v82 m ρ c)

theorem at_13_v85 : W13 m ρ c (Proc.devRef .tc main_v85) = Cert.ReferenceIdeal.RefValue.dense (Cert.ReferenceIdeal.RefValue.feat2 A0 A1 A4 A5 A6 A7 A8 A9) (Cert.ReferenceIdeal.RefValue.w3 A6) :=
  (show StableHlo.after hostOps6 (W12 m ρ c) (Proc.devRef .tc main_v85) = W12 m ρ c (Proc.devRef .tc main_v85) from by
    dsimp only [hostOps6]; after_results).trans (at_12_v85 m ρ c)

set_option maxHeartbeats 4000000 in
theorem at_13_v98 : W13 m ρ c (Proc.devRef .tc main_v98) = Cert.ReferenceIdeal.RefValue.agg A1 (Cert.ReferenceIdeal.RefValue.dense (Cert.ReferenceIdeal.RefValue.feat2 A0 A1 A4 A5 A6 A7 A8 A9) (Cert.ReferenceIdeal.RefValue.w3 A6)) := by
  show StableHlo.after hostOps6 (W12 m ρ c) (Proc.devRef .tc main_v98) = _
  dsimp only [hostOps6]
  after_results_simp
  rw [at_12_v3 m ρ c, at_12_v85 m ρ c, at_12_v1 m ρ c, at_12_v27 m ρ c]
  rfl

set_option maxHeartbeats 4000000 in
theorem at_13_v101 : W13 m ρ c (Proc.devRef .tc main_v101) = Cert.ReferenceIdeal.RefValue.par3 A7 := by
  show StableHlo.after hostOps6 (W12 m ρ c) (Proc.devRef .tc main_v101) = _
  dsimp only [hostOps6]
  after_results_simp
  rw [at_12_arg7 m ρ c]
  exact Cert.LibReshapeBcast.shapeCast_row_eq_broadcastInDim _ _ Cert.ReferenceIdeal.Gen.bcast_S128_S1x128_1

set_option maxHeartbeats 4000000 in
theorem at_13_v104 : W13 m ρ c (Proc.devRef .tc main_v104) = Cert.ReferenceIdeal.RefValue.par3 A8 := by
  show StableHlo.after hostOps6 (W12 m ρ c) (Proc.devRef .tc main_v104) = _
  dsimp only [hostOps6]
  after_results_simp
  rw [at_12_arg8 m ρ c]
  exact Cert.LibReshapeBcast.shapeCast_row_eq_broadcastInDim _ _ Cert.ReferenceIdeal.Gen.bcast_S128_S1x128_1

set_option maxHeartbeats 4000000 in
theorem at_13_v107 : W13 m ρ c (Proc.devRef .tc main_v107) = Cert.ReferenceIdeal.RefValue.par3 A9 := by
  show StableHlo.after hostOps6 (W12 m ρ c) (Proc.devRef .tc main_v107) = _
  dsimp only [hostOps6]
  after_results_simp
  rw [at_12_arg9 m ρ c]
  exact Cert.LibReshapeBcast.shapeCast_row_eq_broadcastInDim _ _ Cert.ReferenceIdeal.Gen.bcast_S128_S1x128_1

/-! ## Boundary 14 -/

theorem at_14_arg3 : W14 m ρ c (Proc.devRef .tc main_arg3) = A3 :=
  (W14_of_ne m ρ c main_arg3 (by decide)).trans (at_13_arg3 m ρ c)

theorem at_14_v108 : W14 m ρ c (Proc.devRef .tc main_v108) = Cert.ReferenceIdeal.RefValue.feat3 A0 A1 A4 A5 A6 A7 A8 A9 := by
  refine (W14_arr m ρ c 7).trans ((Cert.KernelIdeal.RegionValue.combine6 (V13 m ρ) c).trans ?_)
  rw [show V13 m ρ c main_v98 = _ from at_13_v98 m ρ c,
    show V13 m ρ c main_v85 = _ from at_13_v85 m ρ c,
    show V13 m ρ c main_v28 = _ from at_13_v28 m ρ c,
    show V13 m ρ c main_v101 = _ from at_13_v101 m ρ c,
    show V13 m ρ c main_v104 = _ from at_13_v104 m ρ c,
    show V13 m ρ c main_v107 = _ from at_13_v107 m ρ c,
    show V13 m ρ c main_v82 = _ from at_13_v82 m ρ c]
  exact (Cert.ReferenceIdeal.RefValue.layerNext_eq _ _ _ _ _ _).symm

/-! ## Boundary 15 -/

theorem at_15_v108 : W15 m ρ c (Proc.devRef .tc main_v108) = Cert.ReferenceIdeal.RefValue.feat3 A0 A1 A4 A5 A6 A7 A8 A9 :=
  (show StableHlo.after hostOps7 (W14 m ρ c) (Proc.devRef .tc main_v108) = W14 m ρ c (Proc.devRef .tc main_v108) from by
    dsimp only [hostOps7]; after_results).trans (at_14_v108 m ρ c)

set_option maxHeartbeats 4000000 in
theorem at_15_v120 : W15 m ρ c (Proc.devRef .tc main_v120) = Cert.ReferenceIdeal.RefValue.pool A3 (Cert.ReferenceIdeal.RefValue.feat3 A0 A1 A4 A5 A6 A7 A8 A9) := by
  show StableHlo.after hostOps7 (W14 m ρ c) (Proc.devRef .tc main_v120) = _
  dsimp only [hostOps7]
  after_results_simp
  rw [at_14_arg3 m ρ c, at_14_v108 m ρ c]
  rfl

end Cert.KernelIdeal.Walk

end
-- ==== Proof.RefRun.lean ====
/-
  The reference program's run, read in fifteen stretches.

  The program is a straight line of 250 host operations: the graph's normalisation weights, an input projection, three
  message-passing layers (a dense product, an aggregation along the edges, a combine step) and a pooling over graphs.
  The line is cut at the arrays the layers hand to each other; the buffers' contents after each stretch are named, each
  as the fold of that stretch's operations over the contents before it, and the run ends with every buffer at the last
  of them.  No closed term of a result is formed here.
-/
import proofs.«102601_j59450937311581_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The two lists of edge endpoints, the node degrees plus one, their inverse square roots and their reciprocals, and the
    per-edge weight (the product of the two endpoints' inverse square roots). (36 operations.) -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v11 main_v9 main_v12 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v10 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_4 (constantI S_ 32 0#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v10 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v19 main_v26 main_v27 (mulf : (⟨S1600000, .f32⟩ : BufTy).Contents (Elt F) → (⟨S1600000, .f32⟩ : BufTy).Contents (Elt F) → (⟨S1600000, .f32⟩ : BufTy).Contents (Elt F)) ]

/-- The input projection: the dense layer and its bias row. (4 operations.) -/
abbrev ops1 : List (HloOp τ sig (Elt F)) :=
  [ binary main_arg0 main_arg4 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)) ]

/-- The first layer's weight matrix, sliced out of the stacked weights. (2 operations.) -/
abbrev ops2 : List (HloOp τ sig (Elt F)) :=
  [ unary main_arg6 main_v32 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v32 main_v33 rfl shapeCasts_S1x128x128_S128x128 ]

/-- The first layer's dense product. (1 operation.) -/
abbrev ops3 : List (HloOp τ sig (Elt F)) :=
  [ binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The first layer's aggregation: gather along the edges, scale by the edge weight, scatter-add to the nodes. (16 operations.) -/
abbrev ops4 : List (HloOp τ sig (Elt F)) :=
  [ nullary main_c_6 (constantI S_ 32 0#32),
    unary main_c_6 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v42 (broadcastInDim S1600000x1 ![0] bcast_S1600000_S1600000x1_0 : (⟨S1600000, .f32⟩ : BufTy).Contents (Elt F) → (⟨S1600000x1, .f32⟩ : BufTy).Contents (Elt F)),
    unary main_v42 main_v43 (broadcastInDim S1600000x128 ![0, 1] bcast_S1600000x1_S1600000x128_0_1 : (⟨S1600000x1, .f32⟩ : BufTy).Contents (Elt F) → (⟨S1600000x128, .f32⟩ : BufTy).Contents (Elt F)),
    binary main_v41 main_v43 main_v44 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The first layer's combine step: self term, bias, row normalisation, gain and shift, clamp at zero. (45 operations.) -/
abbrev ops5 : List (HloOp τ sig (Elt F)) :=
  [ unary main_v12 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v34 main_v49 main_v50 (mulf : (⟨S100000x128, .f32⟩ : BufTy).Contents (Elt F) → (⟨S100000x128, .f32⟩ : BufTy).Contents (Elt F) → (⟨S100000x128, .f32⟩ : BufTy).Contents (Elt F)),
    binary main_v47 main_v50 main_v51 (addf : (⟨S100000x128, .f32⟩ : BufTy).Contents (Elt F) → (⟨S100000x128, .f32⟩ : BufTy).Contents (Elt F) → (⟨S100000x128, .f32⟩ : BufTy).Contents (Elt F)),
    unary main_arg7 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v51 main_v55 main_v56 (addf : (⟨S100000x128, .f32⟩ : BufTy).Contents (Elt F) → (⟨S100000x128, .f32⟩ : BufTy).Contents (Elt F) → (⟨S100000x128, .f32⟩ : BufTy).Contents (Elt F)),
    unary main_arg8 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_arg9 main_v59 ((extractStridedSlice S1x128 ![0, 0] · slices_S3x128_S1x128_0_0) : (⟨S3x128, .f32⟩ : BufTy).Contents (Elt F) → (⟨S1x128, .f32⟩ : BufTy).Contents (Elt F)),
    reshape main_v59 main_v60 rfl shapeCasts_S1x128_S128,
    nullary main_cst_9 (constant S_ .f32 0x00000000#32),
    binary main_v56 main_cst_9 main_v61 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v61 main_v62 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v63 (broadcastInDim S100000x1 ![] bcast_S_S100000x1 : (⟨S_, .f32⟩ : BufTy).Contents (Elt F) → (⟨S100000x1, .f32⟩ : BufTy).Contents (Elt F)),
    binary main_v62 main_v63 main_v64 (Host.divf : (⟨S100000x1, .f32⟩ : BufTy).Contents (Elt F) → (⟨S100000x1, .f32⟩ : BufTy).Contents (Elt F) → (⟨S100000x1, .f32⟩ : BufTy).Contents (Elt F)),
    unary main_v64 main_v65 (broadcastInDim S100000x128 ![0, 1] bcast_S100000x1_S100000x128_0_1 : (⟨S100000x1, .f32⟩ : BufTy).Contents (Elt F) → (⟨S100000x128, .f32⟩ : BufTy).Contents (Elt F)),
    binary main_v56 main_v65 main_v66 (subf : (⟨S100000x128, .f32⟩ : BufTy).Contents (Elt F) → (⟨S100000x128, .f32⟩ : BufTy).Contents (Elt F) → (⟨S100000x128, .f32⟩ : BufTy).Contents (Elt F)),
    binary main_v66 main_v66 main_v67 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v67 main_cst_11 main_v68 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v68 main_v69 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v70 (broadcastInDim S100000x1 ![] bcast_S_S100000x1 : (⟨S_, .f32⟩ : BufTy).Contents (Elt F) → (⟨S100000x1, .f32⟩ : BufTy).Contents (Elt F)),
    binary main_v69 main_v70 main_v71 (Host.divf : (⟨S100000x1, .f32⟩ : BufTy).Contents (Elt F) → (⟨S100000x1, .f32⟩ : BufTy).Contents (Elt F) → (⟨S100000x1, .f32⟩ : BufTy).Contents (Elt F)),
    unary main_v64 main_v72 (broadcastInDim S100000x128 ![0, 1] bcast_S100000x1_S100000x128_0_1 : (⟨S100000x1, .f32⟩ : BufTy).Contents (Elt F) → (⟨S100000x128, .f32⟩ : BufTy).Contents (Elt F)),
    binary main_v56 main_v72 main_v73 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v74 (broadcastInDim S100000x1 ![] bcast_S_S100000x1 : (⟨S_, .f32⟩ : BufTy).Contents (Elt F) → (⟨S100000x1, .f32⟩ : BufTy).Contents (Elt F)),
    binary main_v71 main_v74 main_v75 (addf : (⟨S100000x1, .f32⟩ : BufTy).Contents (Elt F) → (⟨S100000x1, .f32⟩ : BufTy).Contents (Elt F) → (⟨S100000x1, .f32⟩ : BufTy).Contents (Elt F)),
    unary main_v75 main_v76 (Host.rsqrt : (⟨S100000x1, .f32⟩ : BufTy).Contents (Elt F) → (⟨S100000x1, .f32⟩ : BufTy).Contents (Elt F)),
    unary main_v76 main_v77 (broadcastInDim S100000x128 ![0, 1] bcast_S100000x1_S100000x128_0_1 : (⟨S100000x1, .f32⟩ : BufTy).Contents (Elt F) → (⟨S100000x128, .f32⟩ : BufTy).Contents (Elt F)),
    binary main_v73 main_v77 main_v78 (mulf : (⟨S100000x128, .f32⟩ : BufTy).Contents (Elt F) → (⟨S100000x128, .f32⟩ : BufTy).Contents (Elt F) → (⟨S100000x128, .f32⟩ : BufTy).Contents (Elt F)),
    unary main_v58 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (mulf : (⟨S100000x128, .f32⟩ : BufTy).Contents (Elt F) → (⟨S100000x128, .f32⟩ : BufTy).Contents (Elt F) → (⟨S100000x128, .f32⟩ : BufTy).Contents (Elt F)),
    unary main_v60 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v84) (TRef.of (T := ⟨S100000x128, .f32⟩) main_call0_v0) (TRef.of (T := ⟨S100000x128, .f32⟩) main_v85) maximumf ]

/-- The second layer's weight matrix. (2 operations.) -/
abbrev ops6 : List (HloOp τ sig (Elt F)) :=
  [ unary main_arg6 main_v86 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v86 main_v87 rfl shapeCasts_S1x128x128_S128x128 ]

/-- The second layer's dense product. (1 operation.) -/
abbrev ops7 : List (HloOp τ sig (Elt F)) :=
  [ binary main_v85 main_v87 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second layer's aggregation. (16 operations.) -/
abbrev ops8 : List (HloOp τ sig (Elt F)) :=
  [ nullary main_c_14 (constantI S_ 32 0#32),
    unary main_c_14 main_v89 (broadcastInDim S1600000 ![] bcast_S_S1600000 : (⟨S_, .i32⟩ : BufTy).Contents (Elt F) → (⟨S1600000, .i32⟩ : BufTy).Contents (Elt F)),
    binary main_v1 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v91 (broadcastInDim S1600000 ![] bcast_S_S1600000 : (⟨S_, .i32⟩ : BufTy).Contents (Elt F) → (⟨S1600000, .i32⟩ : BufTy).Contents (Elt F)),
    binary main_v1 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v88 main_v94 main_v95 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v96 (broadcastInDim S1600000x1 ![0] bcast_S1600000_S1600000x1_0 : (⟨S1600000, .f32⟩ : BufTy).Contents (Elt F) → (⟨S1600000x1, .f32⟩ : BufTy).Contents (Elt F)),
    unary main_v96 main_v97 (broadcastInDim S1600000x128 ![0, 1] bcast_S1600000x1_S1600000x128_0_1 : (⟨S1600000x1, .f32⟩ : BufTy).Contents (Elt F) → (⟨S1600000x128, .f32⟩ : BufTy).Contents (Elt F)),
    binary main_v95 main_v97 main_v98 (mulf : (⟨S1600000x128, .f32⟩ : BufTy).Contents (Elt F) → (⟨S1600000x128, .f32⟩ : BufTy).Contents (Elt F) → (⟨S1600000x128, .f32⟩ : BufTy).Contents (Elt F)),
    nullary main_cst_16 (constant S_ .f32 0x00000000#32),
    unary main_cst_16 main_v99 (broadcastInDim S100000x128 ![] bcast_S_S100000x128 : (⟨S_, .f32⟩ : BufTy).Contents (Elt F) → (⟨S100000x128, .f32⟩ : BufTy).Contents (Elt F)),
    unary main_v3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The second layer's combine step, with the layer's input added back. (46 operations.) -/
abbrev ops9 : List (HloOp τ sig (Elt F)) :=
  [ unary main_v12 main_v102 (broadcastInDim S100000x1 ![0] bcast_S100000_S100000x1_0 : (⟨S100000, .f32⟩ : BufTy).Contents (Elt F) → (⟨S100000x1, .f32⟩ : BufTy).Contents (Elt F)),
    unary main_v102 main_v103 (broadcastInDim S100000x128 ![0, 1] bcast_S100000x1_S100000x128_0_1 : (⟨S100000x1, .f32⟩ : BufTy).Contents (Elt F) → (⟨S100000x128, .f32⟩ : BufTy).Contents (Elt F)),
    binary main_v88 main_v103 main_v104 (mulf : (⟨S100000x128, .f32⟩ : BufTy).Contents (Elt F) → (⟨S100000x128, .f32⟩ : BufTy).Contents (Elt F) → (⟨S100000x128, .f32⟩ : BufTy).Contents (Elt F)),
    binary main_v101 main_v104 main_v105 (addf : (⟨S100000x128, .f32⟩ : BufTy).Contents (Elt F) → (⟨S100000x128, .f32⟩ : BufTy).Contents (Elt F) → (⟨S100000x128, .f32⟩ : BufTy).Contents (Elt F)),
    unary main_arg7 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v105 main_v109 main_v110 (addf : (⟨S100000x128, .f32⟩ : BufTy).Contents (Elt F) → (⟨S100000x128, .f32⟩ : BufTy).Contents (Elt F) → (⟨S100000x128, .f32⟩ : BufTy).Contents (Elt F)),
    unary main_arg8 main_v111 ((extractStridedSlice S1x128 ![1, 0] · slices_S3x128_S1x128_1_0) : (⟨S3x128, .f32⟩ : BufTy).Contents (Elt F) → (⟨S1x128, .f32⟩ : BufTy).Contents (Elt F)),
    reshape main_v111 main_v112 rfl shapeCasts_S1x128_S128,
    unary main_arg9 main_v113 ((extractStridedSlice S1x128 ![1, 0] · slices_S3x128_S1x128_1_0) : (⟨S3x128, .f32⟩ : BufTy).Contents (Elt F) → (⟨S1x128, .f32⟩ : BufTy).Contents (Elt F)),
    reshape main_v113 main_v114 rfl shapeCasts_S1x128_S128,
    nullary main_cst_17 (constant S_ .f32 0x00000000#32),
    binary main_v110 main_cst_17 main_v115 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v115 main_v116 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v117 (broadcastInDim S100000x1 ![] bcast_S_S100000x1 : (⟨S_, .f32⟩ : BufTy).Contents (Elt F) → (⟨S100000x1, .f32⟩ : BufTy).Contents (Elt F)),
    binary main_v116 main_v117 main_v118 (Host.divf : (⟨S100000x1, .f32⟩ : BufTy).Contents (Elt F) → (⟨S100000x1, .f32⟩ : BufTy).Contents (Elt F) → (⟨S100000x1, .f32⟩ : BufTy).Contents (Elt F)),
    unary main_v118 main_v119 (broadcastInDim S100000x128 ![0, 1] bcast_S100000x1_S100000x128_0_1 : (⟨S100000x1, .f32⟩ : BufTy).Contents (Elt F) → (⟨S100000x128, .f32⟩ : BufTy).Contents (Elt F)),
    binary main_v110 main_v119 main_v120 (subf : (⟨S100000x128, .f32⟩ : BufTy).Contents (Elt F) → (⟨S100000x128, .f32⟩ : BufTy).Contents (Elt F) → (⟨S100000x128, .f32⟩ : BufTy).Contents (Elt F)),
    binary main_v120 main_v120 main_v121 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v121 main_cst_19 main_v122 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    nullary main_cst_20 (constant S_ .f32 0x43000000#32),
    unary main_cst_20 main_v124 (broadcastInDim S100000x1 ![] bcast_S_S100000x1 : (⟨S_, .f32⟩ : BufTy).Contents (Elt F) → (⟨S100000x1, .f32⟩ : BufTy).Contents (Elt F)),
    binary main_v123 main_v124 main_v125 (Host.divf : (⟨S100000x1, .f32⟩ : BufTy).Contents (Elt F) → (⟨S100000x1, .f32⟩ : BufTy).Contents (Elt F) → (⟨S100000x1, .f32⟩ : BufTy).Contents (Elt F)),
    unary main_v118 main_v126 (broadcastInDim S100000x128 ![0, 1] bcast_S100000x1_S100000x128_0_1 : (⟨S100000x1, .f32⟩ : BufTy).Contents (Elt F) → (⟨S100000x128, .f32⟩ : BufTy).Contents (Elt F)),
    binary main_v110 main_v126 main_v127 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v128 (broadcastInDim S100000x1 ![] bcast_S_S100000x1 : (⟨S_, .f32⟩ : BufTy).Contents (Elt F) → (⟨S100000x1, .f32⟩ : BufTy).Contents (Elt F)),
    binary main_v125 main_v128 main_v129 (addf : (⟨S100000x1, .f32⟩ : BufTy).Contents (Elt F) → (⟨S100000x1, .f32⟩ : BufTy).Contents (Elt F) → (⟨S100000x1, .f32⟩ : BufTy).Contents (Elt F)),
    unary main_v129 main_v130 (Host.rsqrt : (⟨S100000x1, .f32⟩ : BufTy).Contents (Elt F) → (⟨S100000x1, .f32⟩ : BufTy).Contents (Elt F)),
    unary main_v130 main_v131 (broadcastInDim S100000x128 ![0, 1] bcast_S100000x1_S100000x128_0_1 : (⟨S100000x1, .f32⟩ : BufTy).Contents (Elt F) → (⟨S100000x128, .f32⟩ : BufTy).Contents (Elt F)),
    binary main_v127 main_v131 main_v132 (mulf : (⟨S100000x128, .f32⟩ : BufTy).Contents (Elt F) → (⟨S100000x128, .f32⟩ : BufTy).Contents (Elt F) → (⟨S100000x128, .f32⟩ : BufTy).Contents (Elt F)),
    unary main_v112 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v132 main_v134 main_v135 (mulf : (⟨S100000x128, .f32⟩ : BufTy).Contents (Elt F) → (⟨S100000x128, .f32⟩ : BufTy).Contents (Elt F) → (⟨S100000x128, .f32⟩ : BufTy).Contents (Elt F)),
    unary main_v114 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v135 main_v137 main_v138 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v138) (TRef.of (T := ⟨S100000x128, .f32⟩) main_call1_v0) (TRef.of (T := ⟨S100000x128, .f32⟩) main_v139) maximumf,
    binary main_v139 main_v85 main_v140 (addf : (⟨S100000x128, .f32⟩ : BufTy).Contents (Elt F) → (⟨S100000x128, .f32⟩ : BufTy).Contents (Elt F) → (⟨S100000x128, .f32⟩ : BufTy).Contents (Elt F)) ]

/-- The third layer's weight matrix. (2 operations.) -/
abbrev ops10 : List (HloOp τ sig (Elt F)) :=
  [ unary main_arg6 main_v141 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v141 main_v142 rfl shapeCasts_S1x128x128_S128x128 ]

/-- The third layer's dense product. (1 operation.) -/
abbrev ops11 : List (HloOp τ sig (Elt F)) :=
  [ binary main_v140 main_v142 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The third layer's aggregation. (16 operations.) -/
abbrev ops12 : List (HloOp τ sig (Elt F)) :=
  [ nullary main_c_22 (constantI S_ 32 0#32),
    unary main_c_22 main_v144 (broadcastInDim S1600000 ![] bcast_S_S1600000 : (⟨S_, .i32⟩ : BufTy).Contents (Elt F) → (⟨S1600000, .i32⟩ : BufTy).Contents (Elt F)),
    binary main_v1 main_v144 main_v145 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v146 (broadcastInDim S1600000 ![] bcast_S_S1600000 : (⟨S_, .i32⟩ : BufTy).Contents (Elt F) → (⟨S1600000, .i32⟩ : BufTy).Contents (Elt F)),
    binary main_v1 main_v146 main_v147 (addi : (⟨S1600000, .i32⟩ : BufTy).Contents (Elt F) → (⟨S1600000, .i32⟩ : BufTy).Contents (Elt F) → (⟨S1600000, .i32⟩ : BufTy).Contents (Elt F)),
    ternary main_v145 main_v147 main_v1 main_v148 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v148 main_v149 (broadcastInDim S1600000x1 ![0] bcast_S1600000_S1600000x1_0 : (⟨S1600000, .i32⟩ : BufTy).Contents (Elt F) → (⟨S1600000x1, .i32⟩ : BufTy).Contents (Elt F)),
    binary main_v143 main_v149 main_v150 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v151 (broadcastInDim S1600000x1 ![0] bcast_S1600000_S1600000x1_0 : (⟨S1600000, .f32⟩ : BufTy).Contents (Elt F) → (⟨S1600000x1, .f32⟩ : BufTy).Contents (Elt F)),
    unary main_v151 main_v152 (broadcastInDim S1600000x128 ![0, 1] bcast_S1600000x1_S1600000x128_0_1 : (⟨S1600000x1, .f32⟩ : BufTy).Contents (Elt F) → (⟨S1600000x128, .f32⟩ : BufTy).Contents (Elt F)),
    binary main_v150 main_v152 main_v153 (mulf : (⟨S1600000x128, .f32⟩ : BufTy).Contents (Elt F) → (⟨S1600000x128, .f32⟩ : BufTy).Contents (Elt F) → (⟨S1600000x128, .f32⟩ : BufTy).Contents (Elt F)),
    nullary main_cst_24 (constant S_ .f32 0x00000000#32),
    unary main_cst_24 main_v154 (broadcastInDim S100000x128 ![] bcast_S_S100000x128 : (⟨S_, .f32⟩ : BufTy).Contents (Elt F) → (⟨S100000x128, .f32⟩ : BufTy).Contents (Elt F)),
    unary main_v3 main_v155 (broadcastInDim S1600000x1 ![0] bcast_S1600000_S1600000x1_0 : (⟨S1600000, .i32⟩ : BufTy).Contents (Elt F) → (⟨S1600000x1, .i32⟩ : BufTy).Contents (Elt F)),
    ternary main_v154 main_v155 main_v153 main_v156 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The third layer's combine step, with the layer's input added back. (46 operations.) -/
abbrev ops13 : List (HloOp τ sig (Elt F)) :=
  [ unary main_v12 main_v157 (broadcastInDim S100000x1 ![0] bcast_S100000_S100000x1_0 : (⟨S100000, .f32⟩ : BufTy).Contents (Elt F) → (⟨S100000x1, .f32⟩ : BufTy).Contents (Elt F)),
    unary main_v157 main_v158 (broadcastInDim S100000x128 ![0, 1] bcast_S100000x1_S100000x128_0_1 : (⟨S100000x1, .f32⟩ : BufTy).Contents (Elt F) → (⟨S100000x128, .f32⟩ : BufTy).Contents (Elt F)),
    binary main_v143 main_v158 main_v159 (mulf : (⟨S100000x128, .f32⟩ : BufTy).Contents (Elt F) → (⟨S100000x128, .f32⟩ : BufTy).Contents (Elt F) → (⟨S100000x128, .f32⟩ : BufTy).Contents (Elt F)),
    binary main_v156 main_v159 main_v160 (addf : (⟨S100000x128, .f32⟩ : BufTy).Contents (Elt F) → (⟨S100000x128, .f32⟩ : BufTy).Contents (Elt F) → (⟨S100000x128, .f32⟩ : BufTy).Contents (Elt F)),
    unary main_arg7 main_v161 ((extractStridedSlice S1x128 ![2, 0] · slices_S3x128_S1x128_2_0) : (⟨S3x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)),
    unary main_arg8 main_v166 ((extractStridedSlice S1x128 ![2, 0] · slices_S3x128_S1x128_2_0) : (⟨S3x128, .f32⟩ : BufTy).Contents (Elt F) → (⟨S1x128, .f32⟩ : BufTy).Contents (Elt F)),
    reshape main_v166 main_v167 rfl shapeCasts_S1x128_S128,
    unary main_arg9 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    nullary main_cst_25 (constant S_ .f32 0x00000000#32),
    binary main_v165 main_cst_25 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v170 main_v171 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v172 (broadcastInDim S100000x1 ![] bcast_S_S100000x1 : (⟨S_, .f32⟩ : BufTy).Contents (Elt F) → (⟨S100000x1, .f32⟩ : BufTy).Contents (Elt F)),
    binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    unary main_v173 main_v174 (broadcastInDim S100000x128 ![0, 1] bcast_S100000x1_S100000x128_0_1 : (⟨S100000x1, .f32⟩ : BufTy).Contents (Elt F) → (⟨S100000x128, .f32⟩ : BufTy).Contents (Elt F)),
    binary main_v165 main_v174 main_v175 (subf : (⟨S100000x128, .f32⟩ : BufTy).Contents (Elt F) → (⟨S100000x128, .f32⟩ : BufTy).Contents (Elt F) → (⟨S100000x128, .f32⟩ : BufTy).Contents (Elt F)),
    binary main_v175 main_v175 main_v176 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v176 main_cst_27 main_v177 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v177 main_v178 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v179 (broadcastInDim S100000x1 ![] bcast_S_S100000x1 : (⟨S_, .f32⟩ : BufTy).Contents (Elt F) → (⟨S100000x1, .f32⟩ : BufTy).Contents (Elt F)),
    binary main_v178 main_v179 main_v180 (Host.divf : (⟨S100000x1, .f32⟩ : BufTy).Contents (Elt F) → (⟨S100000x1, .f32⟩ : BufTy).Contents (Elt F) → (⟨S100000x1, .f32⟩ : BufTy).Contents (Elt F)),
    unary main_v173 main_v181 (broadcastInDim S100000x128 ![0, 1] bcast_S100000x1_S100000x128_0_1 : (⟨S100000x1, .f32⟩ : BufTy).Contents (Elt F) → (⟨S100000x128, .f32⟩ : BufTy).Contents (Elt F)),
    binary main_v165 main_v181 main_v182 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v183 (broadcastInDim S100000x1 ![] bcast_S_S100000x1 : (⟨S_, .f32⟩ : BufTy).Contents (Elt F) → (⟨S100000x1, .f32⟩ : BufTy).Contents (Elt F)),
    binary main_v180 main_v183 main_v184 (addf : (⟨S100000x1, .f32⟩ : BufTy).Contents (Elt F) → (⟨S100000x1, .f32⟩ : BufTy).Contents (Elt F) → (⟨S100000x1, .f32⟩ : BufTy).Contents (Elt F)),
    unary main_v184 main_v185 (Host.rsqrt : (⟨S100000x1, .f32⟩ : BufTy).Contents (Elt F) → (⟨S100000x1, .f32⟩ : BufTy).Contents (Elt F)),
    unary main_v185 main_v186 (broadcastInDim S100000x128 ![0, 1] bcast_S100000x1_S100000x128_0_1 : (⟨S100000x1, .f32⟩ : BufTy).Contents (Elt F) → (⟨S100000x128, .f32⟩ : BufTy).Contents (Elt F)),
    binary main_v182 main_v186 main_v187 (mulf : (⟨S100000x128, .f32⟩ : BufTy).Contents (Elt F) → (⟨S100000x128, .f32⟩ : BufTy).Contents (Elt F) → (⟨S100000x128, .f32⟩ : BufTy).Contents (Elt F)),
    unary main_v167 main_v188 (broadcastInDim S1x128 ![1] bcast_S128_S1x128_1 : (⟨S128, .f32⟩ : BufTy).Contents (Elt F) → (⟨S1x128, .f32⟩ : BufTy).Contents (Elt F)),
    unary main_v188 main_v189 (broadcastInDim S100000x128 ![0, 1] bcast_S1x128_S100000x128_0_1 : (⟨S1x128, .f32⟩ : BufTy).Contents (Elt F) → (⟨S100000x128, .f32⟩ : BufTy).Contents (Elt F)),
    binary main_v187 main_v189 main_v190 (mulf : (⟨S100000x128, .f32⟩ : BufTy).Contents (Elt F) → (⟨S100000x128, .f32⟩ : BufTy).Contents (Elt F) → (⟨S100000x128, .f32⟩ : BufTy).Contents (Elt F)),
    unary main_v169 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v190 main_v192 main_v193 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v193) (TRef.of (T := ⟨S100000x128, .f32⟩) main_call2_v0) (TRef.of (T := ⟨S100000x128, .f32⟩) main_v194) maximumf,
    binary main_v194 main_v140 main_v195 (addf : (⟨S100000x128, .f32⟩ : BufTy).Contents (Elt F) → (⟨S100000x128, .f32⟩ : BufTy).Contents (Elt F) → (⟨S100000x128, .f32⟩ : BufTy).Contents (Elt F)) ]

/-- The pooling over graphs: per-graph sums divided by the per-graph node counts clamped below at one. (16 operations.) -/
abbrev ops14 : List (HloOp τ sig (Elt F)) :=
  [ nullary main_cst_30 (constant S_ .f32 0x3F800000#32),
    unary main_cst_30 main_v196 (broadcastInDim S100000 ![] bcast_S_S100000 : (⟨S_, .f32⟩ : BufTy).Contents (Elt F) → (⟨S100000, .f32⟩ : BufTy).Contents (Elt F)),
    nullary main_cst_31 (constant S_ .f32 0x00000000#32),
    unary main_cst_31 main_v197 (broadcastInDim S512 ![] bcast_S_S512 : (⟨S_, .f32⟩ : BufTy).Contents (Elt F) → (⟨S512, .f32⟩ : BufTy).Contents (Elt F)),
    unary main_arg3 main_v198 (broadcastInDim S100000x1 ![0] bcast_S100000_S100000x1_0 : (⟨S100000, .i32⟩ : BufTy).Contents (Elt F) → (⟨S100000x1, .i32⟩ : BufTy).Contents (Elt F)),
    ternary main_v197 main_v198 main_v196 main_v199 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_32 (constant S_ .f32 0x00000000#32),
    unary main_cst_32 main_v200 (broadcastInDim S512x128 ![] bcast_S_S512x128 : (⟨S_, .f32⟩ : BufTy).Contents (Elt F) → (⟨S512x128, .f32⟩ : BufTy).Contents (Elt F)),
    unary main_arg3 main_v201 (broadcastInDim S100000x1 ![0] bcast_S100000_S100000x1_0 : (⟨S100000, .i32⟩ : BufTy).Contents (Elt F) → (⟨S100000x1, .i32⟩ : BufTy).Contents (Elt F)),
    ternary main_v200 main_v201 main_v195 main_v202 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_33 (constant S_ .f32 0x3F800000#32),
    unary main_cst_33 main_v203 (broadcastInDim S512 ![] bcast_S_S512 : (⟨S_, .f32⟩ : BufTy).Contents (Elt F) → (⟨S512, .f32⟩ : BufTy).Contents (Elt F)),
    binary main_v199 main_v203 main_v204 (maximumf : (⟨S512, .f32⟩ : BufTy).Contents (Elt F) → (⟨S512, .f32⟩ : BufTy).Contents (Elt F) → (⟨S512, .f32⟩ : BufTy).Contents (Elt F)),
    unary main_v204 main_v205 (broadcastInDim S512x1 ![0] bcast_S512_S512x1_0 : (⟨S512, .f32⟩ : BufTy).Contents (Elt F) → (⟨S512x1, .f32⟩ : BufTy).Contents (Elt F)),
    unary main_v205 main_v206 (broadcastInDim S512x128 ![0, 1] bcast_S512x1_S512x128_0_1 : (⟨S512x1, .f32⟩ : BufTy).Contents (Elt F) → (⟨S512x128, .f32⟩ : BufTy).Contents (Elt F)),
    binary main_v202 main_v206 main_v207 (Host.divf : (⟨S512x128, .f32⟩ : BufTy).Contents (Elt F) → (⟨S512x128, .f32⟩ : BufTy).Contents (Elt F) → (⟨S512x128, .f32⟩ : BufTy).Contents (Elt F)) ]

/-- The program's 250 operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ ops14)))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists is one of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops1_sub : (ops1 : List (HloOp τ sig (Elt F))).Forall fun op => op.bufs ⊆ tcRefs τ sig :=
  ⟨binary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., reshape_bufs_sub ..⟩
theorem ops3_sub : (ops3 : List (HloOp τ sig (Elt F))).Forall fun op => op.bufs ⊆ tcRefs τ sig :=
  binary_bufs_sub ..
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ops5_sub : (ops5 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops6_sub : (ops6 : List (HloOp τ sig (Elt F))).Forall fun op => op.bufs ⊆ tcRefs τ sig :=
  ⟨unary_bufs_sub .., reshape_bufs_sub ..⟩
theorem ops7_sub : (ops7 : List (HloOp τ sig (Elt F))).Forall fun op => op.bufs ⊆ tcRefs τ sig :=
  binary_bufs_sub ..
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ops9_sub : (ops9 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem ops10_sub : (ops10 : List (HloOp τ sig (Elt F))).Forall fun op => op.bufs ⊆ tcRefs τ sig :=
  ⟨unary_bufs_sub .., reshape_bufs_sub ..⟩
theorem ops11_sub : (ops11 : List (HloOp τ sig (Elt F))).Forall fun op => op.bufs ⊆ tcRefs τ sig :=
  binary_bufs_sub ..
theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ops13_sub : (ops13 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem ops14_sub : (ops14 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  forall_app ops0_sub (forall_app ops1_sub (forall_app ops2_sub (forall_app ops3_sub (forall_app ops4_sub (forall_app ops5_sub (forall_app ops6_sub (forall_app ops7_sub (forall_app ops8_sub (forall_app ops9_sub (forall_app ops10_sub (forall_app ops11_sub (forall_app ops12_sub (forall_app ops13_sub ops14_sub)))))))))))))

/-! ## The contents at the boundaries -/

/-- The buffers' contents at launch, as the run's fold over the operations starts from them. -/
def RW0 (m : (ℓ : Loc nD τ sig) → Buf (Elt F) ℓ) (c : Dev nD) : Valuation τ sig (Elt F) := launchContents m c

/-- The buffers' contents after the operations of `ops0`. -/
def RW1 (m : (ℓ : Loc nD τ sig) → Buf (Elt F) ℓ) (c : Dev nD) : Valuation τ sig (Elt F) := after ops0 (RW0 m c)

/-- The buffers' contents after the operations of `ops1`. -/
def RW2 (m : (ℓ : Loc nD τ sig) → Buf (Elt F) ℓ) (c : Dev nD) : Valuation τ sig (Elt F) := after ops1 (RW1 m c)

/-- The buffers' contents after the operations of `ops2`. -/
def RW3 (m : (ℓ : Loc nD τ sig) → Buf (Elt F) ℓ) (c : Dev nD) : Valuation τ sig (Elt F) := after ops2 (RW2 m c)

/-- The buffers' contents after the operations of `ops3`. -/
def RW4 (m : (ℓ : Loc nD τ sig) → Buf (Elt F) ℓ) (c : Dev nD) : Valuation τ sig (Elt F) := after ops3 (RW3 m c)

/-- The buffers' contents after the operations of `ops4`. -/
def RW5 (m : (ℓ : Loc nD τ sig) → Buf (Elt F) ℓ) (c : Dev nD) : Valuation τ sig (Elt F) := after ops4 (RW4 m c)

/-- The buffers' contents after the operations of `ops5`. -/
def RW6 (m : (ℓ : Loc nD τ sig) → Buf (Elt F) ℓ) (c : Dev nD) : Valuation τ sig (Elt F) := after ops5 (RW5 m c)

/-- The buffers' contents after the operations of `ops6`. -/
def RW7 (m : (ℓ : Loc nD τ sig) → Buf (Elt F) ℓ) (c : Dev nD) : Valuation τ sig (Elt F) := after ops6 (RW6 m c)

/-- The buffers' contents after the operations of `ops7`. -/
def RW8 (m : (ℓ : Loc nD τ sig) → Buf (Elt F) ℓ) (c : Dev nD) : Valuation τ sig (Elt F) := after ops7 (RW7 m c)

/-- The buffers' contents after the operations of `ops8`. -/
def RW9 (m : (ℓ : Loc nD τ sig) → Buf (Elt F) ℓ) (c : Dev nD) : Valuation τ sig (Elt F) := after ops8 (RW8 m c)

/-- The buffers' contents after the operations of `ops9`. -/
def RW10 (m : (ℓ : Loc nD τ sig) → Buf (Elt F) ℓ) (c : Dev nD) : Valuation τ sig (Elt F) := after ops9 (RW9 m c)

/-- The buffers' contents after the operations of `ops10`. -/
def RW11 (m : (ℓ : Loc nD τ sig) → Buf (Elt F) ℓ) (c : Dev nD) : Valuation τ sig (Elt F) := after ops10 (RW10 m c)

/-- The buffers' contents after the operations of `ops11`. -/
def RW12 (m : (ℓ : Loc nD τ sig) → Buf (Elt F) ℓ) (c : Dev nD) : Valuation τ sig (Elt F) := after ops11 (RW11 m c)

/-- The buffers' contents after the operations of `ops12`. -/
def RW13 (m : (ℓ : Loc nD τ sig) → Buf (Elt F) ℓ) (c : Dev nD) : Valuation τ sig (Elt F) := after ops12 (RW12 m c)

/-- The buffers' contents after the operations of `ops13`. -/
def RW14 (m : (ℓ : Loc nD τ sig) → Buf (Elt F) ℓ) (c : Dev nD) : Valuation τ sig (Elt F) := after ops13 (RW13 m c)

/-- The buffers' contents after the operations of `ops14`. -/
def RW15 (m : (ℓ : Loc nD τ sig) → Buf (Elt F) ℓ) (c : Dev nD) : Valuation τ sig (Elt F) := after ops14 (RW14 m c)

theorem RW1_eq (m : (ℓ : Loc nD τ sig) → Buf (Elt F) ℓ) (c : Dev nD) : RW1 m c = after ops0 (RW0 m c) := rfl
theorem RW2_eq (m : (ℓ : Loc nD τ sig) → Buf (Elt F) ℓ) (c : Dev nD) : RW2 m c = after ops1 (RW1 m c) := rfl
theorem RW3_eq (m : (ℓ : Loc nD τ sig) → Buf (Elt F) ℓ) (c : Dev nD) : RW3 m c = after ops2 (RW2 m c) := rfl
theorem RW4_eq (m : (ℓ : Loc nD τ sig) → Buf (Elt F) ℓ) (c : Dev nD) : RW4 m c = after ops3 (RW3 m c) := rfl
theorem RW5_eq (m : (ℓ : Loc nD τ sig) → Buf (Elt F) ℓ) (c : Dev nD) : RW5 m c = after ops4 (RW4 m c) := rfl
theorem RW6_eq (m : (ℓ : Loc nD τ sig) → Buf (Elt F) ℓ) (c : Dev nD) : RW6 m c = after ops5 (RW5 m c) := rfl
theorem RW7_eq (m : (ℓ : Loc nD τ sig) → Buf (Elt F) ℓ) (c : Dev nD) : RW7 m c = after ops6 (RW6 m c) := rfl
theorem RW8_eq (m : (ℓ : Loc nD τ sig) → Buf (Elt F) ℓ) (c : Dev nD) : RW8 m c = after ops7 (RW7 m c) := rfl
theorem RW9_eq (m : (ℓ : Loc nD τ sig) → Buf (Elt F) ℓ) (c : Dev nD) : RW9 m c = after ops8 (RW8 m c) := rfl
theorem RW10_eq (m : (ℓ : Loc nD τ sig) → Buf (Elt F) ℓ) (c : Dev nD) : RW10 m c = after ops9 (RW9 m c) := rfl
theorem RW11_eq (m : (ℓ : Loc nD τ sig) → Buf (Elt F) ℓ) (c : Dev nD) : RW11 m c = after ops10 (RW10 m c) := rfl
theorem RW12_eq (m : (ℓ : Loc nD τ sig) → Buf (Elt F) ℓ) (c : Dev nD) : RW12 m c = after ops11 (RW11 m c) := rfl
theorem RW13_eq (m : (ℓ : Loc nD τ sig) → Buf (Elt F) ℓ) (c : Dev nD) : RW13 m c = after ops12 (RW12 m c) := rfl
theorem RW14_eq (m : (ℓ : Loc nD τ sig) → Buf (Elt F) ℓ) (c : Dev nD) : RW14 m c = after ops13 (RW13 m c) := rfl
theorem RW15_eq (m : (ℓ : Loc nD τ sig) → Buf (Elt F) ℓ) (c : Dev nD) : RW15 m c = after ops14 (RW14 m c) := rfl

theorem RW0_apply (m : (ℓ : Loc nD τ sig) → Buf (Elt F) ℓ) (c : Dev nD) (b : Ref sig .tc) :
    RW0 m c (Proc.devRef .tc b) = m ((c.tc : Thread nD τ).loc b) := rfl

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold of the whole line over the launch contents is the last boundary's contents. -/
theorem after_ops (m : (ℓ : Loc nD τ sig) → Buf (Elt F) ℓ) (c : Dev nD) : after ops (launchContents m c) = RW15 m c := by
  rw [RW15_eq, RW14_eq, RW13_eq, RW12_eq, RW11_eq, RW10_eq, RW9_eq, RW8_eq, RW7_eq, RW6_eq, RW5_eq, RW4_eq, RW3_eq, RW2_eq, RW1_eq]
  show after (ops0 ++ (ops1 ++ (ops2 ++ (ops3 ++ (ops4 ++ (ops5 ++ (ops6 ++ (ops7 ++ (ops8 ++ (ops9 ++ (ops10 ++ (ops11 ++ (ops12 ++ (ops13 ++ ops14)))))))))))))) (launchContents m c) = _
  rw [after_app, after_app, after_app, after_app, after_app, after_app, after_app, after_app, after_app, after_app, after_app,
    after_app, after_app, after_app]
  rfl

/-! ## The run -/

/-- On every device, for any float values, from any memory with zero counters: every weakly fair execution of the program
    terminates with every buffer at the last boundary's contents. -/
theorem run_raw (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = RW15 m c (Proc.devRef .tc b)) :=
  (θ_run defs _ _).mono (fun _ h c b => (h c b).trans (congrFun (after_ops m c) (Proc.devRef .tc b)))
    (run_seq scopedRefs_eq scopedSems_eq defs main (fun _ => ops) main_eq (fun _ => ops_sub) m ρ)

end Cert.ReferenceIdeal.RefRun

end
-- ==== Proof.RefWalkA.lean ====
/-
  The contents of the reference's buffers at the boundaries between consecutive chunks of its operations, each as a
  named stage of the argument arrays.  A buffer the chunk writes holds that operation's value of the buffers it reads;
  a buffer no operation of the chunk writes holds what it held at the previous boundary.  Here: the edge quantities,
  the input projection, and the first layer's dense product and message passing.
-/
import proofs.«102601_j59450937311581_1_alg».proof.Proof.RefRun
import proofs.«102601_j59450937311581_1_alg».proof.Proof.RefStages
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 0 -/

theorem rat_0_arg0 : RW0 m c (Proc.devRef .tc main_arg0) = A0 := rfl

theorem rat_0_arg1 : RW0 m c (Proc.devRef .tc main_arg1) = A1 := rfl

theorem rat_0_arg2 : RW0 m c (Proc.devRef .tc main_arg2) = A2 := rfl

theorem rat_0_arg3 : RW0 m c (Proc.devRef .tc main_arg3) = A3 := rfl

theorem rat_0_arg4 : RW0 m c (Proc.devRef .tc main_arg4) = A4 := rfl

theorem rat_0_arg5 : RW0 m c (Proc.devRef .tc main_arg5) = A5 := rfl

theorem rat_0_arg6 : RW0 m c (Proc.devRef .tc main_arg6) = A6 := rfl

theorem rat_0_arg7 : RW0 m c (Proc.devRef .tc main_arg7) = A7 := rfl

theorem rat_0_arg8 : RW0 m c (Proc.devRef .tc main_arg8) = A8 := rfl

theorem rat_0_arg9 : RW0 m c (Proc.devRef .tc main_arg9) = A9 := rfl

/-! ## Boundary 1 -/

theorem rat_1_arg0 : RW1 m c (Proc.devRef .tc main_arg0) = A0 :=
  (show StableHlo.after ops0 (RW0 m c) (Proc.devRef .tc main_arg0) = RW0 m c (Proc.devRef .tc main_arg0) from by
    dsimp only [ops0]; after_results).trans (rat_0_arg0 m c)

theorem rat_1_arg1 : RW1 m c (Proc.devRef .tc main_arg1) = A1 :=
  (show StableHlo.after ops0 (RW0 m c) (Proc.devRef .tc main_arg1) = RW0 m c (Proc.devRef .tc main_arg1) from by
    dsimp only [ops0]; after_results).trans (rat_0_arg1 m c)

theorem rat_1_arg2 : RW1 m c (Proc.devRef .tc main_arg2) = A2 :=
  (show StableHlo.after ops0 (RW0 m c) (Proc.devRef .tc main_arg2) = RW0 m c (Proc.devRef .tc main_arg2) from by
    dsimp only [ops0]; after_results).trans (rat_0_arg2 m c)

theorem rat_1_arg3 : RW1 m c (Proc.devRef .tc main_arg3) = A3 :=
  (show StableHlo.after ops0 (RW0 m c) (Proc.devRef .tc main_arg3) = RW0 m c (Proc.devRef .tc main_arg3) from by
    dsimp only [ops0]; after_results).trans (rat_0_arg3 m c)

theorem rat_1_arg4 : RW1 m c (Proc.devRef .tc main_arg4) = A4 :=
  (show StableHlo.after ops0 (RW0 m c) (Proc.devRef .tc main_arg4) = RW0 m c (Proc.devRef .tc main_arg4) from by
    dsimp only [ops0]; after_results).trans (rat_0_arg4 m c)

theorem rat_1_arg5 : RW1 m c (Proc.devRef .tc main_arg5) = A5 :=
  (show StableHlo.after ops0 (RW0 m c) (Proc.devRef .tc main_arg5) = RW0 m c (Proc.devRef .tc main_arg5) from by
    dsimp only [ops0]; after_results).trans (rat_0_arg5 m c)

theorem rat_1_arg6 : RW1 m c (Proc.devRef .tc main_arg6) = A6 :=
  (show StableHlo.after ops0 (RW0 m c) (Proc.devRef .tc main_arg6) = RW0 m c (Proc.devRef .tc main_arg6) from by
    dsimp only [ops0]; after_results).trans (rat_0_arg6 m c)

theorem rat_1_arg7 : RW1 m c (Proc.devRef .tc main_arg7) = A7 :=
  (show StableHlo.after ops0 (RW0 m c) (Proc.devRef .tc main_arg7) = RW0 m c (Proc.devRef .tc main_arg7) from by
    dsimp only [ops0]; after_results).trans (rat_0_arg7 m c)

theorem rat_1_arg8 : RW1 m c (Proc.devRef .tc main_arg8) = A8 :=
  (show StableHlo.after ops0 (RW0 m c) (Proc.devRef .tc main_arg8) = RW0 m c (Proc.devRef .tc main_arg8) from by
    dsimp only [ops0]; after_results).trans (rat_0_arg8 m c)

theorem rat_1_arg9 : RW1 m c (Proc.devRef .tc main_arg9) = A9 :=
  (show StableHlo.after ops0 (RW0 m c) (Proc.devRef .tc main_arg9) = RW0 m c (Proc.devRef .tc main_arg9) from by
    dsimp only [ops0]; after_results).trans (rat_0_arg9 m c)

set_option maxHeartbeats 4000000 in
theorem rat_1_v1 : RW1 m c (Proc.devRef .tc main_v1) = Cert.ReferenceIdeal.RefValue.src A1 := by
  show StableHlo.after ops0 (RW0 m c) (Proc.devRef .tc main_v1) = _
  dsimp only [ops0]
  after_results_simp
  rfl

set_option maxHeartbeats 4000000 in
theorem rat_1_v3 : RW1 m c (Proc.devRef .tc main_v3) = Cert.ReferenceIdeal.RefValue.dst A1 := by
  show StableHlo.after ops0 (RW0 m c) (Proc.devRef .tc main_v3) = _
  dsimp only [ops0]
  after_results_simp
  rfl

set_option maxHeartbeats 4000000 in
theorem rat_1_v27 : RW1 m c (Proc.devRef .tc main_v27) = Cert.ReferenceIdeal.RefValue.enorm A1 := by
  show StableHlo.after ops0 (RW0 m c) (Proc.devRef .tc main_v27) = _
  dsimp only [ops0]
  after_results_simp
  rfl

set_option maxHeartbeats 4000000 in
theorem rat_1_v12 : RW1 m c (Proc.devRef .tc main_v12) = Cert.ReferenceIdeal.RefValue.dinvVec A1 := by
  show StableHlo.after ops0 (RW0 m c) (Proc.devRef .tc main_v12) = _
  dsimp only [ops0]
  after_results_simp
  rfl

/-! ## Boundary 2 -/

theorem rat_2_arg0 : RW2 m c (Proc.devRef .tc main_arg0) = A0 :=
  (show StableHlo.after ops1 (RW1 m c) (Proc.devRef .tc main_arg0) = RW1 m c (Proc.devRef .tc main_arg0) from by
    dsimp only [ops1]; after_results).trans (rat_1_arg0 m c)

theorem rat_2_arg1 : RW2 m c (Proc.devRef .tc main_arg1) = A1 :=
  (show StableHlo.after ops1 (RW1 m c) (Proc.devRef .tc main_arg1) = RW1 m c (Proc.devRef .tc main_arg1) from by
    dsimp only [ops1]; after_results).trans (rat_1_arg1 m c)

theorem rat_2_arg2 : RW2 m c (Proc.devRef .tc main_arg2) = A2 :=
  (show StableHlo.after ops1 (RW1 m c) (Proc.devRef .tc main_arg2) = RW1 m c (Proc.devRef .tc main_arg2) from by
    dsimp only [ops1]; after_results).trans (rat_1_arg2 m c)

theorem rat_2_arg3 : RW2 m c (Proc.devRef .tc main_arg3) = A3 :=
  (show StableHlo.after ops1 (RW1 m c) (Proc.devRef .tc main_arg3) = RW1 m c (Proc.devRef .tc main_arg3) from by
    dsimp only [ops1]; after_results).trans (rat_1_arg3 m c)

theorem rat_2_arg4 : RW2 m c (Proc.devRef .tc main_arg4) = A4 :=
  (show StableHlo.after ops1 (RW1 m c) (Proc.devRef .tc main_arg4) = RW1 m c (Proc.devRef .tc main_arg4) from by
    dsimp only [ops1]; after_results).trans (rat_1_arg4 m c)

theorem rat_2_arg5 : RW2 m c (Proc.devRef .tc main_arg5) = A5 :=
  (show StableHlo.after ops1 (RW1 m c) (Proc.devRef .tc main_arg5) = RW1 m c (Proc.devRef .tc main_arg5) from by
    dsimp only [ops1]; after_results).trans (rat_1_arg5 m c)

theorem rat_2_arg6 : RW2 m c (Proc.devRef .tc main_arg6) = A6 :=
  (show StableHlo.after ops1 (RW1 m c) (Proc.devRef .tc main_arg6) = RW1 m c (Proc.devRef .tc main_arg6) from by
    dsimp only [ops1]; after_results).trans (rat_1_arg6 m c)

theorem rat_2_arg7 : RW2 m c (Proc.devRef .tc main_arg7) = A7 :=
  (show StableHlo.after ops1 (RW1 m c) (Proc.devRef .tc main_arg7) = RW1 m c (Proc.devRef .tc main_arg7) from by
    dsimp only [ops1]; after_results).trans (rat_1_arg7 m c)

theorem rat_2_arg8 : RW2 m c (Proc.devRef .tc main_arg8) = A8 :=
  (show StableHlo.after ops1 (RW1 m c) (Proc.devRef .tc main_arg8) = RW1 m c (Proc.devRef .tc main_arg8) from by
    dsimp only [ops1]; after_results).trans (rat_1_arg8 m c)

theorem rat_2_arg9 : RW2 m c (Proc.devRef .tc main_arg9) = A9 :=
  (show StableHlo.after ops1 (RW1 m c) (Proc.devRef .tc main_arg9) = RW1 m c (Proc.devRef .tc main_arg9) from by
    dsimp only [ops1]; after_results).trans (rat_1_arg9 m c)

theorem rat_2_v1 : RW2 m c (Proc.devRef .tc main_v1) = Cert.ReferenceIdeal.RefValue.src A1 :=
  (show StableHlo.after ops1 (RW1 m c) (Proc.devRef .tc main_v1) = RW1 m c (Proc.devRef .tc main_v1) from by
    dsimp only [ops1]; after_results).trans (rat_1_v1 m c)

theorem rat_2_v3 : RW2 m c (Proc.devRef .tc main_v3) = Cert.ReferenceIdeal.RefValue.dst A1 :=
  (show StableHlo.after ops1 (RW1 m c) (Proc.devRef .tc main_v3) = RW1 m c (Proc.devRef .tc main_v3) from by
    dsimp only [ops1]; after_results).trans (rat_1_v3 m c)

theorem rat_2_v27 : RW2 m c (Proc.devRef .tc main_v27) = Cert.ReferenceIdeal.RefValue.enorm A1 :=
  (show StableHlo.after ops1 (RW1 m c) (Proc.devRef .tc main_v27) = RW1 m c (Proc.devRef .tc main_v27) from by
    dsimp only [ops1]; after_results).trans (rat_1_v27 m c)

theorem rat_2_v12 : RW2 m c (Proc.devRef .tc main_v12) = Cert.ReferenceIdeal.RefValue.dinvVec A1 :=
  (show StableHlo.after ops1 (RW1 m c) (Proc.devRef .tc main_v12) = RW1 m c (Proc.devRef .tc main_v12) from by
    dsimp only [ops1]; after_results).trans (rat_1_v12 m c)

set_option maxHeartbeats 4000000 in
theorem rat_2_v31 : RW2 m c (Proc.devRef .tc main_v31) = Cert.ReferenceIdeal.RefValue.x0 A0 A4 A5 := by
  show StableHlo.after ops1 (RW1 m c) (Proc.devRef .tc main_v31) = _
  dsimp only [ops1]
  after_results_simp
  rw [rat_1_arg0 m c, rat_1_arg4 m c, rat_1_arg5 m c]
  rfl

/-! ## Boundary 3 -/

theorem rat_3_arg0 : RW3 m c (Proc.devRef .tc main_arg0) = A0 :=
  (show StableHlo.after ops2 (RW2 m c) (Proc.devRef .tc main_arg0) = RW2 m c (Proc.devRef .tc main_arg0) from by
    dsimp only [ops2]; after_results).trans (rat_2_arg0 m c)

theorem rat_3_arg1 : RW3 m c (Proc.devRef .tc main_arg1) = A1 :=
  (show StableHlo.after ops2 (RW2 m c) (Proc.devRef .tc main_arg1) = RW2 m c (Proc.devRef .tc main_arg1) from by
    dsimp only [ops2]; after_results).trans (rat_2_arg1 m c)

theorem rat_3_arg2 : RW3 m c (Proc.devRef .tc main_arg2) = A2 :=
  (show StableHlo.after ops2 (RW2 m c) (Proc.devRef .tc main_arg2) = RW2 m c (Proc.devRef .tc main_arg2) from by
    dsimp only [ops2]; after_results).trans (rat_2_arg2 m c)

theorem rat_3_arg3 : RW3 m c (Proc.devRef .tc main_arg3) = A3 :=
  (show StableHlo.after ops2 (RW2 m c) (Proc.devRef .tc main_arg3) = RW2 m c (Proc.devRef .tc main_arg3) from by
    dsimp only [ops2]; after_results).trans (rat_2_arg3 m c)

theorem rat_3_arg4 : RW3 m c (Proc.devRef .tc main_arg4) = A4 :=
  (show StableHlo.after ops2 (RW2 m c) (Proc.devRef .tc main_arg4) = RW2 m c (Proc.devRef .tc main_arg4) from by
    dsimp only [ops2]; after_results).trans (rat_2_arg4 m c)

theorem rat_3_arg5 : RW3 m c (Proc.devRef .tc main_arg5) = A5 :=
  (show StableHlo.after ops2 (RW2 m c) (Proc.devRef .tc main_arg5) = RW2 m c (Proc.devRef .tc main_arg5) from by
    dsimp only [ops2]; after_results).trans (rat_2_arg5 m c)

theorem rat_3_arg6 : RW3 m c (Proc.devRef .tc main_arg6) = A6 :=
  (show StableHlo.after ops2 (RW2 m c) (Proc.devRef .tc main_arg6) = RW2 m c (Proc.devRef .tc main_arg6) from by
    dsimp only [ops2]; after_results).trans (rat_2_arg6 m c)

theorem rat_3_arg7 : RW3 m c (Proc.devRef .tc main_arg7) = A7 :=
  (show StableHlo.after ops2 (RW2 m c) (Proc.devRef .tc main_arg7) = RW2 m c (Proc.devRef .tc main_arg7) from by
    dsimp only [ops2]; after_results).trans (rat_2_arg7 m c)

theorem rat_3_arg8 : RW3 m c (Proc.devRef .tc main_arg8) = A8 :=
  (show StableHlo.after ops2 (RW2 m c) (Proc.devRef .tc main_arg8) = RW2 m c (Proc.devRef .tc main_arg8) from by
    dsimp only [ops2]; after_results).trans (rat_2_arg8 m c)

theorem rat_3_arg9 : RW3 m c (Proc.devRef .tc main_arg9) = A9 :=
  (show StableHlo.after ops2 (RW2 m c) (Proc.devRef .tc main_arg9) = RW2 m c (Proc.devRef .tc main_arg9) from by
    dsimp only [ops2]; after_results).trans (rat_2_arg9 m c)

theorem rat_3_v1 : RW3 m c (Proc.devRef .tc main_v1) = Cert.ReferenceIdeal.RefValue.src A1 :=
  (show StableHlo.after ops2 (RW2 m c) (Proc.devRef .tc main_v1) = RW2 m c (Proc.devRef .tc main_v1) from by
    dsimp only [ops2]; after_results).trans (rat_2_v1 m c)

theorem rat_3_v3 : RW3 m c (Proc.devRef .tc main_v3) = Cert.ReferenceIdeal.RefValue.dst A1 :=
  (show StableHlo.after ops2 (RW2 m c) (Proc.devRef .tc main_v3) = RW2 m c (Proc.devRef .tc main_v3) from by
    dsimp only [ops2]; after_results).trans (rat_2_v3 m c)

theorem rat_3_v27 : RW3 m c (Proc.devRef .tc main_v27) = Cert.ReferenceIdeal.RefValue.enorm A1 :=
  (show StableHlo.after ops2 (RW2 m c) (Proc.devRef .tc main_v27) = RW2 m c (Proc.devRef .tc main_v27) from by
    dsimp only [ops2]; after_results).trans (rat_2_v27 m c)

theorem rat_3_v12 : RW3 m c (Proc.devRef .tc main_v12) = Cert.ReferenceIdeal.RefValue.dinvVec A1 :=
  (show StableHlo.after ops2 (RW2 m c) (Proc.devRef .tc main_v12) = RW2 m c (Proc.devRef .tc main_v12) from by
    dsimp only [ops2]; after_results).trans (rat_2_v12 m c)

theorem rat_3_v31 : RW3 m c (Proc.devRef .tc main_v31) = Cert.ReferenceIdeal.RefValue.x0 A0 A4 A5 :=
  (show StableHlo.after ops2 (RW2 m c) (Proc.devRef .tc main_v31) = RW2 m c (Proc.devRef .tc main_v31) from by
    dsimp only [ops2]; after_results).trans (rat_2_v31 m c)

set_option maxHeartbeats 4000000 in
theorem rat_3_v33 : RW3 m c (Proc.devRef .tc main_v33) = Cert.ReferenceIdeal.RefValue.w1 A6 := by
  show StableHlo.after ops2 (RW2 m c) (Proc.devRef .tc main_v33) = _
  dsimp only [ops2]
  after_results_simp
  rw [rat_2_arg6 m c]
  rfl

/-! ## Boundary 4 -/

theorem rat_4_arg0 : RW4 m c (Proc.devRef .tc main_arg0) = A0 :=
  (show StableHlo.after ops3 (RW3 m c) (Proc.devRef .tc main_arg0) = RW3 m c (Proc.devRef .tc main_arg0) from by
    dsimp only [ops3]; after_results).trans (rat_3_arg0 m c)

theorem rat_4_arg1 : RW4 m c (Proc.devRef .tc main_arg1) = A1 :=
  (show StableHlo.after ops3 (RW3 m c) (Proc.devRef .tc main_arg1) = RW3 m c (Proc.devRef .tc main_arg1) from by
    dsimp only [ops3]; after_results).trans (rat_3_arg1 m c)

theorem rat_4_arg2 : RW4 m c (Proc.devRef .tc main_arg2) = A2 :=
  (show StableHlo.after ops3 (RW3 m c) (Proc.devRef .tc main_arg2) = RW3 m c (Proc.devRef .tc main_arg2) from by
    dsimp only [ops3]; after_results).trans (rat_3_arg2 m c)

theorem rat_4_arg3 : RW4 m c (Proc.devRef .tc main_arg3) = A3 :=
  (show StableHlo.after ops3 (RW3 m c) (Proc.devRef .tc main_arg3) = RW3 m c (Proc.devRef .tc main_arg3) from by
    dsimp only [ops3]; after_results).trans (rat_3_arg3 m c)

theorem rat_4_arg4 : RW4 m c (Proc.devRef .tc main_arg4) = A4 :=
  (show StableHlo.after ops3 (RW3 m c) (Proc.devRef .tc main_arg4) = RW3 m c (Proc.devRef .tc main_arg4) from by
    dsimp only [ops3]; after_results).trans (rat_3_arg4 m c)

theorem rat_4_arg5 : RW4 m c (Proc.devRef .tc main_arg5) = A5 :=
  (show StableHlo.after ops3 (RW3 m c) (Proc.devRef .tc main_arg5) = RW3 m c (Proc.devRef .tc main_arg5) from by
    dsimp only [ops3]; after_results).trans (rat_3_arg5 m c)

theorem rat_4_arg6 : RW4 m c (Proc.devRef .tc main_arg6) = A6 :=
  (show StableHlo.after ops3 (RW3 m c) (Proc.devRef .tc main_arg6) = RW3 m c (Proc.devRef .tc main_arg6) from by
    dsimp only [ops3]; after_results).trans (rat_3_arg6 m c)

theorem rat_4_arg7 : RW4 m c (Proc.devRef .tc main_arg7) = A7 :=
  (show StableHlo.after ops3 (RW3 m c) (Proc.devRef .tc main_arg7) = RW3 m c (Proc.devRef .tc main_arg7) from by
    dsimp only [ops3]; after_results).trans (rat_3_arg7 m c)

theorem rat_4_arg8 : RW4 m c (Proc.devRef .tc main_arg8) = A8 :=
  (show StableHlo.after ops3 (RW3 m c) (Proc.devRef .tc main_arg8) = RW3 m c (Proc.devRef .tc main_arg8) from by
    dsimp only [ops3]; after_results).trans (rat_3_arg8 m c)

theorem rat_4_arg9 : RW4 m c (Proc.devRef .tc main_arg9) = A9 :=
  (show StableHlo.after ops3 (RW3 m c) (Proc.devRef .tc main_arg9) = RW3 m c (Proc.devRef .tc main_arg9) from by
    dsimp only [ops3]; after_results).trans (rat_3_arg9 m c)

theorem rat_4_v1 : RW4 m c (Proc.devRef .tc main_v1) = Cert.ReferenceIdeal.RefValue.src A1 :=
  (show StableHlo.after ops3 (RW3 m c) (Proc.devRef .tc main_v1) = RW3 m c (Proc.devRef .tc main_v1) from by
    dsimp only [ops3]; after_results).trans (rat_3_v1 m c)

theorem rat_4_v3 : RW4 m c (Proc.devRef .tc main_v3) = Cert.ReferenceIdeal.RefValue.dst A1 :=
  (show StableHlo.after ops3 (RW3 m c) (Proc.devRef .tc main_v3) = RW3 m c (Proc.devRef .tc main_v3) from by
    dsimp only [ops3]; after_results).trans (rat_3_v3 m c)

theorem rat_4_v27 : RW4 m c (Proc.devRef .tc main_v27) = Cert.ReferenceIdeal.RefValue.enorm A1 :=
  (show StableHlo.after ops3 (RW3 m c) (Proc.devRef .tc main_v27) = RW3 m c (Proc.devRef .tc main_v27) from by
    dsimp only [ops3]; after_results).trans (rat_3_v27 m c)

theorem rat_4_v12 : RW4 m c (Proc.devRef .tc main_v12) = Cert.ReferenceIdeal.RefValue.dinvVec A1 :=
  (show StableHlo.after ops3 (RW3 m c) (Proc.devRef .tc main_v12) = RW3 m c (Proc.devRef .tc main_v12) from by
    dsimp only [ops3]; after_results).trans (rat_3_v12 m c)

set_option maxHeartbeats 4000000 in
theorem rat_4_v34 : RW4 m c (Proc.devRef .tc main_v34) = Cert.ReferenceIdeal.RefValue.dense (Cert.ReferenceIdeal.RefValue.x0 A0 A4 A5) (Cert.ReferenceIdeal.RefValue.w1 A6) := by
  show StableHlo.after ops3 (RW3 m c) (Proc.devRef .tc main_v34) = _
  dsimp only [ops3]
  after_results_simp
  rw [rat_3_v31 m c, rat_3_v33 m c]
  rfl

/-! ## Boundary 5 -/

theorem rat_5_arg0 : RW5 m c (Proc.devRef .tc main_arg0) = A0 :=
  (show StableHlo.after ops4 (RW4 m c) (Proc.devRef .tc main_arg0) = RW4 m c (Proc.devRef .tc main_arg0) from by
    dsimp only [ops4]; after_results).trans (rat_4_arg0 m c)

theorem rat_5_arg1 : RW5 m c (Proc.devRef .tc main_arg1) = A1 :=
  (show StableHlo.after ops4 (RW4 m c) (Proc.devRef .tc main_arg1) = RW4 m c (Proc.devRef .tc main_arg1) from by
    dsimp only [ops4]; after_results).trans (rat_4_arg1 m c)

theorem rat_5_arg2 : RW5 m c (Proc.devRef .tc main_arg2) = A2 :=
  (show StableHlo.after ops4 (RW4 m c) (Proc.devRef .tc main_arg2) = RW4 m c (Proc.devRef .tc main_arg2) from by
    dsimp only [ops4]; after_results).trans (rat_4_arg2 m c)

theorem rat_5_arg3 : RW5 m c (Proc.devRef .tc main_arg3) = A3 :=
  (show StableHlo.after ops4 (RW4 m c) (Proc.devRef .tc main_arg3) = RW4 m c (Proc.devRef .tc main_arg3) from by
    dsimp only [ops4]; after_results).trans (rat_4_arg3 m c)

theorem rat_5_arg4 : RW5 m c (Proc.devRef .tc main_arg4) = A4 :=
  (show StableHlo.after ops4 (RW4 m c) (Proc.devRef .tc main_arg4) = RW4 m c (Proc.devRef .tc main_arg4) from by
    dsimp only [ops4]; after_results).trans (rat_4_arg4 m c)

theorem rat_5_arg5 : RW5 m c (Proc.devRef .tc main_arg5) = A5 :=
  (show StableHlo.after ops4 (RW4 m c) (Proc.devRef .tc main_arg5) = RW4 m c (Proc.devRef .tc main_arg5) from by
    dsimp only [ops4]; after_results).trans (rat_4_arg5 m c)

theorem rat_5_arg6 : RW5 m c (Proc.devRef .tc main_arg6) = A6 :=
  (show StableHlo.after ops4 (RW4 m c) (Proc.devRef .tc main_arg6) = RW4 m c (Proc.devRef .tc main_arg6) from by
    dsimp only [ops4]; after_results).trans (rat_4_arg6 m c)

theorem rat_5_arg7 : RW5 m c (Proc.devRef .tc main_arg7) = A7 :=
  (show StableHlo.after ops4 (RW4 m c) (Proc.devRef .tc main_arg7) = RW4 m c (Proc.devRef .tc main_arg7) from by
    dsimp only [ops4]; after_results).trans (rat_4_arg7 m c)

theorem rat_5_arg8 : RW5 m c (Proc.devRef .tc main_arg8) = A8 :=
  (show StableHlo.after ops4 (RW4 m c) (Proc.devRef .tc main_arg8) = RW4 m c (Proc.devRef .tc main_arg8) from by
    dsimp only [ops4]; after_results).trans (rat_4_arg8 m c)

theorem rat_5_arg9 : RW5 m c (Proc.devRef .tc main_arg9) = A9 :=
  (show StableHlo.after ops4 (RW4 m c) (Proc.devRef .tc main_arg9) = RW4 m c (Proc.devRef .tc main_arg9) from by
    dsimp only [ops4]; after_results).trans (rat_4_arg9 m c)

theorem rat_5_v1 : RW5 m c (Proc.devRef .tc main_v1) = Cert.ReferenceIdeal.RefValue.src A1 :=
  (show StableHlo.after ops4 (RW4 m c) (Proc.devRef .tc main_v1) = RW4 m c (Proc.devRef .tc main_v1) from by
    dsimp only [ops4]; after_results).trans (rat_4_v1 m c)

theorem rat_5_v3 : RW5 m c (Proc.devRef .tc main_v3) = Cert.ReferenceIdeal.RefValue.dst A1 :=
  (show StableHlo.after ops4 (RW4 m c) (Proc.devRef .tc main_v3) = RW4 m c (Proc.devRef .tc main_v3) from by
    dsimp only [ops4]; after_results).trans (rat_4_v3 m c)

theorem rat_5_v27 : RW5 m c (Proc.devRef .tc main_v27) = Cert.ReferenceIdeal.RefValue.enorm A1 :=
  (show StableHlo.after ops4 (RW4 m c) (Proc.devRef .tc main_v27) = RW4 m c (Proc.devRef .tc main_v27) from by
    dsimp only [ops4]; after_results).trans (rat_4_v27 m c)

theorem rat_5_v12 : RW5 m c (Proc.devRef .tc main_v12) = Cert.ReferenceIdeal.RefValue.dinvVec A1 :=
  (show StableHlo.after ops4 (RW4 m c) (Proc.devRef .tc main_v12) = RW4 m c (Proc.devRef .tc main_v12) from by
    dsimp only [ops4]; after_results).trans (rat_4_v12 m c)

theorem rat_5_v34 : RW5 m c (Proc.devRef .tc main_v34) = Cert.ReferenceIdeal.RefValue.dense (Cert.ReferenceIdeal.RefValue.x0 A0 A4 A5) (Cert.ReferenceIdeal.RefValue.w1 A6) :=
  (show StableHlo.after ops4 (RW4 m c) (Proc.devRef .tc main_v34) = RW4 m c (Proc.devRef .tc main_v34) from by
    dsimp only [ops4]; after_results).trans (rat_4_v34 m c)

set_option maxHeartbeats 4000000 in
theorem rat_5_v47 : RW5 m c (Proc.devRef .tc main_v47) = Cert.ReferenceIdeal.RefValue.agg A1 (Cert.ReferenceIdeal.RefValue.dense (Cert.ReferenceIdeal.RefValue.x0 A0 A4 A5) (Cert.ReferenceIdeal.RefValue.w1 A6)) := by
  show StableHlo.after ops4 (RW4 m c) (Proc.devRef .tc main_v47) = _
  dsimp only [ops4]
  after_results_simp
  rw [rat_4_v1 m c, rat_4_v34 m c, rat_4_v27 m c, rat_4_v3 m c]
  rfl

end Cert.ReferenceIdeal.RefWalk

end
-- ==== Proof.RefWalkA2.lean ====
/-
  The same walk, continued: the first layer's combine step.
-/
import proofs.«102601_j59450937311581_1_alg».proof.Proof.RefWalkA
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 6 -/

theorem rat_6_arg0 : RW6 m c (Proc.devRef .tc main_arg0) = A0 :=
  (show StableHlo.after ops5 (RW5 m c) (Proc.devRef .tc main_arg0) = RW5 m c (Proc.devRef .tc main_arg0) from by
    dsimp only [ops5]; after_results).trans (rat_5_arg0 m c)

theorem rat_6_arg1 : RW6 m c (Proc.devRef .tc main_arg1) = A1 :=
  (show StableHlo.after ops5 (RW5 m c) (Proc.devRef .tc main_arg1) = RW5 m c (Proc.devRef .tc main_arg1) from by
    dsimp only [ops5]; after_results).trans (rat_5_arg1 m c)

theorem rat_6_arg2 : RW6 m c (Proc.devRef .tc main_arg2) = A2 :=
  (show StableHlo.after ops5 (RW5 m c) (Proc.devRef .tc main_arg2) = RW5 m c (Proc.devRef .tc main_arg2) from by
    dsimp only [ops5]; after_results).trans (rat_5_arg2 m c)

theorem rat_6_arg3 : RW6 m c (Proc.devRef .tc main_arg3) = A3 :=
  (show StableHlo.after ops5 (RW5 m c) (Proc.devRef .tc main_arg3) = RW5 m c (Proc.devRef .tc main_arg3) from by
    dsimp only [ops5]; after_results).trans (rat_5_arg3 m c)

theorem rat_6_arg4 : RW6 m c (Proc.devRef .tc main_arg4) = A4 :=
  (show StableHlo.after ops5 (RW5 m c) (Proc.devRef .tc main_arg4) = RW5 m c (Proc.devRef .tc main_arg4) from by
    dsimp only [ops5]; after_results).trans (rat_5_arg4 m c)

theorem rat_6_arg5 : RW6 m c (Proc.devRef .tc main_arg5) = A5 :=
  (show StableHlo.after ops5 (RW5 m c) (Proc.devRef .tc main_arg5) = RW5 m c (Proc.devRef .tc main_arg5) from by
    dsimp only [ops5]; after_results).trans (rat_5_arg5 m c)

theorem rat_6_arg6 : RW6 m c (Proc.devRef .tc main_arg6) = A6 :=
  (show StableHlo.after ops5 (RW5 m c) (Proc.devRef .tc main_arg6) = RW5 m c (Proc.devRef .tc main_arg6) from by
    dsimp only [ops5]; after_results).trans (rat_5_arg6 m c)

theorem rat_6_arg7 : RW6 m c (Proc.devRef .tc main_arg7) = A7 :=
  (show StableHlo.after ops5 (RW5 m c) (Proc.devRef .tc main_arg7) = RW5 m c (Proc.devRef .tc main_arg7) from by
    dsimp only [ops5]; after_results).trans (rat_5_arg7 m c)

theorem rat_6_arg8 : RW6 m c (Proc.devRef .tc main_arg8) = A8 :=
  (show StableHlo.after ops5 (RW5 m c) (Proc.devRef .tc main_arg8) = RW5 m c (Proc.devRef .tc main_arg8) from by
    dsimp only [ops5]; after_results).trans (rat_5_arg8 m c)

theorem rat_6_arg9 : RW6 m c (Proc.devRef .tc main_arg9) = A9 :=
  (show StableHlo.after ops5 (RW5 m c) (Proc.devRef .tc main_arg9) = RW5 m c (Proc.devRef .tc main_arg9) from by
    dsimp only [ops5]; after_results).trans (rat_5_arg9 m c)

theorem rat_6_v1 : RW6 m c (Proc.devRef .tc main_v1) = Cert.ReferenceIdeal.RefValue.src A1 :=
  (show StableHlo.after ops5 (RW5 m c) (Proc.devRef .tc main_v1) = RW5 m c (Proc.devRef .tc main_v1) from by
    dsimp only [ops5]; after_results).trans (rat_5_v1 m c)

theorem rat_6_v3 : RW6 m c (Proc.devRef .tc main_v3) = Cert.ReferenceIdeal.RefValue.dst A1 :=
  (show StableHlo.after ops5 (RW5 m c) (Proc.devRef .tc main_v3) = RW5 m c (Proc.devRef .tc main_v3) from by
    dsimp only [ops5]; after_results).trans (rat_5_v3 m c)

theorem rat_6_v27 : RW6 m c (Proc.devRef .tc main_v27) = Cert.ReferenceIdeal.RefValue.enorm A1 :=
  (show StableHlo.after ops5 (RW5 m c) (Proc.devRef .tc main_v27) = RW5 m c (Proc.devRef .tc main_v27) from by
    dsimp only [ops5]; after_results).trans (rat_5_v27 m c)

theorem rat_6_v12 : RW6 m c (Proc.devRef .tc main_v12) = Cert.ReferenceIdeal.RefValue.dinvVec A1 :=
  (show StableHlo.after ops5 (RW5 m c) (Proc.devRef .tc main_v12) = RW5 m c (Proc.devRef .tc main_v12) from by
    dsimp only [ops5]; after_results).trans (rat_5_v12 m c)

set_option maxHeartbeats 4000000 in
theorem rat_6_v85 : RW6 m c (Proc.devRef .tc main_v85) = Cert.ReferenceIdeal.RefValue.feat1 A0 A1 A4 A5 A6 A7 A8 A9 := by
  show StableHlo.after ops5 (RW5 m c) (Proc.devRef .tc main_v85) = _
  dsimp only [ops5]
  after_results_simp
  rw [rat_5_v12 m c, rat_5_v34 m c, rat_5_v47 m c, rat_5_arg7 m c, rat_5_arg8 m c, rat_5_arg9 m c]
  unfold Cert.ReferenceIdeal.RefValue.feat1 Cert.ReferenceIdeal.RefValue.layerFirst Cert.ReferenceIdeal.RefValue.hostCombine
  refine congrArg₂ maximumf ?_ rfl
  refine congrArg₂ addf (congrArg₂ mulf (congrArg₂ mulf ?_ ?_) ?_) ?_ <;> rfl

end Cert.ReferenceIdeal.RefWalk

end
-- ==== Proof.RefWalkB.lean ====
/-
  The same walk, continued: the second layer's dense product and message passing.
-/
import proofs.«102601_j59450937311581_1_alg».proof.Proof.RefWalkA2
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 7 -/

theorem rat_7_arg0 : RW7 m c (Proc.devRef .tc main_arg0) = A0 :=
  (show StableHlo.after ops6 (RW6 m c) (Proc.devRef .tc main_arg0) = RW6 m c (Proc.devRef .tc main_arg0) from by
    dsimp only [ops6]; after_results).trans (rat_6_arg0 m c)

theorem rat_7_arg1 : RW7 m c (Proc.devRef .tc main_arg1) = A1 :=
  (show StableHlo.after ops6 (RW6 m c) (Proc.devRef .tc main_arg1) = RW6 m c (Proc.devRef .tc main_arg1) from by
    dsimp only [ops6]; after_results).trans (rat_6_arg1 m c)

theorem rat_7_arg2 : RW7 m c (Proc.devRef .tc main_arg2) = A2 :=
  (show StableHlo.after ops6 (RW6 m c) (Proc.devRef .tc main_arg2) = RW6 m c (Proc.devRef .tc main_arg2) from by
    dsimp only [ops6]; after_results).trans (rat_6_arg2 m c)

theorem rat_7_arg3 : RW7 m c (Proc.devRef .tc main_arg3) = A3 :=
  (show StableHlo.after ops6 (RW6 m c) (Proc.devRef .tc main_arg3) = RW6 m c (Proc.devRef .tc main_arg3) from by
    dsimp only [ops6]; after_results).trans (rat_6_arg3 m c)

theorem rat_7_arg4 : RW7 m c (Proc.devRef .tc main_arg4) = A4 :=
  (show StableHlo.after ops6 (RW6 m c) (Proc.devRef .tc main_arg4) = RW6 m c (Proc.devRef .tc main_arg4) from by
    dsimp only [ops6]; after_results).trans (rat_6_arg4 m c)

theorem rat_7_arg5 : RW7 m c (Proc.devRef .tc main_arg5) = A5 :=
  (show StableHlo.after ops6 (RW6 m c) (Proc.devRef .tc main_arg5) = RW6 m c (Proc.devRef .tc main_arg5) from by
    dsimp only [ops6]; after_results).trans (rat_6_arg5 m c)

theorem rat_7_arg6 : RW7 m c (Proc.devRef .tc main_arg6) = A6 :=
  (show StableHlo.after ops6 (RW6 m c) (Proc.devRef .tc main_arg6) = RW6 m c (Proc.devRef .tc main_arg6) from by
    dsimp only [ops6]; after_results).trans (rat_6_arg6 m c)

theorem rat_7_arg7 : RW7 m c (Proc.devRef .tc main_arg7) = A7 :=
  (show StableHlo.after ops6 (RW6 m c) (Proc.devRef .tc main_arg7) = RW6 m c (Proc.devRef .tc main_arg7) from by
    dsimp only [ops6]; after_results).trans (rat_6_arg7 m c)

theorem rat_7_arg8 : RW7 m c (Proc.devRef .tc main_arg8) = A8 :=
  (show StableHlo.after ops6 (RW6 m c) (Proc.devRef .tc main_arg8) = RW6 m c (Proc.devRef .tc main_arg8) from by
    dsimp only [ops6]; after_results).trans (rat_6_arg8 m c)

theorem rat_7_arg9 : RW7 m c (Proc.devRef .tc main_arg9) = A9 :=
  (show StableHlo.after ops6 (RW6 m c) (Proc.devRef .tc main_arg9) = RW6 m c (Proc.devRef .tc main_arg9) from by
    dsimp only [ops6]; after_results).trans (rat_6_arg9 m c)

theorem rat_7_v1 : RW7 m c (Proc.devRef .tc main_v1) = Cert.ReferenceIdeal.RefValue.src A1 :=
  (show StableHlo.after ops6 (RW6 m c) (Proc.devRef .tc main_v1) = RW6 m c (Proc.devRef .tc main_v1) from by
    dsimp only [ops6]; after_results).trans (rat_6_v1 m c)

theorem rat_7_v3 : RW7 m c (Proc.devRef .tc main_v3) = Cert.ReferenceIdeal.RefValue.dst A1 :=
  (show StableHlo.after ops6 (RW6 m c) (Proc.devRef .tc main_v3) = RW6 m c (Proc.devRef .tc main_v3) from by
    dsimp only [ops6]; after_results).trans (rat_6_v3 m c)

theorem rat_7_v27 : RW7 m c (Proc.devRef .tc main_v27) = Cert.ReferenceIdeal.RefValue.enorm A1 :=
  (show StableHlo.after ops6 (RW6 m c) (Proc.devRef .tc main_v27) = RW6 m c (Proc.devRef .tc main_v27) from by
    dsimp only [ops6]; after_results).trans (rat_6_v27 m c)

theorem rat_7_v12 : RW7 m c (Proc.devRef .tc main_v12) = Cert.ReferenceIdeal.RefValue.dinvVec A1 :=
  (show StableHlo.after ops6 (RW6 m c) (Proc.devRef .tc main_v12) = RW6 m c (Proc.devRef .tc main_v12) from by
    dsimp only [ops6]; after_results).trans (rat_6_v12 m c)

theorem rat_7_v85 : RW7 m c (Proc.devRef .tc main_v85) = Cert.ReferenceIdeal.RefValue.feat1 A0 A1 A4 A5 A6 A7 A8 A9 :=
  (show StableHlo.after ops6 (RW6 m c) (Proc.devRef .tc main_v85) = RW6 m c (Proc.devRef .tc main_v85) from by
    dsimp only [ops6]; after_results).trans (rat_6_v85 m c)

set_option maxHeartbeats 4000000 in
theorem rat_7_v87 : RW7 m c (Proc.devRef .tc main_v87) = Cert.ReferenceIdeal.RefValue.w2 A6 := by
  show StableHlo.after ops6 (RW6 m c) (Proc.devRef .tc main_v87) = _
  dsimp only [ops6]
  after_results_simp
  rw [rat_6_arg6 m c]
  rfl

/-! ## Boundary 8 -/

theorem rat_8_arg0 : RW8 m c (Proc.devRef .tc main_arg0) = A0 :=
  (show StableHlo.after ops7 (RW7 m c) (Proc.devRef .tc main_arg0) = RW7 m c (Proc.devRef .tc main_arg0) from by
    dsimp only [ops7]; after_results).trans (rat_7_arg0 m c)

theorem rat_8_arg1 : RW8 m c (Proc.devRef .tc main_arg1) = A1 :=
  (show StableHlo.after ops7 (RW7 m c) (Proc.devRef .tc main_arg1) = RW7 m c (Proc.devRef .tc main_arg1) from by
    dsimp only [ops7]; after_results).trans (rat_7_arg1 m c)

theorem rat_8_arg2 : RW8 m c (Proc.devRef .tc main_arg2) = A2 :=
  (show StableHlo.after ops7 (RW7 m c) (Proc.devRef .tc main_arg2) = RW7 m c (Proc.devRef .tc main_arg2) from by
    dsimp only [ops7]; after_results).trans (rat_7_arg2 m c)

theorem rat_8_arg3 : RW8 m c (Proc.devRef .tc main_arg3) = A3 :=
  (show StableHlo.after ops7 (RW7 m c) (Proc.devRef .tc main_arg3) = RW7 m c (Proc.devRef .tc main_arg3) from by
    dsimp only [ops7]; after_results).trans (rat_7_arg3 m c)

theorem rat_8_arg4 : RW8 m c (Proc.devRef .tc main_arg4) = A4 :=
  (show StableHlo.after ops7 (RW7 m c) (Proc.devRef .tc main_arg4) = RW7 m c (Proc.devRef .tc main_arg4) from by
    dsimp only [ops7]; after_results).trans (rat_7_arg4 m c)

theorem rat_8_arg5 : RW8 m c (Proc.devRef .tc main_arg5) = A5 :=
  (show StableHlo.after ops7 (RW7 m c) (Proc.devRef .tc main_arg5) = RW7 m c (Proc.devRef .tc main_arg5) from by
    dsimp only [ops7]; after_results).trans (rat_7_arg5 m c)

theorem rat_8_arg6 : RW8 m c (Proc.devRef .tc main_arg6) = A6 :=
  (show StableHlo.after ops7 (RW7 m c) (Proc.devRef .tc main_arg6) = RW7 m c (Proc.devRef .tc main_arg6) from by
    dsimp only [ops7]; after_results).trans (rat_7_arg6 m c)

theorem rat_8_arg7 : RW8 m c (Proc.devRef .tc main_arg7) = A7 :=
  (show StableHlo.after ops7 (RW7 m c) (Proc.devRef .tc main_arg7) = RW7 m c (Proc.devRef .tc main_arg7) from by
    dsimp only [ops7]; after_results).trans (rat_7_arg7 m c)

theorem rat_8_arg8 : RW8 m c (Proc.devRef .tc main_arg8) = A8 :=
  (show StableHlo.after ops7 (RW7 m c) (Proc.devRef .tc main_arg8) = RW7 m c (Proc.devRef .tc main_arg8) from by
    dsimp only [ops7]; after_results).trans (rat_7_arg8 m c)

theorem rat_8_arg9 : RW8 m c (Proc.devRef .tc main_arg9) = A9 :=
  (show StableHlo.after ops7 (RW7 m c) (Proc.devRef .tc main_arg9) = RW7 m c (Proc.devRef .tc main_arg9) from by
    dsimp only [ops7]; after_results).trans (rat_7_arg9 m c)

theorem rat_8_v1 : RW8 m c (Proc.devRef .tc main_v1) = Cert.ReferenceIdeal.RefValue.src A1 :=
  (show StableHlo.after ops7 (RW7 m c) (Proc.devRef .tc main_v1) = RW7 m c (Proc.devRef .tc main_v1) from by
    dsimp only [ops7]; after_results).trans (rat_7_v1 m c)

theorem rat_8_v3 : RW8 m c (Proc.devRef .tc main_v3) = Cert.ReferenceIdeal.RefValue.dst A1 :=
  (show StableHlo.after ops7 (RW7 m c) (Proc.devRef .tc main_v3) = RW7 m c (Proc.devRef .tc main_v3) from by
    dsimp only [ops7]; after_results).trans (rat_7_v3 m c)

theorem rat_8_v27 : RW8 m c (Proc.devRef .tc main_v27) = Cert.ReferenceIdeal.RefValue.enorm A1 :=
  (show StableHlo.after ops7 (RW7 m c) (Proc.devRef .tc main_v27) = RW7 m c (Proc.devRef .tc main_v27) from by
    dsimp only [ops7]; after_results).trans (rat_7_v27 m c)

theorem rat_8_v12 : RW8 m c (Proc.devRef .tc main_v12) = Cert.ReferenceIdeal.RefValue.dinvVec A1 :=
  (show StableHlo.after ops7 (RW7 m c) (Proc.devRef .tc main_v12) = RW7 m c (Proc.devRef .tc main_v12) from by
    dsimp only [ops7]; after_results).trans (rat_7_v12 m c)

theorem rat_8_v85 : RW8 m c (Proc.devRef .tc main_v85) = Cert.ReferenceIdeal.RefValue.feat1 A0 A1 A4 A5 A6 A7 A8 A9 :=
  (show StableHlo.after ops7 (RW7 m c) (Proc.devRef .tc main_v85) = RW7 m c (Proc.devRef .tc main_v85) from by
    dsimp only [ops7]; after_results).trans (rat_7_v85 m c)

set_option maxHeartbeats 4000000 in
theorem rat_8_v88 : RW8 m c (Proc.devRef .tc main_v88) = Cert.ReferenceIdeal.RefValue.dense (Cert.ReferenceIdeal.RefValue.feat1 A0 A1 A4 A5 A6 A7 A8 A9) (Cert.ReferenceIdeal.RefValue.w2 A6) := by
  show StableHlo.after ops7 (RW7 m c) (Proc.devRef .tc main_v88) = _
  dsimp only [ops7]
  after_results_simp
  rw [rat_7_v85 m c, rat_7_v87 m c]
  rfl

/-! ## Boundary 9 -/

theorem rat_9_arg0 : RW9 m c (Proc.devRef .tc main_arg0) = A0 :=
  (show StableHlo.after ops8 (RW8 m c) (Proc.devRef .tc main_arg0) = RW8 m c (Proc.devRef .tc main_arg0) from by
    dsimp only [ops8]; after_results).trans (rat_8_arg0 m c)

theorem rat_9_arg1 : RW9 m c (Proc.devRef .tc main_arg1) = A1 :=
  (show StableHlo.after ops8 (RW8 m c) (Proc.devRef .tc main_arg1) = RW8 m c (Proc.devRef .tc main_arg1) from by
    dsimp only [ops8]; after_results).trans (rat_8_arg1 m c)

theorem rat_9_arg2 : RW9 m c (Proc.devRef .tc main_arg2) = A2 :=
  (show StableHlo.after ops8 (RW8 m c) (Proc.devRef .tc main_arg2) = RW8 m c (Proc.devRef .tc main_arg2) from by
    dsimp only [ops8]; after_results).trans (rat_8_arg2 m c)

theorem rat_9_arg3 : RW9 m c (Proc.devRef .tc main_arg3) = A3 :=
  (show StableHlo.after ops8 (RW8 m c) (Proc.devRef .tc main_arg3) = RW8 m c (Proc.devRef .tc main_arg3) from by
    dsimp only [ops8]; after_results).trans (rat_8_arg3 m c)

theorem rat_9_arg4 : RW9 m c (Proc.devRef .tc main_arg4) = A4 :=
  (show StableHlo.after ops8 (RW8 m c) (Proc.devRef .tc main_arg4) = RW8 m c (Proc.devRef .tc main_arg4) from by
    dsimp only [ops8]; after_results).trans (rat_8_arg4 m c)

theorem rat_9_arg5 : RW9 m c (Proc.devRef .tc main_arg5) = A5 :=
  (show StableHlo.after ops8 (RW8 m c) (Proc.devRef .tc main_arg5) = RW8 m c (Proc.devRef .tc main_arg5) from by
    dsimp only [ops8]; after_results).trans (rat_8_arg5 m c)

theorem rat_9_arg6 : RW9 m c (Proc.devRef .tc main_arg6) = A6 :=
  (show StableHlo.after ops8 (RW8 m c) (Proc.devRef .tc main_arg6) = RW8 m c (Proc.devRef .tc main_arg6) from by
    dsimp only [ops8]; after_results).trans (rat_8_arg6 m c)

theorem rat_9_arg7 : RW9 m c (Proc.devRef .tc main_arg7) = A7 :=
  (show StableHlo.after ops8 (RW8 m c) (Proc.devRef .tc main_arg7) = RW8 m c (Proc.devRef .tc main_arg7) from by
    dsimp only [ops8]; after_results).trans (rat_8_arg7 m c)

theorem rat_9_arg8 : RW9 m c (Proc.devRef .tc main_arg8) = A8 :=
  (show StableHlo.after ops8 (RW8 m c) (Proc.devRef .tc main_arg8) = RW8 m c (Proc.devRef .tc main_arg8) from by
    dsimp only [ops8]; after_results).trans (rat_8_arg8 m c)

theorem rat_9_arg9 : RW9 m c (Proc.devRef .tc main_arg9) = A9 :=
  (show StableHlo.after ops8 (RW8 m c) (Proc.devRef .tc main_arg9) = RW8 m c (Proc.devRef .tc main_arg9) from by
    dsimp only [ops8]; after_results).trans (rat_8_arg9 m c)

theorem rat_9_v1 : RW9 m c (Proc.devRef .tc main_v1) = Cert.ReferenceIdeal.RefValue.src A1 :=
  (show StableHlo.after ops8 (RW8 m c) (Proc.devRef .tc main_v1) = RW8 m c (Proc.devRef .tc main_v1) from by
    dsimp only [ops8]; after_results).trans (rat_8_v1 m c)

theorem rat_9_v3 : RW9 m c (Proc.devRef .tc main_v3) = Cert.ReferenceIdeal.RefValue.dst A1 :=
  (show StableHlo.after ops8 (RW8 m c) (Proc.devRef .tc main_v3) = RW8 m c (Proc.devRef .tc main_v3) from by
    dsimp only [ops8]; after_results).trans (rat_8_v3 m c)

theorem rat_9_v27 : RW9 m c (Proc.devRef .tc main_v27) = Cert.ReferenceIdeal.RefValue.enorm A1 :=
  (show StableHlo.after ops8 (RW8 m c) (Proc.devRef .tc main_v27) = RW8 m c (Proc.devRef .tc main_v27) from by
    dsimp only [ops8]; after_results).trans (rat_8_v27 m c)

theorem rat_9_v12 : RW9 m c (Proc.devRef .tc main_v12) = Cert.ReferenceIdeal.RefValue.dinvVec A1 :=
  (show StableHlo.after ops8 (RW8 m c) (Proc.devRef .tc main_v12) = RW8 m c (Proc.devRef .tc main_v12) from by
    dsimp only [ops8]; after_results).trans (rat_8_v12 m c)

theorem rat_9_v85 : RW9 m c (Proc.devRef .tc main_v85) = Cert.ReferenceIdeal.RefValue.feat1 A0 A1 A4 A5 A6 A7 A8 A9 :=
  (show StableHlo.after ops8 (RW8 m c) (Proc.devRef .tc main_v85) = RW8 m c (Proc.devRef .tc main_v85) from by
    dsimp only [ops8]; after_results).trans (rat_8_v85 m c)

theorem rat_9_v88 : RW9 m c (Proc.devRef .tc main_v88) = Cert.ReferenceIdeal.RefValue.dense (Cert.ReferenceIdeal.RefValue.feat1 A0 A1 A4 A5 A6 A7 A8 A9) (Cert.ReferenceIdeal.RefValue.w2 A6) :=
  (show StableHlo.after ops8 (RW8 m c) (Proc.devRef .tc main_v88) = RW8 m c (Proc.devRef .tc main_v88) from by
    dsimp only [ops8]; after_results).trans (rat_8_v88 m c)

set_option maxHeartbeats 4000000 in
theorem rat_9_v101 : RW9 m c (Proc.devRef .tc main_v101) = Cert.ReferenceIdeal.RefValue.agg A1 (Cert.ReferenceIdeal.RefValue.dense (Cert.ReferenceIdeal.RefValue.feat1 A0 A1 A4 A5 A6 A7 A8 A9) (Cert.ReferenceIdeal.RefValue.w2 A6)) := by
  show StableHlo.after ops8 (RW8 m c) (Proc.devRef .tc main_v101) = _
  dsimp only [ops8]
  after_results_simp
  rw [rat_8_v1 m c, rat_8_v88 m c, rat_8_v27 m c, rat_8_v3 m c]
  rfl

end Cert.ReferenceIdeal.RefWalk

end
-- ==== Proof.RefWalkB2.lean ====
/-
  The same walk, continued: the second layer's combine step.
-/
import proofs.«102601_j59450937311581_1_alg».proof.Proof.RefWalkB
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 10 -/

theorem rat_10_arg0 : RW10 m c (Proc.devRef .tc main_arg0) = A0 :=
  (show StableHlo.after ops9 (RW9 m c) (Proc.devRef .tc main_arg0) = RW9 m c (Proc.devRef .tc main_arg0) from by
    dsimp only [ops9]; after_results).trans (rat_9_arg0 m c)

theorem rat_10_arg1 : RW10 m c (Proc.devRef .tc main_arg1) = A1 :=
  (show StableHlo.after ops9 (RW9 m c) (Proc.devRef .tc main_arg1) = RW9 m c (Proc.devRef .tc main_arg1) from by
    dsimp only [ops9]; after_results).trans (rat_9_arg1 m c)

theorem rat_10_arg2 : RW10 m c (Proc.devRef .tc main_arg2) = A2 :=
  (show StableHlo.after ops9 (RW9 m c) (Proc.devRef .tc main_arg2) = RW9 m c (Proc.devRef .tc main_arg2) from by
    dsimp only [ops9]; after_results).trans (rat_9_arg2 m c)

theorem rat_10_arg3 : RW10 m c (Proc.devRef .tc main_arg3) = A3 :=
  (show StableHlo.after ops9 (RW9 m c) (Proc.devRef .tc main_arg3) = RW9 m c (Proc.devRef .tc main_arg3) from by
    dsimp only [ops9]; after_results).trans (rat_9_arg3 m c)

theorem rat_10_arg4 : RW10 m c (Proc.devRef .tc main_arg4) = A4 :=
  (show StableHlo.after ops9 (RW9 m c) (Proc.devRef .tc main_arg4) = RW9 m c (Proc.devRef .tc main_arg4) from by
    dsimp only [ops9]; after_results).trans (rat_9_arg4 m c)

theorem rat_10_arg5 : RW10 m c (Proc.devRef .tc main_arg5) = A5 :=
  (show StableHlo.after ops9 (RW9 m c) (Proc.devRef .tc main_arg5) = RW9 m c (Proc.devRef .tc main_arg5) from by
    dsimp only [ops9]; after_results).trans (rat_9_arg5 m c)

theorem rat_10_arg6 : RW10 m c (Proc.devRef .tc main_arg6) = A6 :=
  (show StableHlo.after ops9 (RW9 m c) (Proc.devRef .tc main_arg6) = RW9 m c (Proc.devRef .tc main_arg6) from by
    dsimp only [ops9]; after_results).trans (rat_9_arg6 m c)

theorem rat_10_arg7 : RW10 m c (Proc.devRef .tc main_arg7) = A7 :=
  (show StableHlo.after ops9 (RW9 m c) (Proc.devRef .tc main_arg7) = RW9 m c (Proc.devRef .tc main_arg7) from by
    dsimp only [ops9]; after_results).trans (rat_9_arg7 m c)

theorem rat_10_arg8 : RW10 m c (Proc.devRef .tc main_arg8) = A8 :=
  (show StableHlo.after ops9 (RW9 m c) (Proc.devRef .tc main_arg8) = RW9 m c (Proc.devRef .tc main_arg8) from by
    dsimp only [ops9]; after_results).trans (rat_9_arg8 m c)

theorem rat_10_arg9 : RW10 m c (Proc.devRef .tc main_arg9) = A9 :=
  (show StableHlo.after ops9 (RW9 m c) (Proc.devRef .tc main_arg9) = RW9 m c (Proc.devRef .tc main_arg9) from by
    dsimp only [ops9]; after_results).trans (rat_9_arg9 m c)

theorem rat_10_v1 : RW10 m c (Proc.devRef .tc main_v1) = Cert.ReferenceIdeal.RefValue.src A1 :=
  (show StableHlo.after ops9 (RW9 m c) (Proc.devRef .tc main_v1) = RW9 m c (Proc.devRef .tc main_v1) from by
    dsimp only [ops9]; after_results).trans (rat_9_v1 m c)

theorem rat_10_v3 : RW10 m c (Proc.devRef .tc main_v3) = Cert.ReferenceIdeal.RefValue.dst A1 :=
  (show StableHlo.after ops9 (RW9 m c) (Proc.devRef .tc main_v3) = RW9 m c (Proc.devRef .tc main_v3) from by
    dsimp only [ops9]; after_results).trans (rat_9_v3 m c)

theorem rat_10_v27 : RW10 m c (Proc.devRef .tc main_v27) = Cert.ReferenceIdeal.RefValue.enorm A1 :=
  (show StableHlo.after ops9 (RW9 m c) (Proc.devRef .tc main_v27) = RW9 m c (Proc.devRef .tc main_v27) from by
    dsimp only [ops9]; after_results).trans (rat_9_v27 m c)

theorem rat_10_v12 : RW10 m c (Proc.devRef .tc main_v12) = Cert.ReferenceIdeal.RefValue.dinvVec A1 :=
  (show StableHlo.after ops9 (RW9 m c) (Proc.devRef .tc main_v12) = RW9 m c (Proc.devRef .tc main_v12) from by
    dsimp only [ops9]; after_results).trans (rat_9_v12 m c)

set_option maxHeartbeats 4000000 in
theorem rat_10_v140 : RW10 m c (Proc.devRef .tc main_v140) = Cert.ReferenceIdeal.RefValue.feat2 A0 A1 A4 A5 A6 A7 A8 A9 := by
  show StableHlo.after ops9 (RW9 m c) (Proc.devRef .tc main_v140) = _
  dsimp only [ops9]
  after_results_simp
  rw [rat_9_v12 m c, rat_9_v88 m c, rat_9_v101 m c, rat_9_arg7 m c, rat_9_arg8 m c, rat_9_arg9 m c, rat_9_v85 m c]
  unfold Cert.ReferenceIdeal.RefValue.feat2 Cert.ReferenceIdeal.RefValue.layerNext Cert.ReferenceIdeal.RefValue.layerFirst Cert.ReferenceIdeal.RefValue.hostCombine
  refine congrArg₂ addf ?_ rfl
  refine congrArg₂ maximumf ?_ rfl
  refine congrArg₂ addf (congrArg₂ mulf (congrArg₂ mulf ?_ ?_) ?_) ?_ <;> rfl

end Cert.ReferenceIdeal.RefWalk

end
-- ==== Proof.RefWalkC.lean ====
/-
  The same walk, continued: the third layer's dense product and message passing.
-/
import proofs.«102601_j59450937311581_1_alg».proof.Proof.RefWalkB2
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 11 -/

theorem rat_11_arg0 : RW11 m c (Proc.devRef .tc main_arg0) = A0 :=
  (show StableHlo.after ops10 (RW10 m c) (Proc.devRef .tc main_arg0) = RW10 m c (Proc.devRef .tc main_arg0) from by
    dsimp only [ops10]; after_results).trans (rat_10_arg0 m c)

theorem rat_11_arg1 : RW11 m c (Proc.devRef .tc main_arg1) = A1 :=
  (show StableHlo.after ops10 (RW10 m c) (Proc.devRef .tc main_arg1) = RW10 m c (Proc.devRef .tc main_arg1) from by
    dsimp only [ops10]; after_results).trans (rat_10_arg1 m c)

theorem rat_11_arg2 : RW11 m c (Proc.devRef .tc main_arg2) = A2 :=
  (show StableHlo.after ops10 (RW10 m c) (Proc.devRef .tc main_arg2) = RW10 m c (Proc.devRef .tc main_arg2) from by
    dsimp only [ops10]; after_results).trans (rat_10_arg2 m c)

theorem rat_11_arg3 : RW11 m c (Proc.devRef .tc main_arg3) = A3 :=
  (show StableHlo.after ops10 (RW10 m c) (Proc.devRef .tc main_arg3) = RW10 m c (Proc.devRef .tc main_arg3) from by
    dsimp only [ops10]; after_results).trans (rat_10_arg3 m c)

theorem rat_11_arg4 : RW11 m c (Proc.devRef .tc main_arg4) = A4 :=
  (show StableHlo.after ops10 (RW10 m c) (Proc.devRef .tc main_arg4) = RW10 m c (Proc.devRef .tc main_arg4) from by
    dsimp only [ops10]; after_results).trans (rat_10_arg4 m c)

theorem rat_11_arg5 : RW11 m c (Proc.devRef .tc main_arg5) = A5 :=
  (show StableHlo.after ops10 (RW10 m c) (Proc.devRef .tc main_arg5) = RW10 m c (Proc.devRef .tc main_arg5) from by
    dsimp only [ops10]; after_results).trans (rat_10_arg5 m c)

theorem rat_11_arg6 : RW11 m c (Proc.devRef .tc main_arg6) = A6 :=
  (show StableHlo.after ops10 (RW10 m c) (Proc.devRef .tc main_arg6) = RW10 m c (Proc.devRef .tc main_arg6) from by
    dsimp only [ops10]; after_results).trans (rat_10_arg6 m c)

theorem rat_11_arg7 : RW11 m c (Proc.devRef .tc main_arg7) = A7 :=
  (show StableHlo.after ops10 (RW10 m c) (Proc.devRef .tc main_arg7) = RW10 m c (Proc.devRef .tc main_arg7) from by
    dsimp only [ops10]; after_results).trans (rat_10_arg7 m c)

theorem rat_11_arg8 : RW11 m c (Proc.devRef .tc main_arg8) = A8 :=
  (show StableHlo.after ops10 (RW10 m c) (Proc.devRef .tc main_arg8) = RW10 m c (Proc.devRef .tc main_arg8) from by
    dsimp only [ops10]; after_results).trans (rat_10_arg8 m c)

theorem rat_11_arg9 : RW11 m c (Proc.devRef .tc main_arg9) = A9 :=
  (show StableHlo.after ops10 (RW10 m c) (Proc.devRef .tc main_arg9) = RW10 m c (Proc.devRef .tc main_arg9) from by
    dsimp only [ops10]; after_results).trans (rat_10_arg9 m c)

theorem rat_11_v1 : RW11 m c (Proc.devRef .tc main_v1) = Cert.ReferenceIdeal.RefValue.src A1 :=
  (show StableHlo.after ops10 (RW10 m c) (Proc.devRef .tc main_v1) = RW10 m c (Proc.devRef .tc main_v1) from by
    dsimp only [ops10]; after_results).trans (rat_10_v1 m c)

theorem rat_11_v3 : RW11 m c (Proc.devRef .tc main_v3) = Cert.ReferenceIdeal.RefValue.dst A1 :=
  (show StableHlo.after ops10 (RW10 m c) (Proc.devRef .tc main_v3) = RW10 m c (Proc.devRef .tc main_v3) from by
    dsimp only [ops10]; after_results).trans (rat_10_v3 m c)

theorem rat_11_v27 : RW11 m c (Proc.devRef .tc main_v27) = Cert.ReferenceIdeal.RefValue.enorm A1 :=
  (show StableHlo.after ops10 (RW10 m c) (Proc.devRef .tc main_v27) = RW10 m c (Proc.devRef .tc main_v27) from by
    dsimp only [ops10]; after_results).trans (rat_10_v27 m c)

theorem rat_11_v12 : RW11 m c (Proc.devRef .tc main_v12) = Cert.ReferenceIdeal.RefValue.dinvVec A1 :=
  (show StableHlo.after ops10 (RW10 m c) (Proc.devRef .tc main_v12) = RW10 m c (Proc.devRef .tc main_v12) from by
    dsimp only [ops10]; after_results).trans (rat_10_v12 m c)

theorem rat_11_v140 : RW11 m c (Proc.devRef .tc main_v140) = Cert.ReferenceIdeal.RefValue.feat2 A0 A1 A4 A5 A6 A7 A8 A9 :=
  (show StableHlo.after ops10 (RW10 m c) (Proc.devRef .tc main_v140) = RW10 m c (Proc.devRef .tc main_v140) from by
    dsimp only [ops10]; after_results).trans (rat_10_v140 m c)

set_option maxHeartbeats 4000000 in
theorem rat_11_v142 : RW11 m c (Proc.devRef .tc main_v142) = Cert.ReferenceIdeal.RefValue.w3 A6 := by
  show StableHlo.after ops10 (RW10 m c) (Proc.devRef .tc main_v142) = _
  dsimp only [ops10]
  after_results_simp
  rw [rat_10_arg6 m c]
  rfl

/-! ## Boundary 12 -/

theorem rat_12_arg0 : RW12 m c (Proc.devRef .tc main_arg0) = A0 :=
  (show StableHlo.after ops11 (RW11 m c) (Proc.devRef .tc main_arg0) = RW11 m c (Proc.devRef .tc main_arg0) from by
    dsimp only [ops11]; after_results).trans (rat_11_arg0 m c)

theorem rat_12_arg1 : RW12 m c (Proc.devRef .tc main_arg1) = A1 :=
  (show StableHlo.after ops11 (RW11 m c) (Proc.devRef .tc main_arg1) = RW11 m c (Proc.devRef .tc main_arg1) from by
    dsimp only [ops11]; after_results).trans (rat_11_arg1 m c)

theorem rat_12_arg2 : RW12 m c (Proc.devRef .tc main_arg2) = A2 :=
  (show StableHlo.after ops11 (RW11 m c) (Proc.devRef .tc main_arg2) = RW11 m c (Proc.devRef .tc main_arg2) from by
    dsimp only [ops11]; after_results).trans (rat_11_arg2 m c)

theorem rat_12_arg3 : RW12 m c (Proc.devRef .tc main_arg3) = A3 :=
  (show StableHlo.after ops11 (RW11 m c) (Proc.devRef .tc main_arg3) = RW11 m c (Proc.devRef .tc main_arg3) from by
    dsimp only [ops11]; after_results).trans (rat_11_arg3 m c)

theorem rat_12_arg4 : RW12 m c (Proc.devRef .tc main_arg4) = A4 :=
  (show StableHlo.after ops11 (RW11 m c) (Proc.devRef .tc main_arg4) = RW11 m c (Proc.devRef .tc main_arg4) from by
    dsimp only [ops11]; after_results).trans (rat_11_arg4 m c)

theorem rat_12_arg5 : RW12 m c (Proc.devRef .tc main_arg5) = A5 :=
  (show StableHlo.after ops11 (RW11 m c) (Proc.devRef .tc main_arg5) = RW11 m c (Proc.devRef .tc main_arg5) from by
    dsimp only [ops11]; after_results).trans (rat_11_arg5 m c)

theorem rat_12_arg6 : RW12 m c (Proc.devRef .tc main_arg6) = A6 :=
  (show StableHlo.after ops11 (RW11 m c) (Proc.devRef .tc main_arg6) = RW11 m c (Proc.devRef .tc main_arg6) from by
    dsimp only [ops11]; after_results).trans (rat_11_arg6 m c)

theorem rat_12_arg7 : RW12 m c (Proc.devRef .tc main_arg7) = A7 :=
  (show StableHlo.after ops11 (RW11 m c) (Proc.devRef .tc main_arg7) = RW11 m c (Proc.devRef .tc main_arg7) from by
    dsimp only [ops11]; after_results).trans (rat_11_arg7 m c)

theorem rat_12_arg8 : RW12 m c (Proc.devRef .tc main_arg8) = A8 :=
  (show StableHlo.after ops11 (RW11 m c) (Proc.devRef .tc main_arg8) = RW11 m c (Proc.devRef .tc main_arg8) from by
    dsimp only [ops11]; after_results).trans (rat_11_arg8 m c)

theorem rat_12_arg9 : RW12 m c (Proc.devRef .tc main_arg9) = A9 :=
  (show StableHlo.after ops11 (RW11 m c) (Proc.devRef .tc main_arg9) = RW11 m c (Proc.devRef .tc main_arg9) from by
    dsimp only [ops11]; after_results).trans (rat_11_arg9 m c)

theorem rat_12_v1 : RW12 m c (Proc.devRef .tc main_v1) = Cert.ReferenceIdeal.RefValue.src A1 :=
  (show StableHlo.after ops11 (RW11 m c) (Proc.devRef .tc main_v1) = RW11 m c (Proc.devRef .tc main_v1) from by
    dsimp only [ops11]; after_results).trans (rat_11_v1 m c)

theorem rat_12_v3 : RW12 m c (Proc.devRef .tc main_v3) = Cert.ReferenceIdeal.RefValue.dst A1 :=
  (show StableHlo.after ops11 (RW11 m c) (Proc.devRef .tc main_v3) = RW11 m c (Proc.devRef .tc main_v3) from by
    dsimp only [ops11]; after_results).trans (rat_11_v3 m c)

theorem rat_12_v27 : RW12 m c (Proc.devRef .tc main_v27) = Cert.ReferenceIdeal.RefValue.enorm A1 :=
  (show StableHlo.after ops11 (RW11 m c) (Proc.devRef .tc main_v27) = RW11 m c (Proc.devRef .tc main_v27) from by
    dsimp only [ops11]; after_results).trans (rat_11_v27 m c)

theorem rat_12_v12 : RW12 m c (Proc.devRef .tc main_v12) = Cert.ReferenceIdeal.RefValue.dinvVec A1 :=
  (show StableHlo.after ops11 (RW11 m c) (Proc.devRef .tc main_v12) = RW11 m c (Proc.devRef .tc main_v12) from by
    dsimp only [ops11]; after_results).trans (rat_11_v12 m c)

theorem rat_12_v140 : RW12 m c (Proc.devRef .tc main_v140) = Cert.ReferenceIdeal.RefValue.feat2 A0 A1 A4 A5 A6 A7 A8 A9 :=
  (show StableHlo.after ops11 (RW11 m c) (Proc.devRef .tc main_v140) = RW11 m c (Proc.devRef .tc main_v140) from by
    dsimp only [ops11]; after_results).trans (rat_11_v140 m c)

set_option maxHeartbeats 4000000 in
theorem rat_12_v143 : RW12 m c (Proc.devRef .tc main_v143) = Cert.ReferenceIdeal.RefValue.dense (Cert.ReferenceIdeal.RefValue.feat2 A0 A1 A4 A5 A6 A7 A8 A9) (Cert.ReferenceIdeal.RefValue.w3 A6) := by
  show StableHlo.after ops11 (RW11 m c) (Proc.devRef .tc main_v143) = _
  dsimp only [ops11]
  after_results_simp
  rw [rat_11_v140 m c, rat_11_v142 m c]
  rfl

/-! ## Boundary 13 -/

theorem rat_13_arg0 : RW13 m c (Proc.devRef .tc main_arg0) = A0 :=
  (show StableHlo.after ops12 (RW12 m c) (Proc.devRef .tc main_arg0) = RW12 m c (Proc.devRef .tc main_arg0) from by
    dsimp only [ops12]; after_results).trans (rat_12_arg0 m c)

theorem rat_13_arg1 : RW13 m c (Proc.devRef .tc main_arg1) = A1 :=
  (show StableHlo.after ops12 (RW12 m c) (Proc.devRef .tc main_arg1) = RW12 m c (Proc.devRef .tc main_arg1) from by
    dsimp only [ops12]; after_results).trans (rat_12_arg1 m c)

theorem rat_13_arg2 : RW13 m c (Proc.devRef .tc main_arg2) = A2 :=
  (show StableHlo.after ops12 (RW12 m c) (Proc.devRef .tc main_arg2) = RW12 m c (Proc.devRef .tc main_arg2) from by
    dsimp only [ops12]; after_results).trans (rat_12_arg2 m c)

theorem rat_13_arg3 : RW13 m c (Proc.devRef .tc main_arg3) = A3 :=
  (show StableHlo.after ops12 (RW12 m c) (Proc.devRef .tc main_arg3) = RW12 m c (Proc.devRef .tc main_arg3) from by
    dsimp only [ops12]; after_results).trans (rat_12_arg3 m c)

theorem rat_13_arg4 : RW13 m c (Proc.devRef .tc main_arg4) = A4 :=
  (show StableHlo.after ops12 (RW12 m c) (Proc.devRef .tc main_arg4) = RW12 m c (Proc.devRef .tc main_arg4) from by
    dsimp only [ops12]; after_results).trans (rat_12_arg4 m c)

theorem rat_13_arg5 : RW13 m c (Proc.devRef .tc main_arg5) = A5 :=
  (show StableHlo.after ops12 (RW12 m c) (Proc.devRef .tc main_arg5) = RW12 m c (Proc.devRef .tc main_arg5) from by
    dsimp only [ops12]; after_results).trans (rat_12_arg5 m c)

theorem rat_13_arg6 : RW13 m c (Proc.devRef .tc main_arg6) = A6 :=
  (show StableHlo.after ops12 (RW12 m c) (Proc.devRef .tc main_arg6) = RW12 m c (Proc.devRef .tc main_arg6) from by
    dsimp only [ops12]; after_results).trans (rat_12_arg6 m c)

theorem rat_13_arg7 : RW13 m c (Proc.devRef .tc main_arg7) = A7 :=
  (show StableHlo.after ops12 (RW12 m c) (Proc.devRef .tc main_arg7) = RW12 m c (Proc.devRef .tc main_arg7) from by
    dsimp only [ops12]; after_results).trans (rat_12_arg7 m c)

theorem rat_13_arg8 : RW13 m c (Proc.devRef .tc main_arg8) = A8 :=
  (show StableHlo.after ops12 (RW12 m c) (Proc.devRef .tc main_arg8) = RW12 m c (Proc.devRef .tc main_arg8) from by
    dsimp only [ops12]; after_results).trans (rat_12_arg8 m c)

theorem rat_13_arg9 : RW13 m c (Proc.devRef .tc main_arg9) = A9 :=
  (show StableHlo.after ops12 (RW12 m c) (Proc.devRef .tc main_arg9) = RW12 m c (Proc.devRef .tc main_arg9) from by
    dsimp only [ops12]; after_results).trans (rat_12_arg9 m c)

theorem rat_13_v12 : RW13 m c (Proc.devRef .tc main_v12) = Cert.ReferenceIdeal.RefValue.dinvVec A1 :=
  (show StableHlo.after ops12 (RW12 m c) (Proc.devRef .tc main_v12) = RW12 m c (Proc.devRef .tc main_v12) from by
    dsimp only [ops12]; after_results).trans (rat_12_v12 m c)

theorem rat_13_v140 : RW13 m c (Proc.devRef .tc main_v140) = Cert.ReferenceIdeal.RefValue.feat2 A0 A1 A4 A5 A6 A7 A8 A9 :=
  (show StableHlo.after ops12 (RW12 m c) (Proc.devRef .tc main_v140) = RW12 m c (Proc.devRef .tc main_v140) from by
    dsimp only [ops12]; after_results).trans (rat_12_v140 m c)

theorem rat_13_v143 : RW13 m c (Proc.devRef .tc main_v143) = Cert.ReferenceIdeal.RefValue.dense (Cert.ReferenceIdeal.RefValue.feat2 A0 A1 A4 A5 A6 A7 A8 A9) (Cert.ReferenceIdeal.RefValue.w3 A6) :=
  (show StableHlo.after ops12 (RW12 m c) (Proc.devRef .tc main_v143) = RW12 m c (Proc.devRef .tc main_v143) from by
    dsimp only [ops12]; after_results).trans (rat_12_v143 m c)

set_option maxHeartbeats 4000000 in
theorem rat_13_v156 : RW13 m c (Proc.devRef .tc main_v156) = Cert.ReferenceIdeal.RefValue.agg A1 (Cert.ReferenceIdeal.RefValue.dense (Cert.ReferenceIdeal.RefValue.feat2 A0 A1 A4 A5 A6 A7 A8 A9) (Cert.ReferenceIdeal.RefValue.w3 A6)) := by
  show StableHlo.after ops12 (RW12 m c) (Proc.devRef .tc main_v156) = _
  dsimp only [ops12]
  after_results_simp
  rw [rat_12_v1 m c, rat_12_v143 m c, rat_12_v27 m c, rat_12_v3 m c]
  rfl

end Cert.ReferenceIdeal.RefWalk

end
-- ==== Proof.RefWalkC2.lean ====
/-
  The same walk, finished: the third layer's combine step and the per-graph mean pool.  The last lemmas are the
  program's two results and its arguments, unchanged.
-/
import proofs.«102601_j59450937311581_1_alg».proof.Proof.RefWalkC
import Idealize.ShloMosaic.Lib.StableHlo.Run
import Idealize.ShloMosaic.PureOps.Ideal

set_option maxRecDepth 16384
set_option quotPrecheck false

noncomputable section

namespace Cert.ReferenceIdeal.RefWalk

open Cert.ReferenceIdeal Cert.ReferenceIdeal.Gen Cert.ReferenceIdeal.RefRun
open Idealize.ShloMosaic Idealize.ShloMosaic.TcCoe Idealize.ShloMosaic.StableHlo Idealize.SL.Sem

variable (m : (ℓ : Loc nD τ sig) → Buf (Elt Ideal) ℓ) (c : Dev nD)

local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))

/-! ## Boundary 14 -/

theorem rat_14_arg0 : RW14 m c (Proc.devRef .tc main_arg0) = A0 :=
  (show StableHlo.after ops13 (RW13 m c) (Proc.devRef .tc main_arg0) = RW13 m c (Proc.devRef .tc main_arg0) from by
    dsimp only [ops13]; after_results).trans (rat_13_arg0 m c)

theorem rat_14_arg1 : RW14 m c (Proc.devRef .tc main_arg1) = A1 :=
  (show StableHlo.after ops13 (RW13 m c) (Proc.devRef .tc main_arg1) = RW13 m c (Proc.devRef .tc main_arg1) from by
    dsimp only [ops13]; after_results).trans (rat_13_arg1 m c)

theorem rat_14_arg2 : RW14 m c (Proc.devRef .tc main_arg2) = A2 :=
  (show StableHlo.after ops13 (RW13 m c) (Proc.devRef .tc main_arg2) = RW13 m c (Proc.devRef .tc main_arg2) from by
    dsimp only [ops13]; after_results).trans (rat_13_arg2 m c)

theorem rat_14_arg3 : RW14 m c (Proc.devRef .tc main_arg3) = A3 :=
  (show StableHlo.after ops13 (RW13 m c) (Proc.devRef .tc main_arg3) = RW13 m c (Proc.devRef .tc main_arg3) from by
    dsimp only [ops13]; after_results).trans (rat_13_arg3 m c)

theorem rat_14_arg4 : RW14 m c (Proc.devRef .tc main_arg4) = A4 :=
  (show StableHlo.after ops13 (RW13 m c) (Proc.devRef .tc main_arg4) = RW13 m c (Proc.devRef .tc main_arg4) from by
    dsimp only [ops13]; after_results).trans (rat_13_arg4 m c)

theorem rat_14_arg5 : RW14 m c (Proc.devRef .tc main_arg5) = A5 :=
  (show StableHlo.after ops13 (RW13 m c) (Proc.devRef .tc main_arg5) = RW13 m c (Proc.devRef .tc main_arg5) from by
    dsimp only [ops13]; after_results).trans (rat_13_arg5 m c)

theorem rat_14_arg6 : RW14 m c (Proc.devRef .tc main_arg6) = A6 :=
  (show StableHlo.after ops13 (RW13 m c) (Proc.devRef .tc main_arg6) = RW13 m c (Proc.devRef .tc main_arg6) from by
    dsimp only [ops13]; after_results).trans (rat_13_arg6 m c)

theorem rat_14_arg7 : RW14 m c (Proc.devRef .tc main_arg7) = A7 :=
  (show StableHlo.after ops13 (RW13 m c) (Proc.devRef .tc main_arg7) = RW13 m c (Proc.devRef .tc main_arg7) from by
    dsimp only [ops13]; after_results).trans (rat_13_arg7 m c)

theorem rat_14_arg8 : RW14 m c (Proc.devRef .tc main_arg8) = A8 :=
  (show StableHlo.after ops13 (RW13 m c) (Proc.devRef .tc main_arg8) = RW13 m c (Proc.devRef .tc main_arg8) from by
    dsimp only [ops13]; after_results).trans (rat_13_arg8 m c)

theorem rat_14_arg9 : RW14 m c (Proc.devRef .tc main_arg9) = A9 :=
  (show StableHlo.after ops13 (RW13 m c) (Proc.devRef .tc main_arg9) = RW13 m c (Proc.devRef .tc main_arg9) from by
    dsimp only [ops13]; after_results).trans (rat_13_arg9 m c)

set_option maxHeartbeats 4000000 in
theorem rat_14_v195 : RW14 m c (Proc.devRef .tc main_v195) = Cert.ReferenceIdeal.RefValue.feat3 A0 A1 A4 A5 A6 A7 A8 A9 := by
  show StableHlo.after ops13 (RW13 m c) (Proc.devRef .tc main_v195) = _
  dsimp only [ops13]
  after_results_simp
  rw [rat_13_v12 m c, rat_13_v143 m c, rat_13_v156 m c, rat_13_arg7 m c, rat_13_arg8 m c, rat_13_arg9 m c, rat_13_v140 m c]
  unfold Cert.ReferenceIdeal.RefValue.feat3 Cert.ReferenceIdeal.RefValue.layerNext Cert.ReferenceIdeal.RefValue.layerFirst Cert.ReferenceIdeal.RefValue.hostCombine
  refine congrArg₂ addf ?_ rfl
  refine congrArg₂ maximumf ?_ rfl
  refine congrArg₂ addf (congrArg₂ mulf (congrArg₂ mulf ?_ ?_) ?_) ?_ <;> rfl

/-! ## Boundary 15 -/

theorem rat_15_arg0 : RW15 m c (Proc.devRef .tc main_arg0) = A0 :=
  (show StableHlo.after ops14 (RW14 m c) (Proc.devRef .tc main_arg0) = RW14 m c (Proc.devRef .tc main_arg0) from by
    dsimp only [ops14]; after_results).trans (rat_14_arg0 m c)

theorem rat_15_arg1 : RW15 m c (Proc.devRef .tc main_arg1) = A1 :=
  (show StableHlo.after ops14 (RW14 m c) (Proc.devRef .tc main_arg1) = RW14 m c (Proc.devRef .tc main_arg1) from by
    dsimp only [ops14]; after_results).trans (rat_14_arg1 m c)

theorem rat_15_arg2 : RW15 m c (Proc.devRef .tc main_arg2) = A2 :=
  (show StableHlo.after ops14 (RW14 m c) (Proc.devRef .tc main_arg2) = RW14 m c (Proc.devRef .tc main_arg2) from by
    dsimp only [ops14]; after_results).trans (rat_14_arg2 m c)

theorem rat_15_arg3 : RW15 m c (Proc.devRef .tc main_arg3) = A3 :=
  (show StableHlo.after ops14 (RW14 m c) (Proc.devRef .tc main_arg3) = RW14 m c (Proc.devRef .tc main_arg3) from by
    dsimp only [ops14]; after_results).trans (rat_14_arg3 m c)

theorem rat_15_arg4 : RW15 m c (Proc.devRef .tc main_arg4) = A4 :=
  (show StableHlo.after ops14 (RW14 m c) (Proc.devRef .tc main_arg4) = RW14 m c (Proc.devRef .tc main_arg4) from by
    dsimp only [ops14]; after_results).trans (rat_14_arg4 m c)

theorem rat_15_arg5 : RW15 m c (Proc.devRef .tc main_arg5) = A5 :=
  (show StableHlo.after ops14 (RW14 m c) (Proc.devRef .tc main_arg5) = RW14 m c (Proc.devRef .tc main_arg5) from by
    dsimp only [ops14]; after_results).trans (rat_14_arg5 m c)

theorem rat_15_arg6 : RW15 m c (Proc.devRef .tc main_arg6) = A6 :=
  (show StableHlo.after ops14 (RW14 m c) (Proc.devRef .tc main_arg6) = RW14 m c (Proc.devRef .tc main_arg6) from by
    dsimp only [ops14]; after_results).trans (rat_14_arg6 m c)

theorem rat_15_arg7 : RW15 m c (Proc.devRef .tc main_arg7) = A7 :=
  (show StableHlo.after ops14 (RW14 m c) (Proc.devRef .tc main_arg7) = RW14 m c (Proc.devRef .tc main_arg7) from by
    dsimp only [ops14]; after_results).trans (rat_14_arg7 m c)

theorem rat_15_arg8 : RW15 m c (Proc.devRef .tc main_arg8) = A8 :=
  (show StableHlo.after ops14 (RW14 m c) (Proc.devRef .tc main_arg8) = RW14 m c (Proc.devRef .tc main_arg8) from by
    dsimp only [ops14]; after_results).trans (rat_14_arg8 m c)

theorem rat_15_arg9 : RW15 m c (Proc.devRef .tc main_arg9) = A9 :=
  (show StableHlo.after ops14 (RW14 m c) (Proc.devRef .tc main_arg9) = RW14 m c (Proc.devRef .tc main_arg9) from by
    dsimp only [ops14]; after_results).trans (rat_14_arg9 m c)

theorem rat_15_v195 : RW15 m c (Proc.devRef .tc main_v195) = Cert.ReferenceIdeal.RefValue.feat3 A0 A1 A4 A5 A6 A7 A8 A9 :=
  (show StableHlo.after ops14 (RW14 m c) (Proc.devRef .tc main_v195) = RW14 m c (Proc.devRef .tc main_v195) from by
    dsimp only [ops14]; after_results).trans (rat_14_v195 m c)

set_option maxHeartbeats 4000000 in
theorem rat_15_v207 : RW15 m c (Proc.devRef .tc main_v207) = Cert.ReferenceIdeal.RefValue.pool A3 (Cert.ReferenceIdeal.RefValue.feat3 A0 A1 A4 A5 A6 A7 A8 A9) := by
  show StableHlo.after ops14 (RW14 m c) (Proc.devRef .tc main_v207) = _
  dsimp only [ops14]
  after_results_simp
  rw [rat_14_arg3 m c, rat_14_v195 m c]
  rfl

end Cert.ReferenceIdeal.RefWalk

end
-- ==== Proof.Claims.lean ====
/-
  The five claims.  The three frames: the two kernel programs' are the generated frame certificates; the reference has
  no kernel, and its frame is its run with the results dropped.  The idealization rewrote no operation, so there is
  nothing to preserve.  The value claim: the idealized kernel's run ends with its two results at the last boundary's
  contents, which the walk through its boundaries shows to be the last two stages (the node features after the third
  layer, and their per-graph means) of its argument arrays; the reference's run ends with its results at the same
  stages of its own arguments, by the walk through its chunks; and the two programs' arguments agree.
-/
import proofs.«102601_j59450937311581_1_alg».proof.Defs
import proofs.«102601_j59450937311581_1_alg».proof.Proof.Gen.Kernel.Frame
import proofs.«102601_j59450937311581_1_alg».proof.Proof.Gen.KernelIdeal.Frame
import proofs.«102601_j59450937311581_1_alg».proof.Proof.Gen.ReferenceIdeal
import proofs.«102601_j59450937311581_1_alg».proof.Proof.Gen.Pre_finite_inputs
import proofs.«102601_j59450937311581_1_alg».proof.Proof.KernelRun
import proofs.«102601_j59450937311581_1_alg».proof.Proof.WalkD
import proofs.«102601_j59450937311581_1_alg».proof.Proof.RefWalkC2

set_option maxRecDepth 16384

noncomputable section

open Idealize.ShloMosaic Idealize.ShloMosaic.TcCoe Idealize.SL.Sem

namespace Cert.Proof.Claims

/-- Every weakly fair execution of the reference terminates, without a fault, with the node features after the third
    layer and their per-graph means in its two result buffers, and its argument arrays as launched. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v195) = Cert.ReferenceIdeal.RefValue.feat3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v207) = Cert.ReferenceIdeal.RefValue.pool (m ((c.tc : Thread Cert.ReferenceIdeal.nD Cert.ReferenceIdeal.τ).loc Cert.ReferenceIdeal.main_arg3)) (Cert.ReferenceIdeal.RefValue.feat3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono (fun r h c =>
    ⟨(h c Cert.ReferenceIdeal.main_v195).trans (Cert.ReferenceIdeal.RefWalk.rat_15_v195 m c),
     (h c Cert.ReferenceIdeal.main_v207).trans (Cert.ReferenceIdeal.RefWalk.rat_15_v207 m c),
     (h c Cert.ReferenceIdeal.main_arg0).trans (Cert.ReferenceIdeal.RefWalk.rat_15_arg0 m c),
     (h c Cert.ReferenceIdeal.main_arg1).trans (Cert.ReferenceIdeal.RefWalk.rat_15_arg1 m c),
     (h c Cert.ReferenceIdeal.main_arg2).trans (Cert.ReferenceIdeal.RefWalk.rat_15_arg2 m c),
     (h c Cert.ReferenceIdeal.main_arg3).trans (Cert.ReferenceIdeal.RefWalk.rat_15_arg3 m c),
     (h c Cert.ReferenceIdeal.main_arg4).trans (Cert.ReferenceIdeal.RefWalk.rat_15_arg4 m c),
     (h c Cert.ReferenceIdeal.main_arg5).trans (Cert.ReferenceIdeal.RefWalk.rat_15_arg5 m c),
     (h c Cert.ReferenceIdeal.main_arg6).trans (Cert.ReferenceIdeal.RefWalk.rat_15_arg6 m c),
     (h c Cert.ReferenceIdeal.main_arg7).trans (Cert.ReferenceIdeal.RefWalk.rat_15_arg7 m c),
     (h c Cert.ReferenceIdeal.main_arg8).trans (Cert.ReferenceIdeal.RefWalk.rat_15_arg8 m c),
     (h c Cert.ReferenceIdeal.main_arg9).trans (Cert.ReferenceIdeal.RefWalk.rat_15_arg9 m c)⟩)
    (Cert.ReferenceIdeal.RefRun.run_raw (F := Ideal) m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2) (ref_run m ρ)

theorem preserves : Cert.preserves_Kernel_KernelIdeal := trivial

/-- Both programs end with the node features after the third layer, and their per-graph means, of the same arguments. -/
theorem algebraic : Cert.algebraic_KernelIdeal_ReferenceIdeal := by
  intro m ρ m' ρ' _ hagree
  refine ⟨fun c => Cert.KernelIdeal.Gen.W15 m ρ c (Proc.devRef .tc Cert.KernelIdeal.main_v108),
    fun c => Cert.KernelIdeal.Gen.W15 m ρ c (Proc.devRef .tc Cert.KernelIdeal.main_v120), Cert.KernelIdeal.RunValue.run_final m ρ, ?_⟩
  refine (θ_run (Cert.ReferenceIdeal.defs (F := Ideal)) _ _).mono (fun _ h c => ⟨(h c).1.trans ?_, (h c).2.1.trans ?_, (h c).2.2⟩)
    (ref_run m' ρ')
  · obtain ⟨h0, h1, -, -, h4, h5, h6, h7, h8, h9⟩ := hagree c
    rw [h0, h1, h4, h5, h6, h7, h8, h9]
    exact (Cert.KernelIdeal.Walk.at_15_v108 m ρ c).symm
  · obtain ⟨h0, h1, -, h3, h4, h5, h6, h7, h8, h9⟩ := hagree c
    rw [h0, h1, h3, h4, h5, h6, h7, h8, h9]
    exact (Cert.KernelIdeal.Walk.at_15_v120 m ρ c).symm

end Cert.Proof.Claims

end
-- ==== Proof.lean ====
/-
  The certificate's claim from its five parts (Proof/Claims.lean), under the generated witnesses of the programs'
  stated side conditions.
-/
import proofs.«102601_j59450937311581_1_alg».proof.Defs
import proofs.«102601_j59450937311581_1_alg».proof.Proof.Gen.Kernel
import proofs.«102601_j59450937311581_1_alg».proof.Proof.Gen.KernelIdeal
import proofs.«102601_j59450937311581_1_alg».proof.Proof.Gen.ReferenceIdeal
import proofs.«102601_j59450937311581_1_alg».proof.Proof.Gen.Pre_finite_inputs
import proofs.«102601_j59450937311581_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
